-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102400x64 : Shape := ⟨2, ![102400, 64]⟩
abbrev S2x3276800 : Shape := ⟨2, ![2, 3276800]⟩
abbrev S3276800 : Shape := ⟨1, ![3276800]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S6400x256 : Shape := ⟨2, ![6400, 256]⟩
abbrev S256 : Shape := ⟨1, ![256]⟩
abbrev S256x128 : Shape := ⟨2, ![256, 128]⟩
abbrev S128 : Shape := ⟨1, ![128]⟩
abbrev S128x9 : Shape := ⟨2, ![128, 9]⟩
abbrev S9 : Shape := ⟨1, ![9]⟩
abbrev S_ : Shape := ⟨0, ![]⟩

class Facts : Prop where
  bcast_S_S102400x64 : S_.BroadcastsInDim S102400x64 (![] : Fin 0 → Fin S102400x64.rank)
  reducesTo_S102400x64_S_d0_1 : S102400x64.ReducesTo [0, 1] S_
  h_S_ : 0 < S_.numel
  bcast_S_S3276800 : S_.BroadcastsInDim S3276800 (![] : Fin 0 → Fin S3276800.rank)
  reducesTo_S3276800_S_d0 : S3276800.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S6400x256 : S_.BroadcastsInDim S6400x256 (![] : Fin 0 → Fin S6400x256.rank)
  reducesTo_S6400x256_S_d0_1 : S6400x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x9 : S_.BroadcastsInDim S128x9 (![] : Fin 0 → Fin S128x9.rank)
  reducesTo_S128x9_S_d0_1 : S128x9.ReducesTo [0, 1] S_
  bcast_S_S9 : S_.BroadcastsInDim S9 (![] : Fin 0 → Fin S9.rank)
  reducesTo_S9_S_d0 : S9.ReducesTo [0] S_

variable [Facts]

def fn_part4 {F : FTy → Type} [FloatOps F] (main_arg15 : FVec F S128 .f32) (main_arg16 : FVec F S128x9 .f32) (main_arg17 : FVec F S9 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x9 .f32 := Host.absf main_arg16
  let main_cst_28 : FVec F S_ .f32 := constant S_ .f32 0x7F800000#32
  let main_v75 : FVec F S128x9 .f32 := broadcastInDim S128x9 ![] bcast_S_S128x9 main_cst_28
  let main_v76 : IVec S128x9 1 := cmpf .olt main_v74 main_v75
  let main_c_29 : IVec S_ 1 := constantI S_ 1 1#1
  let main_v77 : IVec S_ 1 := (fun x v => Host.reduce IntOp.andi x v reducesTo_S128x9_S_d0_1 h_S_) main_v76 main_c_29
  let main_v78 : IVec S_ 1 := andi main_v73 main_v77
  let main_v79 : FVec F S9 .f32 := Host.absf main_arg17
  let main_cst_30 : FVec F S_ .f32 := constant S_ .f32 0x7F800000#32
  let main_v80 : FVec F S9 .f32 := broadcastInDim S9 ![] bcast_S_S9 main_cst_30
  let main_v81 : IVec S9 1 := cmpf .olt main_v79 main_v80
  let main_c_31 : IVec S_ 1 := constantI S_ 1 1#1
  let main_v82 : IVec S_ 1 := (fun x v => Host.reduce IntOp.andi x v reducesTo_S9_S_d0 h_S_) main_v81 main_c_31
  let main_v83 : IVec S_ 1 := andi main_v78 main_v82
  main_v83

def fn_part3 {F : FTy → Type} [FloatOps F] (main_arg12 : FVec F S6400x256 .f32) (main_arg13 : FVec F S256 .f32) (main_arg14 : FVec F S256x128 .f32) (main_arg15 : FVec F S128 .f32) (main_arg16 : FVec F S128x9 .f32) (main_arg17 : FVec F S9 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S6400x256 .f32 := Host.absf main_arg12
  let main_cst_20 : FVec F S_ .f32 := constant S_ .f32 0x7F800000#32
  let main_v55 : FVec F S6400x256 .f32 := broadcastInDim S6400x256 ![] bcast_S_S6400x256 main_cst_20
  let main_v56 : IVec S6400x256 1 := cmpf .olt main_v54 main_v55
  let main_c_21 : IVec S_ 1 := constantI S_ 1 1#1
  let main_v57 : IVec S_ 1 := (fun x v => Host.reduce IntOp.andi x v reducesTo_S6400x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_arg17 main_v63 main_v67

def fn_part2 {F : FTy → Type} [FloatOps F] (main_arg8 : FVec F S32 .f32) (main_arg9 : FVec F S32x16 .f32) (main_arg10 : FVec F S32x16 .f32) (main_arg11 : FVec F S16 .f32) (main_arg12 : FVec F S6400x256 .f32) (main_arg13 : FVec F S256 .f32) (main_arg14 : FVec F S256x128 .f32) (main_arg15 : FVec F S128 .f32) (main_arg16 : FVec F S128x9 .f32) (main_arg17 : FVec F S9 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg9
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_arg15 main_arg16 main_arg17 main_v48 main_v49 main_v50

def fn_part1 {F : FTy → Type} [FloatOps F] (main_arg5 : FVec F S32 .f32) (main_arg6 : FVec F S32x32 .f32) (main_arg7 : FVec F S32x32 .f32) (main_arg8 : FVec F S32 .f32) (main_arg9 : FVec F S32x16 .f32) (main_arg10 : FVec F S32x16 .f32) (main_arg11 : FVec F S16 .f32) (main_arg12 : FVec F S6400x256 .f32) (main_arg13 : FVec F S256 .f32) (main_arg14 : FVec F S256x128 .f32) (main_arg15 : FVec F S128 .f32) (main_arg16 : FVec F S128x9 .f32) (main_arg17 : FVec F S9 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S102400x64 .f32) (main_arg1 : IVec S2x3276800 32) (main_arg2 : FVec F S3276800 .f32) (main_arg3 : FVec F S64x32 .f32) (main_arg4 : FVec F S64x32 .f32) (main_arg5 : FVec F S32 .f32) (main_arg6 : FVec F S32x32 .f32) (main_arg7 : FVec F S32x32 .f32) (main_arg8 : FVec F S32 .f32) (main_arg9 : FVec F S32x16 .f32) (main_arg10 : FVec F S32x16 .f32) (main_arg11 : FVec F S16 .f32) (main_arg12 : FVec F S6400x256 .f32) (main_arg13 : FVec F S256 .f32) (main_arg14 : FVec F S256x128 .f32) (main_arg15 : FVec F S128 .f32) (main_arg16 : FVec F S128x9 .f32) (main_arg17 : FVec F S9 .f32) : IVec S_ 1 :=
  let main_v0 : FVec F S102400x64 .f32 := Host.absf main_arg0
  let main_cst : FVec F S_ .f32 := constant S_ .f32 0x7F800000#32
  let main_v1 : FVec F S102400x64 .f32 := broadcastInDim S102400x64 ![] bcast_S_S102400x64 main_cst
  let main_v2 : IVec S102400x64 1 := cmpf .olt main_v0 main_v1
  let main_c : IVec S_ 1 := constantI S_ 1 1#1
  let main_v3 : IVec S_ 1 := (fun x v => Host.reduce IntOp.andi x v reducesTo_S102400x64_S_d0_1 h_S_) main_v2 main_c
  let main_v4 : FVec F S3276800 .f32 := Host.absf main_arg2
  let main_cst_0 : FVec F S_ .f32 := constant S_ .f32 0x7F800000#32
  let main_v5 : FVec F S3276800 .f32 := broadcastInDim S3276800 ![] bcast_S_S3276800 main_cst_0
  let main_v6 : IVec S3276800 1 := cmpf .olt main_v4 main_v5
  let main_c_1 : IVec S_ 1 := constantI S_ 1 1#1
  let main_v7 : IVec S_ 1 := (fun x v => Host.reduce IntOp.andi x v reducesTo_S3276800_S_d0 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S102400x64 : Shape := ⟨2, ![102400, 64]⟩
abbrev S2x3276800 : Shape := ⟨2, ![2, 3276800]⟩
abbrev S3276800 : Shape := ⟨1, ![3276800]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S6400x256 : Shape := ⟨2, ![6400, 256]⟩
abbrev S256 : Shape := ⟨1, ![256]⟩
abbrev S256x128 : Shape := ⟨2, ![256, 128]⟩
abbrev S128 : Shape := ⟨1, ![128]⟩
abbrev S128x9 : Shape := ⟨2, ![128, 9]⟩
abbrev S9 : Shape := ⟨1, ![9]⟩
abbrev S1x3276800 : Shape := ⟨2, ![1, 3276800]⟩
abbrev S_ : Shape := ⟨0, ![]⟩
abbrev S102400 : Shape := ⟨1, ![102400]⟩
abbrev S3276800x1 : Shape := ⟨2, ![3276800, 1]⟩
abbrev S3276800x64 : Shape := ⟨2, ![3276800, 64]⟩
abbrev S1x32 : Shape := ⟨2, ![1, 32]⟩
abbrev S102400x32 : Shape := ⟨2, ![102400, 32]⟩
abbrev S4096x64 : Shape := ⟨2, ![4096, 64]⟩
abbrev S4096x32 : Shape := ⟨2, ![4096, 32]⟩
abbrev S3276800x32 : Shape := ⟨2, ![3276800, 32]⟩
abbrev S1x16 : Shape := ⟨2, ![1, 16]⟩
abbrev S102400x16 : Shape := ⟨2, ![102400, 16]⟩
abbrev S4096x16 : Shape := ⟨2, ![4096, 16]⟩
abbrev S256x6400 : Shape := ⟨2, ![256, 6400]⟩
abbrev S1x256 : Shape := ⟨2, ![1, 256]⟩
abbrev S1x128 : Shape := ⟨2, ![1, 128]⟩
abbrev S1x9 : Shape := ⟨2, ![1, 9]⟩
abbrev S256x9 : Shape := ⟨2, ![256, 9]⟩
abbrev S256x256 : Shape := ⟨2, ![256, 256]⟩

abbrev nBuf : Space → Nat
  | .hbm => 121
  | .vmem => 35
  | .smem => 0
  | _ => 0

abbrev bufTy : (tb : Table) → Fin (tcTables nBuf tb) → BufTy
  | .hbm, ⟨0, _⟩ => ⟨S102400x64, .f32⟩
  | .hbm, ⟨1, _⟩ => ⟨S2x3276800, .i32⟩
  | .hbm, ⟨2, _⟩ => ⟨S3276800, .f32⟩
  | .hbm, ⟨3, _⟩ => ⟨S64x32, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S32x16, .f32⟩
  | .hbm, ⟨10, _⟩ => ⟨S32x16, .f32⟩
  | .hbm, ⟨11, _⟩ => ⟨S16, .f32⟩
  | .hbm, ⟨12, _⟩ => ⟨S6400x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S128x9, .f32⟩
  | .hbm, ⟨17, _⟩ => ⟨S9, .f32⟩
  | .hbm, ⟨18, _⟩ => ⟨S1x3276800, .i32⟩
  | .hbm, ⟨19, _⟩ => ⟨S3276800, .i32⟩
  | .hbm, ⟨20, _⟩ => ⟨S1x3276800, .i32⟩
  | .hbm, ⟨21, _⟩ => ⟨S3276800, .i32⟩
  | .hbm, ⟨22, _⟩ => ⟨S_, .f32⟩
  | .hbm, ⟨23, _⟩ => ⟨S102400, .f32⟩
  | .hbm, ⟨24, _⟩ => ⟨S3276800x1, .i32⟩
  | .hbm, ⟨25, _⟩ => ⟨S102400, .f32⟩
  | .hbm, ⟨26, _⟩ => ⟨S_, .f32⟩
  | .hbm, ⟨27, _⟩ => ⟨S102400, .f32⟩
  | .hbm, ⟨28, _⟩ => ⟨S102400, .i1⟩
  | .hbm, ⟨29, _⟩ => ⟨S_, .f32⟩
  | .hbm, ⟨30, _⟩ => ⟨S_, .f32⟩
  | .hbm, ⟨31, _⟩ => ⟨S102400, .f32⟩
  | .hbm, ⟨32, _⟩ => ⟨S102400, .f32⟩
  | .hbm, ⟨33, _⟩ => ⟨S_, .f32⟩
  | .hbm, ⟨34, _⟩ => ⟨S102400, .f32⟩
  | .hbm, ⟨35, _⟩ => ⟨S102400, .i1⟩
  | .hbm, ⟨36, _⟩ => ⟨S102400, .f32⟩
  | .hbm, ⟨37, _⟩ => ⟨S_, .f32⟩
  | .hbm, ⟨38, _⟩ => ⟨S_, .f32⟩
  | .hbm, ⟨39, _⟩ => ⟨S102400, .f32⟩
  | .hbm, ⟨40, _⟩ => ⟨S102400, .f32⟩
  | .hbm, ⟨41, _⟩ => ⟨S_, .i32⟩
  | .hbm, ⟨42, _⟩ => ⟨S3276800, .i32⟩
  | .hbm, ⟨43, _⟩ => ⟨S3276800, .i1⟩
  | .hbm, ⟨44, _⟩ => ⟨S_, .i32⟩
  | .hbm, ⟨45, _⟩ => ⟨S3276800, .i32⟩
  | .hbm, ⟨46, _⟩ => ⟨S3276800, .i32⟩
  | .hbm, ⟨47, _⟩ => ⟨S3276800, .i32⟩
  | .hbm, ⟨48, _⟩ => ⟨S3276800x1, .i32⟩
  | .hbm, ⟨49, _⟩ => ⟨S3276800, .f32⟩
  | .hbm, ⟨50, _⟩ => ⟨S3276800, .f32⟩
  | .hbm, ⟨51, _⟩ => ⟨S_, .i32⟩
  | .hbm, ⟨52, _⟩ => ⟨S3276800, .i32⟩
  | .hbm, ⟨53, _⟩ => ⟨S3276800, .i1⟩
  | .hbm, ⟨54, _⟩ => ⟨S_, .i32⟩
  | .hbm, ⟨55, _⟩ => ⟨S3276800, .i32⟩
  | .hbm, ⟨56, _⟩ => ⟨S3276800, .i32⟩
  | .hbm, ⟨57, _⟩ => ⟨S3276800, .i32⟩
  | .hbm, ⟨58, _⟩ => ⟨S3276800x1, .i32⟩
  | .hbm, ⟨59, _⟩ => ⟨S3276800, .f32⟩
  | .hbm, ⟨60, _⟩ => ⟨S3276800, .f32⟩
  | .hbm, ⟨61, _⟩ => ⟨S3276800, .f32⟩
  | .hbm, ⟨62, _⟩ => ⟨S3276800x1, .f32⟩
  | .hbm, ⟨63, _⟩ => ⟨S_, .i32⟩
  | .hbm, ⟨64, _⟩ => ⟨S3276800, .i32⟩
  | .hbm, ⟨65, _⟩ => ⟨S3276800, .i1⟩
  | .hbm, ⟨66, _⟩ => ⟨S_, .i32⟩
  | .hbm, ⟨67, _⟩ => ⟨S3276800, .i32⟩
  | .hbm, ⟨68, _⟩ => ⟨S3276800, .i32⟩
  | .hbm, ⟨69, _⟩ => ⟨S3276800, .i32⟩
  | .hbm, ⟨70, _⟩ => ⟨S3276800x1, .i32⟩
  | .hbm, ⟨71, _⟩ => ⟨S3276800x64, .f32⟩
  | .hbm, ⟨72, _⟩ => ⟨S3276800x64, .f32⟩
  | .hbm, ⟨73, _⟩ => ⟨S3276800x64, .f32⟩
  | .hbm, ⟨74, _⟩ => ⟨S_, .f32⟩
  | .hbm, ⟨75, _⟩ => ⟨S102400x64, .f32⟩
  | .hbm, ⟨76, _⟩ => ⟨S3276800x1, .i32⟩
  | .hbm, ⟨77, _⟩ => ⟨S102400x64, .f32⟩
  | .hbm, ⟨78, _⟩ => ⟨S1x32, .f32⟩
  | .hbm, ⟨79, _⟩ => ⟨S102400x32, .f32⟩
  | .hbm, ⟨80, _⟩ => ⟨S3276800x1, .f32⟩
  | .hbm, ⟨81, _⟩ => ⟨S_, .i32⟩
  | .hbm, ⟨82, _⟩ => ⟨S3276800, .i32⟩
  | .hbm, ⟨83, _⟩ => ⟨S3276800, .i1⟩
  | .hbm, ⟨84, _⟩ => ⟨S_, .i32⟩
  | .hbm, ⟨85, _⟩ => ⟨S3276800, .i32⟩
  | .hbm, ⟨86, _⟩ => ⟨S3276800, .i32⟩
  | .hbm, ⟨87, _⟩ => ⟨S3276800, .i32⟩
  | .hbm, ⟨88, _⟩ => ⟨S3276800x1, .i32⟩
  | .hbm, ⟨89, _⟩ => ⟨S3276800x32, .f32⟩
  | .hbm, ⟨90, _⟩ => ⟨S3276800x32, .f32⟩
  | .hbm, ⟨91, _⟩ => ⟨S3276800x32, .f32⟩
  | .hbm, ⟨92, _⟩ => ⟨S_, .f32⟩
  | .hbm, ⟨93, _⟩ => ⟨S102400x32, .f32⟩
  | .hbm, ⟨94, _⟩ => ⟨S3276800x1, .i32⟩
  | .hbm, ⟨95, _⟩ => ⟨S102400x32, .f32⟩
  | .hbm, ⟨96, _⟩ => ⟨S1x32, .f32⟩
  | .hbm, ⟨97, _⟩ => ⟨S102400x32, .f32⟩
  | .hbm, ⟨98, _⟩ => ⟨S3276800x1, .f32⟩
  | .hbm, ⟨99, _⟩ => ⟨S_, .i32⟩
  | .hbm, ⟨100, _⟩ => ⟨S3276800, .i32⟩
  | .hbm, ⟨101, _⟩ => ⟨S3276800, .i1⟩
  | .hbm, ⟨102, _⟩ => ⟨S_, .i32⟩
  | .hbm, ⟨103, _⟩ => ⟨S3276800, .i32⟩
  | .hbm, ⟨104, _⟩ => ⟨S3276800, .i32⟩
  | .hbm, ⟨105, _⟩ => ⟨S3276800, .i32⟩
  | .hbm, ⟨106, _⟩ => ⟨S3276800x1, .i32⟩
  | .hbm, ⟨107, _⟩ => ⟨S3276800x32, .f32⟩
  | .hbm, ⟨108, _⟩ => ⟨S3276800x32, .f32⟩
  | .hbm, ⟨109, _⟩ => ⟨S3276800x32, .f32⟩
  | .hbm, ⟨110, _⟩ => ⟨S_, .f32⟩
  | .hbm, ⟨111, _⟩ => ⟨S102400x32, .f32⟩
  | .hbm, ⟨112, _⟩ => ⟨S3276800x1, .i32⟩
  | .hbm, ⟨113, _⟩ => ⟨S102400x32, .f32⟩
  | .hbm, ⟨114, _⟩ => ⟨S1x16, .f32⟩
  | .hbm, ⟨115, _⟩ => ⟨S102400x16, .f32⟩
  | .hbm, ⟨116, _⟩ => ⟨S256x6400, .f32⟩
  | .hbm, ⟨117, _⟩ => ⟨S1x256, .f32⟩
  | .hbm, ⟨118, _⟩ => ⟨S1x128, .f32⟩
  | .hbm, ⟨119, _⟩ => ⟨S1x9, .f32⟩
  | .hbm, ⟨120, _⟩ => ⟨S256x9, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x32, .f32⟩
  | .local _ .vmem, ⟨5, _⟩ => ⟨S64x32, .f32⟩
  | .local _ .vmem, ⟨6, _⟩ => ⟨S1x32, .f32⟩
  | .local _ .vmem, ⟨7, _⟩ => ⟨S4096x32, .f32⟩
  | .local _ .vmem, ⟨8, _⟩ => ⟨S4096x32, .f32⟩
  | .local _ .vmem, ⟨9, _⟩ => ⟨S4096x32, .f32⟩
  | .local _ .vmem, ⟨10, _⟩ => ⟨S4096x32, .f32⟩
  | .local _ .vmem, ⟨11, _⟩ => ⟨S4096x32, .f32⟩
  | .local _ .vmem, ⟨12, _⟩ => ⟨S4096x32, .f32⟩
  | .local _ .vmem, ⟨13, _⟩ => ⟨S32x32, .f32⟩
  | .local _ .vmem, ⟨14, _⟩ => ⟨S32x32, .f32⟩
  | .local _ .vmem, ⟨15, _⟩ => ⟨S1x32, .f32⟩
  | .local _ .vmem, ⟨16, _⟩ => ⟨S4096x32, .f32⟩
  | .local _ .vmem, ⟨17, _⟩ => ⟨S4096x32, .f32⟩
  | .local _ .vmem, ⟨18, _⟩ => ⟨S4096x32, .f32⟩
  | .local _ .vmem, ⟨19, _⟩ => ⟨S4096x32, .f32⟩
  | .local _ .vmem, ⟨20, _⟩ => ⟨S4096x32, .f32⟩
  | .local _ .vmem, ⟨21, _⟩ => ⟨S4096x32, .f32⟩
  | .local _ .vmem, ⟨22, _⟩ => ⟨S32x16, .f32⟩
  | .local _ .vmem, ⟨23, _⟩ => ⟨S32x16, .f32⟩
  | .local _ .vmem, ⟨24, _⟩ => ⟨S1x16, .f32⟩
  | .local _ .vmem, ⟨25, _⟩ => ⟨S4096x16, .f32⟩
  | .local _ .vmem, ⟨26, _⟩ => ⟨S4096x16, .f32⟩
  | .local _ .vmem, ⟨27, _⟩ => ⟨S256x6400, .f32⟩
  | .local _ .vmem, ⟨28, _⟩ => ⟨S6400x256, .f32⟩
  | .local _ .vmem, ⟨29, _⟩ => ⟨S1x256, .f32⟩
  | .local _ .vmem, ⟨30, _⟩ => ⟨S256x128, .f32⟩
  | .local _ .vmem, ⟨31, _⟩ => ⟨S1x128, .f32⟩
  | .local _ .vmem, ⟨32, _⟩ => ⟨S128x9, .f32⟩
  | .local _ .vmem, ⟨33, _⟩ => ⟨S1x9, .f32⟩
  | .local _ .vmem, ⟨34, _⟩ => ⟨S256x9, .f32⟩
  | _, _ => ⟨S102400x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_c_8 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_c_11 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_12 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_13 : Ref sig .tc := ⟨.hbm, 99, rfl⟩
abbrev main_v62 : Ref sig .tc := ⟨.hbm, 100, rfl⟩
abbrev main_v63 : Ref sig .tc := ⟨.hbm, 101, rfl⟩
abbrev main_c_14 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_15 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x6400 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S6400x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x9 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x9 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x9 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x3276800_S1x3276800_0_0 : S2x3276800.Slices ![0, 0] S1x3276800
  shapeCasts_S1x3276800_S3276800 : S1x3276800.ShapeCasts S3276800
  slices_S2x3276800_S1x3276800_1_0 : S2x3276800.Slices ![1, 0] S1x3276800
  bcast_S_S102400 : S_.BroadcastsInDim S102400 (![] : Fin 0 → Fin S102400.rank)
  bcast_S3276800_S3276800x1_0 : S3276800.BroadcastsInDim S3276800x1 (![0] : Fin 1 → Fin S3276800x1.rank)
  bcast_S_S3276800 : S_.BroadcastsInDim S3276800 (![] : Fin 0 → Fin S3276800.rank)
  bcast_S3276800x1_S3276800x64_0_1 : S3276800x1.BroadcastsInDim S3276800x64 (![0, 1] : Fin 2 → Fin S3276800x64.rank)
  bcast_S_S102400x64 : S_.BroadcastsInDim S102400x64 (![] : Fin 0 → Fin S102400x64.rank)
  shapeCasts_S32_S1x32 : S32.ShapeCasts S1x32
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  shapeCasts_S4096x64_S4096x64 : S4096x64.ShapeCasts S4096x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  bcast_S3276800x1_S3276800x32_0_1 : S3276800x1.BroadcastsInDim S3276800x32 (![0, 1] : Fin 2 → Fin S3276800x32.rank)
  bcast_S_S102400x32 : S_.BroadcastsInDim S102400x32 (![] : Fin 0 → Fin S102400x32.rank)
  shapeCasts_S4096x32_S4096x32 : S4096x32.ShapeCasts S4096x32
  inb_S32x32_S32x32_0_0 : ∀ a, (![0, 0] : Fin 2 → Nat) a + S32x32.size a ≤ S32x32.size a
  h_S32x32 : 0 < S32x32.numel
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  shapeCasts_S102400x16_S256x6400 : S102400x16.ShapeCasts S256x6400
  shapeCasts_S256_S1x256 : S256.ShapeCasts S1x256
  shapeCasts_S128_S1x128 : S128.ShapeCasts S1x128
  shapeCasts_S9_S1x9 : S9.ShapeCasts S1x9
  inb_S256x6400_S256x6400_0_0 : ∀ a, (![0, 0] : Fin 2 → Nat) a + S256x6400.size a ≤ S256x6400.size a
  h_S256x6400 : 0 < S256x6400.numel
  shapeCasts_S256x6400_S256x6400 : S256x6400.ShapeCasts S256x6400
  inb_S6400x256_S6400x256_0_0 : ∀ a, (![0, 0] : Fin 2 → Nat) a + S6400x256.size a ≤ S6400x256.size a
  h_S6400x256 : 0 < S6400x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x9_S128x9_0_0 : ∀ a, (![0, 0] : Fin 2 → Nat) a + S128x9.size a ≤ S128x9.size a
  h_S128x9 : 0 < S128x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S256x9 : S1x9.Broadcasts S256x9
  inb_S256x9_S256x9_0_0 : ∀ a, (![0, 0] : Fin 2 → Nat) a + S256x9.size a ≤ S256x9.size a
  h_S256x9 : 0 < S256x9.numel
  scatter_S102400_S3276800x1_S3276800_n_0_0_1_wf : ScatterDims.WF S102400 S3276800x1 S3276800 [] [0] [0] 1
  gather_S102400_S3276800x1_S3276800_n_0_n_n_0_1_1_wf : GatherDims.WF S102400 S3276800x1 S3276800 [] [0] [] [0] [] 1 ![1]
  gather_S102400x64_S3276800x1_S3276800x64_1_0_n_n_0_1_164_wf : GatherDims.WF S102400x64 S3276800x1 S3276800x64 [1] [0] [] [0] [] 1 ![1, 64]
  scatter_S102400x64_S3276800x1_S3276800x64_1_0_0_1_wf : ScatterDims.WF S102400x64 S3276800x1 S3276800x64 [1] [0] [0] 1
  dot_S4096x64_S64x32_S4096x32_1_0_0_1_n_n_wf : DotDims.WF S4096x64 S64x32 S4096x32 [1] [0] [0] [1] [] []
  gather_S102400x32_S3276800x1_S3276800x32_1_0_n_n_0_1_132_wf : GatherDims.WF S102400x32 S3276800x1 S3276800x32 [1] [0] [] [0] [] 1 ![1, 32]
  scatter_S102400x32_S3276800x1_S3276800x32_1_0_0_1_wf : ScatterDims.WF S102400x32 S3276800x1 S3276800x32 [1] [0] [0] 1
  dot_S4096x32_S32x32_S4096x32_1_0_0_1_n_n_wf : DotDims.WF S4096x32 S32x32 S4096x32 [1] [0] [0] [1] [] []
  dot_S4096x32_S32x16_S4096x16_1_0_0_1_n_n_wf : DotDims.WF S4096x32 S32x16 S4096x16 [1] [0] [0] [1] [] []
  dot_S256x6400_S6400x256_S256x256_1_0_0_1_n_n_wf : DotDims.WF S256x6400 S6400x256 S256x256 [1] [0] [0] [1] [] []
  dot_S256x256_S256x128_S256x128_1_0_0_1_n_n_wf : DotDims.WF S256x256 S256x128 S256x128 [1] [0] [0] [1] [] []
  dot_S256x128_S128x9_S256x9_1_0_0_1_n_n_wf : DotDims.WF S256x128 S128x9 S256x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S102400x64.size a
  hwx0_0 : ∀ i : grid0.Coords, EltTy.bits .f32 = 32 ∨ (Rect.block (s := S102400x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S102400x64.size a
  hwx0_1 : ∀ i : grid0.Coords, EltTy.bits .f32 = 32 ∨ (Rect.block (s := S102400x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x32.size a ≤ S102400x32.size a
  hwx0_5 : ∀ i : grid0.Coords, EltTy.bits .f32 = 32 ∨ (Rect.block (s := S102400x32) S4096x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x32.size a ≤ S102400x32.size a
  hwx1_0 : ∀ i : grid1.Coords, EltTy.bits .f32 = 32 ∨ (Rect.block (s := S102400x32) S4096x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S102400x32.size a
  hwx1_1 : ∀ i : grid1.Coords, EltTy.bits .f32 = 32 ∨ (Rect.block (s := S102400x32) S4096x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x32.size a ≤ S102400x32.size a
  hwx1_5 : ∀ i : grid1.Coords, EltTy.bits .f32 = 32 ∨ (Rect.block (s := S102400x32) S4096x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x32.size a ≤ S102400x32.size a
  hwx2_0 : ∀ i : grid2.Coords, EltTy.bits .f32 = 32 ∨ (Rect.block (s := S102400x32) S4096x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x32.size a ≤ S102400x32.size a
  hwx2_1 : ∀ i : grid2.Coords, EltTy.bits .f32 = 32 ∨ (Rect.block (s := S102400x32) S4096x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x16.size a ≤ S102400x16.size a
  hwx2_5 : ∀ i : grid2.Coords, EltTy.bits .f32 = 32 ∨ (Rect.block (s := S102400x16) S4096x16.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x6400.size a ≤ S256x6400.size a
  hwx3_0 : ∀ i : grid3.Coords, EltTy.bits .f32 = 32 ∨ (Rect.block (s := S256x6400) S256x6400.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S6400x256.size a ≤ S6400x256.size a
  hwx3_1 : ∀ i : grid3.Coords, EltTy.bits .f32 = 32 ∨ (Rect.block (s := S6400x256) S6400x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x9.size a ≤ S128x9.size a
  hwx3_5 : ∀ i : grid3.Coords, EltTy.bits .f32 = 32 ∨ (Rect.block (s := S128x9) S128x9.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x9.size a ≤ S1x9.size a
  hwx3_6 : ∀ i : grid3.Coords, EltTy.bits .f32 = 32 ∨ (Rect.block (s := S1x9) S1x9.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x9.size a ≤ S256x9.size a
  hwx3_7 : ∀ i : grid3.Coords, EltTy.bits .f32 = 32 ∨ (Rect.block (s := S256x9) S256x9.size (cc3_transform_7 i) (hinb3_7 i)).WholeWords (EltTy.packing .f32)

variable [Facts₀]

def scatter_S102400_S3276800x1_S3276800_n_0_0_1 : ScatterDims S102400 S3276800x1 S3276800 where
  updateWindowDims := []
  insertedWindowDims := [0]
  scatterDimsToOperandDims := [0]
  indexVectorDim := 1
  wf := scatter_S102400_S3276800x1_S3276800_n_0_0_1_wf
def gather_S102400_S3276800x1_S3276800_n_0_n_n_0_1_1 : GatherDims S102400 S3276800x1 S3276800 where
  offsetDims := []
  collapsedSliceDims := [0]
  operandBatchingDims := []
  startIndicesBatchingDims := []
  startIndexMap := [0]
  indexVectorDim := 1
  sliceSizes := ![1]
  wf := gather_S102400_S3276800x1_S3276800_n_0_n_n_0_1_1_wf
def gather_S102400x64_S3276800x1_S3276800x64_1_0_n_n_0_1_164 : GatherDims S102400x64 S3276800x1 S3276800x64 where
  offsetDims := [1]
  collapsedSliceDims := [0]
  operandBatchingDims := []
  startIndicesBatchingDims := []
  startIndexMap := [0]
  indexVectorDim := 1
  sliceSizes := ![1, 64]
  wf := gather_S102400x64_S3276800x1_S3276800x64_1_0_n_n_0_1_164_wf
def scatter_S102400x64_S3276800x1_S3276800x64_1_0_0_1 : ScatterDims S102400x64 S3276800x1 S3276800x64 where
  updateWindowDims := [1]
  insertedWindowDims := [0]
  scatterDimsToOperandDims := [0]
  indexVectorDim := 1
  wf := scatter_S102400x64_S3276800x1_S3276800x64_1_0_0_1_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def gather_S102400x32_S3276800x1_S3276800x32_1_0_n_n_0_1_132 : GatherDims S102400x32 S3276800x1 S3276800x32 where
  offsetDims := [1]
  collapsedSliceDims := [0]
  operandBatchingDims := []
  startIndicesBatchingDims := []
  startIndexMap := [0]
  indexVectorDim := 1
  sliceSizes := ![1, 32]
  wf := gather_S102400x32_S3276800x1_S3276800x32_1_0_n_n_0_1_132_wf
def scatter_S102400x32_S3276800x1_S3276800x32_1_0_0_1 : ScatterDims S102400x32 S3276800x1 S3276800x32 where
  updateWindowDims := [1]
  insertedWindowDims := [0]
  scatterDimsToOperandDims := [0]
  indexVectorDim := 1
  wf := scatter_S102400x32_S3276800x1_S3276800x32_1_0_0_1_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S256x6400_S6400x256_S256x256_1_0_0_1_n_n : DotDims S256x6400 S6400x256 S256x256 where
  lhsContracting := [1]
  rhsContracting := [0]
  lhsNonContracting := [0]
  rhsNonContracting := [1]
  lhsBatch := []
  rhsBatch := []
  wf := dot_S256x6400_S6400x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x9_S256x9_1_0_0_1_n_n : DotDims S256x128 S128x9 S256x9 where
  lhsContracting := [1]
  rhsContracting := [0]
  lhsNonContracting := [0]
  rhsNonContracting := [1]
  lhsBatch := []
  rhsBatch := []
  wf := dot_S256x128_S128x9_S256x9_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S4096x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S4096x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S4096x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S4096x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S4096x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S256x6400.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S6400x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg16) S128x9.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S1x9.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v80) S256x9.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S102400x64 : Shape := ⟨2, ![102400, 64]⟩
abbrev S2x3276800 : Shape := ⟨2, ![2, 3276800]⟩
abbrev S3276800 : Shape := ⟨1, ![3276800]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S6400x256 : Shape := ⟨2, ![6400, 256]⟩
abbrev S256 : Shape := ⟨1, ![256]⟩
abbrev S256x128 : Shape := ⟨2, ![256, 128]⟩
abbrev S128 : Shape := ⟨1, ![128]⟩
abbrev S128x9 : Shape := ⟨2, ![128, 9]⟩
abbrev S9 : Shape := ⟨1, ![9]⟩
abbrev S1x3276800 : Shape := ⟨2, ![1, 3276800]⟩
abbrev S_ : Shape := ⟨0, ![]⟩
abbrev S102400 : Shape := ⟨1, ![102400]⟩
abbrev S3276800x1 : Shape := ⟨2, ![3276800, 1]⟩
abbrev S3276800x64 : Shape := ⟨2, ![3276800, 64]⟩
abbrev S102400x32 : Shape := ⟨2, ![102400, 32]⟩
abbrev S1x32 : Shape := ⟨2, ![1, 32]⟩
abbrev S3276800x32 : Shape := ⟨2, ![3276800, 32]⟩
abbrev S102400x16 : Shape := ⟨2, ![102400, 16]⟩
abbrev S1x16 : Shape := ⟨2, ![1, 16]⟩
abbrev S256x6400 : Shape := ⟨2, ![256, 6400]⟩
abbrev S256x256 : Shape := ⟨2, ![256, 256]⟩
abbrev S1x256 : Shape := ⟨2, ![1, 256]⟩
abbrev S1x128 : Shape := ⟨2, ![1, 128]⟩
abbrev S256x9 : Shape := ⟨2, ![256, 9]⟩
abbrev S1x9 : Shape := ⟨2, ![1, 9]⟩

abbrev nBuf : Space → Nat
  | .hbm => 150
  | .vmem => 0
  | .smem => 0
  | _ => 0

abbrev hbmTy0_0 (i : Nat) : BufTy := match i % 128 with
  | 0 => ⟨S102400x64, .f32⟩
  | 1 => ⟨S2x3276800, .i32⟩
  | 2 => ⟨S3276800, .f32⟩
  | 3 => ⟨S64x32, .f32⟩
  | 4 => ⟨S64x32, .f32⟩
  | 5 => ⟨S32, .f32⟩
  | 6 => ⟨S32x32, .f32⟩
  | 7 => ⟨S32x32, .f32⟩
  | 8 => ⟨S32, .f32⟩
  | 9 => ⟨S32x16, .f32⟩
  | 10 => ⟨S32x16, .f32⟩
  | 11 => ⟨S16, .f32⟩
  | 12 => ⟨S6400x256, .f32⟩
  | 13 => ⟨S256, .f32⟩
  | 14 => ⟨S256x128, .f32⟩
  | 15 => ⟨S128, .f32⟩
  | 16 => ⟨S128x9, .f32⟩
  | 17 => ⟨S9, .f32⟩
  | 18 => ⟨S1x3276800, .i32⟩
  | 19 => ⟨S3276800, .i32⟩
  | 20 => ⟨S1x3276800, .i32⟩
  | 21 => ⟨S3276800, .i32⟩
  | 22 => ⟨S_, .f32⟩
  | 23 => ⟨S102400, .f32⟩
  | 24 => ⟨S3276800x1, .i32⟩
  | 25 => ⟨S102400, .f32⟩
  | 26 => ⟨S_, .f32⟩
  | 27 => ⟨S102400, .f32⟩
  | 28 => ⟨S102400, .i1⟩
  | 29 => ⟨S_, .f32⟩
  | 30 => ⟨S_, .f32⟩
  | 31 => ⟨S102400, .f32⟩
  | 32 => ⟨S102400, .f32⟩
  | 33 => ⟨S_, .f32⟩
  | 34 => ⟨S102400, .f32⟩
  | 35 => ⟨S102400, .i1⟩
  | 36 => ⟨S102400, .f32⟩
  | 37 => ⟨S_, .f32⟩
  | 38 => ⟨S_, .f32⟩
  | 39 => ⟨S102400, .f32⟩
  | 40 => ⟨S102400, .f32⟩
  | 41 => ⟨S_, .i32⟩
  | 42 => ⟨S3276800, .i32⟩
  | 43 => ⟨S3276800, .i1⟩
  | 44 => ⟨S_, .i32⟩
  | 45 => ⟨S3276800, .i32⟩
  | 46 => ⟨S3276800, .i32⟩
  | 47 => ⟨S3276800, .i32⟩
  | 48 => ⟨S3276800x1, .i32⟩
  | 49 => ⟨S3276800, .f32⟩
  | 50 => ⟨S3276800, .f32⟩
  | 51 => ⟨S_, .i32⟩
  | 52 => ⟨S3276800, .i32⟩
  | 53 => ⟨S3276800, .i1⟩
  | 54 => ⟨S_, .i32⟩
  | 55 => ⟨S3276800, .i32⟩
  | 56 => ⟨S3276800, .i32⟩
  | 57 => ⟨S3276800, .i32⟩
  | 58 => ⟨S3276800x1, .i32⟩
  | 59 => ⟨S3276800, .f32⟩
  | 60 => ⟨S3276800, .f32⟩
  | 61 => ⟨S3276800, .f32⟩
  | 62 => ⟨S3276800x1, .f32⟩
  | 63 => ⟨S_, .i32⟩
  | 64 => ⟨S3276800, .i32⟩
  | 65 => ⟨S3276800, .i1⟩
  | 66 => ⟨S_, .i32⟩
  | 67 => ⟨S3276800, .i32⟩
  | 68 => ⟨S3276800, .i32⟩
  | 69 => ⟨S3276800, .i32⟩
  | 70 => ⟨S3276800x1, .i32⟩
  | 71 => ⟨S3276800x64, .f32⟩
  | 72 => ⟨S3276800x64, .f32⟩
  | 73 => ⟨S3276800x64, .f32⟩
  | 74 => ⟨S_, .f32⟩
  | 75 => ⟨S102400x64, .f32⟩
  | 76 => ⟨S3276800x1, .i32⟩
  | 77 => ⟨S102400x64, .f32⟩
  | 78 => ⟨S102400x32, .f32⟩
  | 79 => ⟨S102400x32, .f32⟩
  | 80 => ⟨S102400x32, .f32⟩
  | 81 => ⟨S1x32, .f32⟩
  | 82 => ⟨S102400x32, .f32⟩
  | 83 => ⟨S102400x32, .f32⟩
  | 84 => ⟨S_, .f32⟩
  | 85 => ⟨S102400x32, .f32⟩
  | 86 => ⟨S102400x32, .f32⟩
  | 87 => ⟨S3276800x1, .f32⟩
  | 88 => ⟨S_, .i32⟩
  | 89 => ⟨S3276800, .i32⟩
  | 90 => ⟨S3276800, .i1⟩
  | 91 => ⟨S_, .i32⟩
  | 92 => ⟨S3276800, .i32⟩
  | 93 => ⟨S3276800, .i32⟩
  | 94 => ⟨S3276800, .i32⟩
  | 95 => ⟨S3276800x1, .i32⟩
  | 96 => ⟨S3276800x32, .f32⟩
  | 97 => ⟨S3276800x32, .f32⟩
  | 98 => ⟨S3276800x32, .f32⟩
  | 99 => ⟨S_, .f32⟩
  | 100 => ⟨S102400x32, .f32⟩
  | 101 => ⟨S3276800x1, .i32⟩
  | 102 => ⟨S102400x32, .f32⟩
  | 103 => ⟨S102400x32, .f32⟩
  | 104 => ⟨S102400x32, .f32⟩
  | 105 => ⟨S102400x32, .f32⟩
  | 106 => ⟨S1x32, .f32⟩
  | 107 => ⟨S102400x32, .f32⟩
  | 108 => ⟨S102400x32, .f32⟩
  | 109 => ⟨S_, .f32⟩
  | 110 => ⟨S102400x32, .f32⟩
  | 111 => ⟨S102400x32, .f32⟩
  | 112 => ⟨S3276800x1, .f32⟩
  | 113 => ⟨S_, .i32⟩
  | 114 => ⟨S3276800, .i32⟩
  | 115 => ⟨S3276800, .i1⟩
  | 116 => ⟨S_, .i32⟩
  | 117 => ⟨S3276800, .i32⟩
  | 118 => ⟨S3276800, .i32⟩
  | 119 => ⟨S3276800, .i32⟩
  | 120 => ⟨S3276800x1, .i32⟩
  | 121 => ⟨S3276800x32, .f32⟩
  | 122 => ⟨S3276800x32, .f32⟩
  | 123 => ⟨S3276800x32, .f32⟩
  | 124 => ⟨S_, .f32⟩
  | 125 => ⟨S102400x32, .f32⟩
  | 126 => ⟨S3276800x1, .i32⟩
  | 127 => ⟨S102400x32, .f32⟩
  | _ => ⟨S102400x64, .f32⟩

abbrev hbmTy0_1 (i : Nat) : BufTy := match i % 128 with
  | 0 => ⟨S102400x16, .f32⟩
  | 1 => ⟨S102400x16, .f32⟩
  | 2 => ⟨S102400x16, .f32⟩
  | 3 => ⟨S1x16, .f32⟩
  | 4 => ⟨S102400x16, .f32⟩
  | 5 => ⟨S102400x16, .f32⟩
  | 6 => ⟨S_, .f32⟩
  | 7 => ⟨S102400x16, .f32⟩
  | 8 => ⟨S102400x16, .f32⟩
  | 9 => ⟨S256x6400, .f32⟩
  | 10 => ⟨S256x256, .f32⟩
  | 11 => ⟨S1x256, .f32⟩
  | 12 => ⟨S256x256, .f32⟩
  | 13 => ⟨S256x256, .f32⟩
  | 14 => ⟨S256x128, .f32⟩
  | 15 => ⟨S1x128, .f32⟩
  | 16 => ⟨S256x128, .f32⟩
  | 17 => ⟨S256x128, .f32⟩
  | 18 => ⟨S256x9, .f32⟩
  | 19 => ⟨S1x9, .f32⟩
  | 20 => ⟨S256x9, .f32⟩
  | 21 => ⟨S256x9, .f32⟩
  | _ => ⟨S102400x64, .f32⟩

abbrev hbmTy (i : Nat) : BufTy := match i / 128 with
  | 0 => hbmTy0_0 i
  | 1 => hbmTy0_1 i
  | _ => ⟨S102400x64, .f32⟩

abbrev bufTy : (tb : Table) → Fin (tcTables nBuf tb) → BufTy
  | .hbm, ⟨i, _⟩ => hbmTy i
  | _, _ => ⟨S102400x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_c_8 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call2_cst : Ref sig .tc := ⟨.hbm, 84, rfl⟩
abbrev main_call2_v0 : Ref sig .tc := ⟨.hbm, 85, rfl⟩
abbrev main_v50 : Ref sig .tc := ⟨.hbm, 86, rfl⟩
abbrev main_v51 : Ref sig .tc := ⟨.hbm, 87, rfl⟩
abbrev main_c_10 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_12 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_call3_cst : Ref sig .tc := ⟨.hbm, 109, rfl⟩
abbrev main_call3_v0 : Ref sig .tc := ⟨.hbm, 110, rfl⟩
abbrev main_v70 : Ref sig .tc := ⟨.hbm, 111, rfl⟩
abbrev main_v71 : Ref sig .tc := ⟨.hbm, 112, rfl⟩
abbrev main_c_13 : Ref sig .tc := ⟨.hbm, 113, rfl⟩
abbrev main_v72 : Ref sig .tc := ⟨.hbm, 114, rfl⟩
abbrev main_v73 : Ref sig .tc := ⟨.hbm, 115, rfl⟩
abbrev main_c_14 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_15 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_call4_cst : Ref sig .tc := ⟨.hbm, 134, rfl⟩
abbrev main_call4_v0 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩

abbrev nD : Nat := 1
abbrev τ : Topo := Topo.v7x

variable {F : FTy → Type} [FloatOps F]

class Facts₀ : Prop where
  slices_S2x3276800_S1x3276800_0_0 : S2x3276800.Slices ![0, 0] S1x3276800
  shapeCasts_S1x3276800_S3276800 : S1x3276800.ShapeCasts S3276800
  slices_S2x3276800_S1x3276800_1_0 : S2x3276800.Slices ![1, 0] S1x3276800
  bcast_S_S102400 : S_.BroadcastsInDim S102400 (![] : Fin 0 → Fin S102400.rank)
  bcast_S3276800_S3276800x1_0 : S3276800.BroadcastsInDim S3276800x1 (![0] : Fin 1 → Fin S3276800x1.rank)
  bcast_S_S3276800 : S_.BroadcastsInDim S3276800 (![] : Fin 0 → Fin S3276800.rank)
  bcast_S3276800x1_S3276800x64_0_1 : S3276800x1.BroadcastsInDim S3276800x64 (![0, 1] : Fin 2 → Fin S3276800x64.rank)
  bcast_S_S102400x64 : S_.BroadcastsInDim S102400x64 (![] : Fin 0 → Fin S102400x64.rank)
  bcast_S32_S1x32_1 : S32.BroadcastsInDim S1x32 (![1] : Fin 1 → Fin S1x32.rank)
  bcast_S1x32_S102400x32_0_1 : S1x32.BroadcastsInDim S102400x32 (![0, 1] : Fin 2 → Fin S102400x32.rank)
  bcast_S_S102400x32 : S_.BroadcastsInDim S102400x32 (![] : Fin 0 → Fin S102400x32.rank)
  bcast_S3276800x1_S3276800x32_0_1 : S3276800x1.BroadcastsInDim S3276800x32 (![0, 1] : Fin 2 → Fin S3276800x32.rank)
  bcast_S16_S1x16_1 : S16.BroadcastsInDim S1x16 (![1] : Fin 1 → Fin S1x16.rank)
  bcast_S1x16_S102400x16_0_1 : S1x16.BroadcastsInDim S102400x16 (![0, 1] : Fin 2 → Fin S102400x16.rank)
  bcast_S_S102400x16 : S_.BroadcastsInDim S102400x16 (![] : Fin 0 → Fin S102400x16.rank)
  shapeCasts_S102400x16_S256x6400 : S102400x16.ShapeCasts S256x6400
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S9_S1x9_1 : S9.BroadcastsInDim S1x9 (![1] : Fin 1 → Fin S1x9.rank)
  bcast_S1x9_S256x9_0_1 : S1x9.BroadcastsInDim S256x9 (![0, 1] : Fin 2 → Fin S256x9.rank)
  scatter_S102400_S3276800x1_S3276800_n_0_0_1_wf : ScatterDims.WF S102400 S3276800x1 S3276800 [] [0] [0] 1
  gather_S102400_S3276800x1_S3276800_n_0_n_n_0_1_1_wf : GatherDims.WF S102400 S3276800x1 S3276800 [] [0] [] [0] [] 1 ![1]
  gather_S102400x64_S3276800x1_S3276800x64_1_0_n_n_0_1_164_wf : GatherDims.WF S102400x64 S3276800x1 S3276800x64 [1] [0] [] [0] [] 1 ![1, 64]
  scatter_S102400x64_S3276800x1_S3276800x64_1_0_0_1_wf : ScatterDims.WF S102400x64 S3276800x1 S3276800x64 [1] [0] [0] 1
  dot_S102400x64_S64x32_S102400x32_1_0_0_1_n_n_wf : DotDims.WF S102400x64 S64x32 S102400x32 [1] [0] [0] [1] [] []
  gather_S102400x32_S3276800x1_S3276800x32_1_0_n_n_0_1_132_wf : GatherDims.WF S102400x32 S3276800x1 S3276800x32 [1] [0] [] [0] [] 1 ![1, 32]
  scatter_S102400x32_S3276800x1_S3276800x32_1_0_0_1_wf : ScatterDims.WF S102400x32 S3276800x1 S3276800x32 [1] [0] [0] 1
  dot_S102400x32_S32x32_S102400x32_1_0_0_1_n_n_wf : DotDims.WF S102400x32 S32x32 S102400x32 [1] [0] [0] [1] [] []
  dot_S102400x32_S32x16_S102400x16_1_0_0_1_n_n_wf : DotDims.WF S102400x32 S32x16 S102400x16 [1] [0] [0] [1] [] []
  dot_S256x6400_S6400x256_S256x256_1_0_0_1_n_n_wf : DotDims.WF S256x6400 S6400x256 S256x256 [1] [0] [0] [1] [] []
  dot_S256x256_S256x128_S256x128_1_0_0_1_n_n_wf : DotDims.WF S256x256 S256x128 S256x128 [1] [0] [0] [1] [] []
  dot_S256x128_S128x9_S256x9_1_0_0_1_n_n_wf : DotDims.WF S256x128 S128x9 S256x9 [1] [0] [0] [1] [] []

variable [Facts₀]

def scatter_S102400_S3276800x1_S3276800_n_0_0_1 : ScatterDims S102400 S3276800x1 S3276800 where
  updateWindowDims := []
  insertedWindowDims := [0]
  scatterDimsToOperandDims := [0]
  indexVectorDim := 1
  wf := scatter_S102400_S3276800x1_S3276800_n_0_0_1_wf
def gather_S102400_S3276800x1_S3276800_n_0_n_n_0_1_1 : GatherDims S102400 S3276800x1 S3276800 where
  offsetDims := []
  collapsedSliceDims := [0]
  operandBatchingDims := []
  startIndicesBatchingDims := []
  startIndexMap := [0]
  indexVectorDim := 1
  sliceSizes := ![1]
  wf := gather_S102400_S3276800x1_S3276800_n_0_n_n_0_1_1_wf
def gather_S102400x64_S3276800x1_S3276800x64_1_0_n_n_0_1_164 : GatherDims S102400x64 S3276800x1 S3276800x64 where
  offsetDims := [1]
  collapsedSliceDims := [0]
  operandBatchingDims := []
  startIndicesBatchingDims := []
  startIndexMap := [0]
  indexVectorDim := 1
  sliceSizes := ![1, 64]
  wf := gather_S102400x64_S3276800x1_S3276800x64_1_0_n_n_0_1_164_wf
def scatter_S102400x64_S3276800x1_S3276800x64_1_0_0_1 : ScatterDims S102400x64 S3276800x1 S3276800x64 where
  updateWindowDims := [1]
  insertedWindowDims := [0]
  scatterDimsToOperandDims := [0]
  indexVectorDim := 1
  wf := scatter_S102400x64_S3276800x1_S3276800x64_1_0_0_1_wf
def dot_S102400x64_S64x32_S102400x32_1_0_0_1_n_n : DotDims S102400x64 S64x32 S102400x32 where
  lhsContracting := [1]
  rhsContracting := [0]
  lhsNonContracting := [0]
  rhsNonContracting := [1]
  lhsBatch := []
  rhsBatch := []
  wf := dot_S102400x64_S64x32_S102400x32_1_0_0_1_n_n_wf
def gather_S102400x32_S3276800x1_S3276800x32_1_0_n_n_0_1_132 : GatherDims S102400x32 S3276800x1 S3276800x32 where
  offsetDims := [1]
  collapsedSliceDims := [0]
  operandBatchingDims := []
  startIndicesBatchingDims := []
  startIndexMap := [0]
  indexVectorDim := 1
  sliceSizes := ![1, 32]
  wf := gather_S102400x32_S3276800x1_S3276800x32_1_0_n_n_0_1_132_wf
def scatter_S102400x32_S3276800x1_S3276800x32_1_0_0_1 : ScatterDims S102400x32 S3276800x1 S3276800x32 where
  updateWindowDims := [1]
  insertedWindowDims := [0]
  scatterDimsToOperandDims := [0]
  indexVectorDim := 1
  wf := scatter_S102400x32_S3276800x1_S3276800x32_1_0_0_1_wf
def dot_S102400x32_S32x32_S102400x32_1_0_0_1_n_n : DotDims S102400x32 S32x32 S102400x32 where
  lhsContracting := [1]
  rhsContracting := [0]
  lhsNonContracting := [0]
  rhsNonContracting := [1]
  lhsBatch := []
  rhsBatch := []
  wf := dot_S102400x32_S32x32_S102400x32_1_0_0_1_n_n_wf
def dot_S102400x32_S32x16_S102400x16_1_0_0_1_n_n : DotDims S102400x32 S32x16 S102400x16 where
  lhsContracting := [1]
  rhsContracting := [0]
  lhsNonContracting := [0]
  rhsNonContracting := [1]
  lhsBatch := []
  rhsBatch := []
  wf := dot_S102400x32_S32x16_S102400x16_1_0_0_1_n_n_wf
def dot_S256x6400_S6400x256_S256x256_1_0_0_1_n_n : DotDims S256x6400 S6400x256 S256x256 where
  lhsContracting := [1]
  rhsContracting := [0]
  lhsNonContracting := [0]
  rhsNonContracting := [1]
  lhsBatch := []
  rhsBatch := []
  wf := dot_S256x6400_S6400x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x9_S256x9_1_0_0_1_n_n : DotDims S256x128 S128x9 S256x9 where
  lhsContracting := [1]
  rhsContracting := [0]
  lhsNonContracting := [0]
  rhsNonContracting := [1]
  lhsBatch := []
  rhsBatch := []
  wf := dot_S256x128_S128x9_S256x9_1_0_0_1_n_n_wf

class Facts : Prop extends Facts₀ where

variable [Facts]
-- ==== Proof.RunNamed.lean ====
/-
  The kernel program's run with its result NAMED: every weakly fair execution of @main — five stretches of host
  operations, then four kernel regions with a stretch of host operations before each — terminates, nothing
  faulting, with the result buffer at what the last boundary's contents hold there (the fold `Gen.W12` through the
  stretches and the regions' write-backs) and the argument arrays as launched. The segments, their chaining and the
  launch are the frame's; only what is read off the final state differs: the result buffer beside the arguments.
-/
import proofs.«104714_j6545530159286_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v80) = W12 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v80 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c)⟩)

end Cert.KernelIdeal.Whole

end
-- ==== Proof.Spec.lean ====
/-
  The mathematics both programs compute, as functions of whole arrays over the extended reals.
  One graph-convolution layer takes node features `h` ([N, A]), their neighbourhood aggregate `tx` ([N, A]: the
  Laplacian-weighted sum over incoming edges, computed outside by gather and scatter-add), two weight matrices
  ([A, B]) and a bias row ([1, B]), and returns `max (h·W₀ + tx·W₁ + b, 0)`, entry (n, j) being
  `max ((Σ_k h[n,k]·W₀[k,j] + Σ_k tx[n,k]·W₁[k,j]) + b[0,j], 0)` with the sums and the order of the three additions as
  written (on the extended reals addition is commutative and associative, but nothing here needs to regroup).
  The read-out head is three affine maps `x·W + b` one after the other.
-/
import Idealize.ShloMosaic.PureOps.Ideal
import Idealize.ShloMosaic.PureOps.Ideal.Laws
import Idealize.ShloMosaic.Lib.ValueIdx

noncomputable section

namespace Cert.GraphNet

open Idealize.ShloMosaic Idealize.ShloMosaic.ValueIdx

/-- `max (h·W₀ + tx·W₁ + b, 0)`, entry by entry: row `n` of the result depends on row `n` of `h` and of `tx` only. -/
def layer (N A B : ℕ) (h tx : FVec Ideal ⟨2, ![N, A]⟩ .f32) (w0 w1 : FVec Ideal ⟨2, ![A, B]⟩ .f32)
    (b : FVec Ideal ⟨2, ![1, B]⟩ .f32) : FVec Ideal ⟨2, ![N, B]⟩ .f32 :=
  fun i => max (((∑ k : Fin A, h (ix2 (i 0) k) * w0 (ix2 k (i 1))) + ∑ k : Fin A, tx (ix2 (i 0) k) * w1 (ix2 k (i 1)))
    + b (ix2 0 (i 1))) (Ideal.ofBits .f32 0x00000000#32)

/-- `x·W + b`, entry (r, j) being `Σ_k x[r,k]·W[k,j] + b[0,j]`. -/
def affine (M K N : ℕ) (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => (∑ k : Fin K, x (ix2 (i 0) k) * w (ix2 k (i 1))) + b (ix2 0 (i 1))

theorem layer_apply (N A B : ℕ) (h tx : FVec Ideal ⟨2, ![N, A]⟩ .f32) (w0 w1 : FVec Ideal ⟨2, ![A, B]⟩ .f32)
    (b : FVec Ideal ⟨2, ![1, B]⟩ .f32) (n : Fin N) (j : Fin B) :
    layer N A B h tx w0 w1 b (ix2 n j) = max (((∑ k : Fin A, h (ix2 n k) * w0 (ix2 k j)) + ∑ k : Fin A, tx (ix2 n k) * w1 (ix2 k j))
      + b (ix2 0 j)) (Ideal.ofBits .f32 0x00000000#32) := rfl

theorem affine_apply (M K N : ℕ) (x : FVec Ideal ⟨2, ![M, K]⟩ .f32) (w : FVec Ideal ⟨2, ![K, N]⟩ .f32)
    (b : FVec Ideal ⟨2, ![1, N]⟩ .f32) (r : Fin M) (j : Fin N) :
    affine M K N x w b (ix2 r j) = (∑ k : Fin K, x (ix2 r k) * w (ix2 k j)) + b (ix2 0 j) := rfl

end Cert.GraphNet

end
-- ==== Proof.Layer0Body.lean ====
/-
  Region 0 of the kernel program (graph-convolution layer 1, 64 → 32 channels) as ONE function of whole arrays.
  The grid has 25 points; point `t` holds rows `4096·t … 4096·t + 4095` of the node features and of their aggregate,
  both weight matrices and the bias row whole, and writes rows `4096·t …` of the result. Row `n` of a layer's result
  depends on row `n` of its two row operands only, so the block point `t` writes is the block of
  `GraphNet.layer` of the WHOLE operand arrays, and the 25 blocks tile the result.
  The body's two matrix products accumulate into zero, so each entry is the plain sum over the 64 contracted
  positions; the narrowing of the operands to bf16 before each product is the identity on extended reals.
-/
import proofs.«104714_j6545530159286_1_alg».proof.Proof.Gen.KernelIdeal.Frame
import proofs.«104714_j6545530159286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen

/-! ## A matrix product into a zero accumulator, entry by entry -/

theorem lhs_0 (i : S4096x32.Idx) (q : dot_S4096x64_S64x32_S4096x32_1_0_0_1_n_n.contr.Idx) : (dot_S4096x64_S64x32_S4096x32_1_0_0_1_n_n.lhsIdx i q 0).val = (i 0).val := by
  unfold DotDims.lhsIdx
  rw [dif_neg (show ¬(0 : Fin S4096x64.rank) ∈ dot_S4096x64_S64x32_S4096x32_1_0_0_1_n_n.lhsBatch by decide), dif_pos (show (0 : Fin S4096x64.rank) ∈ dot_S4096x64_S64x32_S4096x32_1_0_0_1_n_n.lhsNonContracting by decide)]
  rfl
theorem lhs_1 (i : S4096x32.Idx) (q : dot_S4096x64_S64x32_S4096x32_1_0_0_1_n_n.contr.Idx) : (dot_S4096x64_S64x32_S4096x32_1_0_0_1_n_n.lhsIdx i q 1).val = (q ⟨0, by decide⟩).val :=
  dot_S4096x64_S64x32_S4096x32_1_0_0_1_n_n.lhsIdx_val_of_single rfl i q
theorem rhs_0 (i : S4096x32.Idx) (q : dot_S4096x64_S64x32_S4096x32_1_0_0_1_n_n.contr.Idx) : (dot_S4096x64_S64x32_S4096x32_1_0_0_1_n_n.rhsIdx i q 0).val = (q ⟨0, by decide⟩).val :=
  dot_S4096x64_S64x32_S4096x32_1_0_0_1_n_n.rhsIdx_val_of_single rfl i q
theorem rhs_1 (i : S4096x32.Idx) (q : dot_S4096x64_S64x32_S4096x32_1_0_0_1_n_n.contr.Idx) : (dot_S4096x64_S64x32_S4096x32_1_0_0_1_n_n.rhsIdx i q 1).val = (i 1).val := by
  unfold DotDims.rhsIdx
  rw [dif_neg (show ¬(1 : Fin S64x32.rank) ∈ dot_S4096x64_S64x32_S4096x32_1_0_0_1_n_n.rhsBatch by decide), dif_pos (show (1 : Fin S64x32.rank) ∈ dot_S4096x64_S64x32_S4096x32_1_0_0_1_n_n.rhsNonContracting by decide)]
  rfl

/-- Entry (p, q) of a [4096, 64] × [64, 32] product accumulated into zero is the sum over the 64 contracted positions. -/
theorem mm_apply {φ₁ φ₂ : FTy} (l : FVec Ideal S4096x64 φ₁) (r : FVec Ideal S64x32 φ₂) (p : Fin 4096) (q : Fin 32) :
    FloatOps.matmul dot_S4096x64_S64x32_S4096x32_1_0_0_1_n_n none l r (constant (F := Ideal) S4096x32 .f32 0x00000000#32) (ix2 p q) = ∑ k : Fin 64, l (ix2 p k) * r (ix2 k q) := by
  refine (Ideal.matmul_constant_zero_apply dot_S4096x64_S64x32_S4096x32_1_0_0_1_n_n none l r (ix2 p q)).trans ?_
  rw [← Equiv.sum_comp (ValueIdx.contrEquiv1 dot_S4096x64_S64x32_S4096x32_1_0_0_1_n_n 64 rfl rfl).symm]
  refine Finset.sum_congr rfl fun k _ => ?_
  have hk := ValueIdx.contrEquiv1_symm_val dot_S4096x64_S64x32_S4096x32_1_0_0_1_n_n 64 rfl rfl k
  have el : dot_S4096x64_S64x32_S4096x32_1_0_0_1_n_n.lhsIdx (ix2 p q) ((ValueIdx.contrEquiv1 dot_S4096x64_S64x32_S4096x32_1_0_0_1_n_n 64 rfl rfl).symm k) = ix2 p k := funext fun a => Fin.ext (by
    match a with
    | ⟨0, _⟩ => exact lhs_0 _ _
    | ⟨1, _⟩ => exact (lhs_1 _ _).trans hk)
  have er : dot_S4096x64_S64x32_S4096x32_1_0_0_1_n_n.rhsIdx (ix2 p q) ((ValueIdx.contrEquiv1 dot_S4096x64_S64x32_S4096x32_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## The body's stored value, entry by entry -/

/-- Entry (p, q) of what the body stores, from the blocks it loaded. -/
theorem pay_apply (x0 x1 : Vec Ideal S4096x64 .f32) (x2 x3 : Vec Ideal S64x32 .f32) (x4 : Vec Ideal S1x32 .f32) (p : Fin 4096) (q : Fin 32) :
    k0_pay1 (F := Ideal) x0 x1 x2 x3 x4 (ix2 p q)
      = max (((∑ k : Fin 64, x0 (ix2 p k) * x2 (ix2 k q)) + ∑ k : Fin 64, x1 (ix2 p k) * x3 (ix2 k q)) + x4 (ix2 0 q))
          (Ideal.ofBits .f32 0x00000000#32) := by
  unfold k0_pay1
  simp only [shapeCast_self]
  show max ((FloatOps.matmul (F := Ideal) dot_S4096x64_S64x32_S4096x32_1_0_0_1_n_n none (truncf .bf16 x0 bitsLt_bf16_f32) (truncf .bf16 x2 bitsLt_bf16_f32) (constant (F := Ideal) S4096x32 .f32 0x00000000#32) (ix2 p q)
      + FloatOps.matmul (F := Ideal) dot_S4096x64_S64x32_S4096x32_1_0_0_1_n_n none (truncf .bf16 x1 bitsLt_bf16_f32) (truncf .bf16 x3 bitsLt_bf16_f32) (constant (F := Ideal) S4096x32 .f32 0x00000000#32) (ix2 p q))
      + broadcastTo S4096x32 x4 broadcasts_S1x32_S4096x32 (ix2 p q)) (Ideal.ofBits .f32 0x00000000#32) = _
  rw [mm_apply, mm_apply]
  rw [show broadcastTo S4096x32 x4 broadcasts_S1x32_S4096x32 (ix2 p q) = x4 (ix2 (0 : Fin 1) q) from
    broadcastTo_1b_ab_apply (a := 4096) (b := 32) x4 _ p q]
  rfl

end Cert.KernelIdeal.Layer0

end
-- ==== Proof.Layer0Array.lean ====
/-
  Region 0 of the kernel program: from the blocks the 25 grid points write to the whole result array.
  Point `t`'s block of a row operand is rows `4096·t … 4096·t + 4095` of its array, the weight and bias blocks are
  the whole arrays, and the block written back is rows `4096·t …` of the result; since a layer's row `n` reads row
  `n` of its row operands only, that block is the block of `GraphNet.layer` of the whole arrays. Every row `n` lies in
  the block of point `n / 4096`, so the result array ends as `GraphNet.layer` of the arrays the region was entered with.
-/
import proofs.«104714_j6545530159286_1_alg».proof.Proof.Layer0Body

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the others stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 := by
  have h := t.isLt
  have hN : cfg0.N = 25 := N_0
  omega

/-- Rows of the node features in point `t`'s block. -/
theorem read_0 (c : Dev nD) (t : Fin cfg0.N) (p : Fin 4096) (k : Fin 64) (n : Fin 102400) (hn : n.val = t.val * 4096 + p.val) :
    (iblk0 V c 0 t : Vec Ideal S4096x64 .f32) (ix2 p k) = (V c (Pipeline.arrRef spec0 0) : Vec Ideal S102400x64 .f32) (ix2 n k) := by
  obtain ⟨e0, e1, -⟩ := idx_facts t
  unfold iblk0
  rw [View.read_apply]
  refine congrArg (V c (Pipeline.arrRef spec0 0) : Vec Ideal S102400x64 .f32) (funext fun a => Fin.ext ?_)
  match a with
  | ⟨0, _⟩ => show win0_0.index t 0 * 4096 + 1 * p.val = n.val; rw [e0, hn]; omega
  | ⟨1, _⟩ => show win0_0.index t 1 * 64 + 1 * k.val = k.val; rw [e1]; omega

/-- Rows of the aggregate in point `t`'s block. -/
theorem read_1 (c : Dev nD) (t : Fin cfg0.N) (p : Fin 4096) (k : Fin 64) (n : Fin 102400) (hn : n.val = t.val * 4096 + p.val) :
    (iblk0 V c 1 t : Vec Ideal S4096x64 .f32) (ix2 p k) = (V c (Pipeline.arrRef spec0 1) : Vec Ideal S102400x64 .f32) (ix2 n k) := by
  obtain ⟨-, -, e0, e1, -⟩ := idx_facts t
  unfold iblk0
  rw [View.read_apply]
  refine congrArg (V c (Pipeline.arrRef spec0 1) : Vec Ideal S102400x64 .f32) (funext fun a => Fin.ext ?_)
  match a with
  | ⟨0, _⟩ => show win0_1.index t 0 * 4096 + 1 * p.val = n.val; rw [e0, hn]; omega
  | ⟨1, _⟩ => show win0_1.index t 1 * 64 + 1 * k.val = k.val; rw [e1]; omega

/-- The first weight matrix is its own block at every point. -/
theorem read_2 (c : Dev nD) (t : Fin cfg0.N) (k : Fin 64) (q : Fin 32) :
    (iblk0 V c 2 t : Vec Ideal S64x32 .f32) (ix2 k q) = (V c (Pipeline.arrRef spec0 2) : Vec Ideal S64x32 .f32) (ix2 k q) := by
  obtain ⟨-, -, -, -, e0, e1, -⟩ := idx_facts t
  unfold iblk0
  rw [View.read_apply]
  refine congrArg (V c (Pipeline.arrRef spec0 2) : Vec Ideal S64x32 .f32) (funext fun a => Fin.ext ?_)
  match a with
  | ⟨0, _⟩ => show win0_2.index t 0 * 64 + 1 * k.val = k.val; rw [e0]; omega
  | ⟨1, _⟩ => show win0_2.index t 1 * 32 + 1 * q.val = q.val; rw [e1]; omega

/-- The second weight matrix is its own block at every point. -/
theorem read_3 (c : Dev nD) (t : Fin cfg0.N) (k : Fin 64) (q : Fin 32) :
    (iblk0 V c 3 t : Vec Ideal S64x32 .f32) (ix2 k q) = (V c (Pipeline.arrRef spec0 3) : Vec Ideal S64x32 .f32) (ix2 k q) := by
  obtain ⟨-, -, -, -, -, -, e0, e1, -⟩ := idx_facts t
  unfold iblk0
  rw [View.read_apply]
  refine congrArg (V c (Pipeline.arrRef spec0 3) : Vec Ideal S64x32 .f32) (funext fun a => Fin.ext ?_)
  match a with
  | ⟨0, _⟩ => show win0_3.index t 0 * 64 + 1 * k.val = k.val; rw [e0]; omega
  | ⟨1, _⟩ => show win0_3.index t 1 * 32 + 1 * q.val = q.val; rw [e1]; omega

/-- The bias row is its own block at every point. -/
theorem read_4 (c : Dev nD) (t : Fin cfg0.N) (z : Fin 1) (q : Fin 32) :
    (iblk0 V c 4 t : Vec Ideal S1x32 .f32) (ix2 z q) = (V c (Pipeline.arrRef spec0 4) : Vec Ideal S1x32 .f32) (ix2 z q) := by
  obtain ⟨-, -, -, -, -, -, -, -, e0, e1, -⟩ := idx_facts t
  unfold iblk0
  rw [View.read_apply]
  refine congrArg (V c (Pipeline.arrRef spec0 4) : Vec Ideal S1x32 .f32) (funext fun a => Fin.ext ?_)
  match a with
  | ⟨0, _⟩ => show win0_4.index t 0 * 1 + 1 * z.val = z.val; rw [e0]; omega
  | ⟨1, _⟩ => show win0_4.index t 1 * 32 + 1 * q.val = q.val; rw [e1]; omega

/-- The layer of the arrays the region is entered with. -/
abbrev result (c : Dev nD) : Vec Ideal S102400x32 .f32 :=
  GraphNet.layer 102400 64 32 (V c (Pipeline.arrRef spec0 0)) (V c (Pipeline.arrRef spec0 1)) (V c (Pipeline.arrRef spec0 2))
    (V c (Pipeline.arrRef spec0 3)) (V c (Pipeline.arrRef spec0 4))

/-- Entry (p, q) of what point `t` stores is entry (4096·t + p, q) of the layer of the whole arrays. -/
theorem point_apply (c : Dev nD) (t : Fin cfg0.N) (p : Fin 4096) (q : Fin 32) (n : Fin 102400) (hn : n.val = t.val * 4096 + p.val) :
    k0_pay1 (F := Ideal) (iblk0 V c 0 t) (iblk0 V c 1 t) (iblk0 V c 2 t) (iblk0 V c 3 t) (iblk0 V c 4 t) (ix2 p q)
      = result V c (ix2 n q) := by
  refine (pay_apply (iblk0 V c 0 t) (iblk0 V c 1 t) (iblk0 V c 2 t) (iblk0 V c 3 t) (iblk0 V c 4 t) p q).trans ?_
  refine Eq.trans ?_ (GraphNet.layer_apply 102400 64 32 _ _ _ _ _ n q).symm
  rw [read_4 V c t 0 q]
  refine congrArg (fun s => max (s + _) _) ?_
  refine congrArg₂ (· + ·) (Finset.sum_congr rfl fun k _ => ?_) (Finset.sum_congr rfl fun k _ => ?_)
  · rw [read_0 V c t p k n hn, read_2 V c t k q]
  · rw [read_1 V c t p k n hn, read_3 V c t k q]

/-- WHAT POINT `t` WRITES BACK is block `t` of the layer of the arrays the region is entered with. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S4096x64) hz, View.ld_unit_zero (S := S64x32) hz, View.ld_unit_zero (S := S1x32) hz]
  funext j
  have ht := point_lt t
  obtain ⟨-, -, -, -, -, -, -, -, -, -, e0, e1⟩ := idx_facts t
  have hj0 : (j 0).val < 4096 := (j 0).isLt
  have hj1 : (j 1).val < 32 := (j 1).isLt
  show k0_pay1 (F := Ideal) (iblk0 V c 0 t) (iblk0 V c 1 t) (iblk0 V c 2 t) (iblk0 V c 3 t) (iblk0 V c 4 t) j
    = result V c (((cfg0.win 5).blk t).view.emb j)
  have hemb : ((cfg0.win 5).blk t).view.emb j = ix2 (⟨t.val * 4096 + (j 0).val, by omega⟩ : Fin 102400) (⟨(j 1).val, hj1⟩ : Fin 32) := by
    funext a; apply Fin.ext
    match a with
    | ⟨0, _⟩ => show win0_5.index t (0 : Fin 2) * 4096 + 1 * (j 0).val = t.val * 4096 + (j 0).val; rw [e0]; omega
    | ⟨1, _⟩ => show win0_5.index t (1 : Fin 2) * 32 + 1 * (j 1).val = (j 1).val; rw [e1]; omega
  rw [hemb]
  have hjj : j = ix2 (⟨(j 0).val, hj0⟩ : Fin 4096) (⟨(j 1).val, hj1⟩ : Fin 32) := by
    funext a; apply Fin.ext
    match a with
    | ⟨0, _⟩ => rfl
    | ⟨1, _⟩ => rfl
  exact (congrArg (k0_pay1 (F := Ideal) (iblk0 V c 0 t) (iblk0 V c 1 t) (iblk0 V c 2 t) (iblk0 V c 3 t) (iblk0 V c 4 t)) hjj).trans
    (point_apply V c t ⟨(j 0).val, hj0⟩ ⟨(j 1).val, hj1⟩ ⟨t.val * 4096 + (j 0).val, by omega⟩ rfl)

/-- An index of the result array is in point `t`'s block iff each coordinate is in the block's range on its axis. -/
theorem mem_blk (t : Fin cfg0.N) (i : S102400x32.Idx) :
    i ∈ ((cfg0.win 5).blk t).view.set ↔ ∀ a : Fin 2, win0_5.index t a * S4096x32.size a ≤ (i a).val ∧ (i a).val < win0_5.index t a * S4096x32.size a + S4096x32.size a := by
  show i ∈ ((View.whole (Pipeline.arrRef spec0 5)).slice (win0_5.rect t)).set ↔ _
  rw [View.set_slice_whole, Rect.mem_set_unit]
  exact Iff.rfl

/-- Every row is in the block of the point numbered by its quotient by 4096. -/
theorem cover (i : S102400x32.Idx) : ∃ t : Fin cfg0.N, (cfg0.win 5).flush t = true ∧ i ∈ ((cfg0.win 5).blk t).view.set := by
  have hi0 : (i 0).val < 102400 := (i 0).isLt
  have hi1 : (i 1).val < 32 := (i 1).isLt
  have hN : cfg0.N = 25 := N_0
  refine ⟨⟨(i 0).val / 4096, by rw [hN]; omega⟩, flush0_5 _, ?_⟩
  rw [mem_blk]
  obtain ⟨-, -, -, -, -, -, -, -, -, -, e0, e1⟩ := idx_facts ⟨(i 0).val / 4096, by rw [hN]; omega⟩
  intro a
  match a with
  | ⟨0, _⟩ =>
    show win0_5.index _ (0 : Fin 2) * 4096 ≤ (i 0).val ∧ (i 0).val < win0_5.index _ (0 : Fin 2) * 4096 + 4096
    rw [e0]; show (i 0).val / 4096 * 4096 ≤ (i 0).val ∧ (i 0).val < (i 0).val / 4096 * 4096 + 4096; omega
  | ⟨1, _⟩ =>
    show win0_5.index _ (1 : Fin 2) * 32 ≤ (i 1).val ∧ (i 1).val < win0_5.index _ (1 : Fin 2) * 32 + 32
    rw [e1]; omega

/-- THE RESULT ARRAY after the region: the layer of the arrays the region is entered with. -/
theorem final (c : Dev nD) : (dat0 V c).arrAt 5 cfg0.N = result V c :=
  (dat0 V c).arrAt_eq_of_cover 5 (result V c) (fun t _ => flushed_eq V c t) cover

end Cert.KernelIdeal.Layer0

end
-- ==== Proof.Layer1Body.lean ====
/-
  Region 1 of the kernel program (graph-convolution layer 2, 32 → 32 channels) as ONE function of whole arrays.
  The grid has 25 points; point `t` holds rows `4096·t … 4096·t + 4095` of the node features and of their aggregate,
  both weight matrices and the bias row whole, and writes rows `4096·t …` of the result. Row `n` of a layer's result
  depends on row `n` of its two row operands only, so the block point `t` writes is the block of
  `GraphNet.layer` of the WHOLE operand arrays, and the 25 blocks tile the result.
  The body's two matrix products accumulate into zero, so each entry is the plain sum over the 32 contracted
  positions; the narrowing of the operands to bf16 before each product is the identity on extended reals.
-/
import proofs.«104714_j6545530159286_1_alg».proof.Proof.Gen.KernelIdeal.Frame
import proofs.«104714_j6545530159286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

/-! ## A matrix product into a zero accumulator, entry by entry -/

theorem lhs_0 (i : S4096x32.Idx) (q : dot_S4096x32_S32x32_S4096x32_1_0_0_1_n_n.contr.Idx) : (dot_S4096x32_S32x32_S4096x32_1_0_0_1_n_n.lhsIdx i q 0).val = (i 0).val := by
  unfold DotDims.lhsIdx
  rw [dif_neg (show ¬(0 : Fin S4096x32.rank) ∈ dot_S4096x32_S32x32_S4096x32_1_0_0_1_n_n.lhsBatch by decide), dif_pos (show (0 : Fin S4096x32.rank) ∈ dot_S4096x32_S32x32_S4096x32_1_0_0_1_n_n.lhsNonContracting by decide)]
  rfl
theorem lhs_1 (i : S4096x32.Idx) (q : dot_S4096x32_S32x32_S4096x32_1_0_0_1_n_n.contr.Idx) : (dot_S4096x32_S32x32_S4096x32_1_0_0_1_n_n.lhsIdx i q 1).val = (q ⟨0, by decide⟩).val :=
  dot_S4096x32_S32x32_S4096x32_1_0_0_1_n_n.lhsIdx_val_of_single rfl i q
theorem rhs_0 (i : S4096x32.Idx) (q : dot_S4096x32_S32x32_S4096x32_1_0_0_1_n_n.contr.Idx) : (dot_S4096x32_S32x32_S4096x32_1_0_0_1_n_n.rhsIdx i q 0).val = (q ⟨0, by decide⟩).val :=
  dot_S4096x32_S32x32_S4096x32_1_0_0_1_n_n.rhsIdx_val_of_single rfl i q
theorem rhs_1 (i : S4096x32.Idx) (q : dot_S4096x32_S32x32_S4096x32_1_0_0_1_n_n.contr.Idx) : (dot_S4096x32_S32x32_S4096x32_1_0_0_1_n_n.rhsIdx i q 1).val = (i 1).val := by
  unfold DotDims.rhsIdx
  rw [dif_neg (show ¬(1 : Fin S32x32.rank) ∈ dot_S4096x32_S32x32_S4096x32_1_0_0_1_n_n.rhsBatch by decide), dif_pos (show (1 : Fin S32x32.rank) ∈ dot_S4096x32_S32x32_S4096x32_1_0_0_1_n_n.rhsNonContracting by decide)]
  rfl

/-- Entry (p, q) of a [4096, 32] × [32, 32] product accumulated into zero is the sum over the 32 contracted positions. -/
theorem mm_apply {φ₁ φ₂ : FTy} (l : FVec Ideal S4096x32 φ₁) (r : FVec Ideal S32x32 φ₂) (p : Fin 4096) (q : Fin 32) :
    FloatOps.matmul dot_S4096x32_S32x32_S4096x32_1_0_0_1_n_n none l r (constant (F := Ideal) S4096x32 .f32 0x00000000#32) (ix2 p q) = ∑ k : Fin 32, l (ix2 p k) * r (ix2 k q) := by
  refine (Ideal.matmul_constant_zero_apply dot_S4096x32_S32x32_S4096x32_1_0_0_1_n_n none l r (ix2 p q)).trans ?_
  rw [← Equiv.sum_comp (ValueIdx.contrEquiv1 dot_S4096x32_S32x32_S4096x32_1_0_0_1_n_n 32 rfl rfl).symm]
  refine Finset.sum_congr rfl fun k _ => ?_
  have hk := ValueIdx.contrEquiv1_symm_val dot_S4096x32_S32x32_S4096x32_1_0_0_1_n_n 32 rfl rfl k
  have el : dot_S4096x32_S32x32_S4096x32_1_0_0_1_n_n.lhsIdx (ix2 p q) ((ValueIdx.contrEquiv1 dot_S4096x32_S32x32_S4096x32_1_0_0_1_n_n 32 rfl rfl).symm k) = ix2 p k := funext fun a => Fin.ext (by
    match a with
    | ⟨0, _⟩ => exact lhs_0 _ _
    | ⟨1, _⟩ => exact (lhs_1 _ _).trans hk)
  have er : dot_S4096x32_S32x32_S4096x32_1_0_0_1_n_n.rhsIdx (ix2 p q) ((ValueIdx.contrEquiv1 dot_S4096x32_S32x32_S4096x32_1_0_0_1_n_n 32 rfl rfl).symm k) = ix2 k q := funext fun a => Fin.ext (by
    match a with
    | ⟨0, _⟩ => exact (rhs_0 _ _).trans hk
    | ⟨1, _⟩ => exact rhs_1 _ _)
  rw [el, er]

/-! ## The body's stored value, entry by entry -/

/-- Entry (p, q) of what the body stores, from the blocks it loaded. -/
theorem pay_apply (x0 x1 : Vec Ideal S4096x32 .f32) (x2 x3 : Vec Ideal S32x32 .f32) (x4 : Vec Ideal S1x32 .f32) (p : Fin 4096) (q : Fin 32) :
    k1_pay1 (F := Ideal) x0 x1 x2 x3 x4 (ix2 p q)
      = max (((∑ k : Fin 32, x0 (ix2 p k) * x2 (ix2 k q)) + ∑ k : Fin 32, x1 (ix2 p k) * x3 (ix2 k q)) + x4 (ix2 0 q))
          (Ideal.ofBits .f32 0x00000000#32) := by
  unfold k1_pay1
  simp only [shapeCast_self]
  show max ((FloatOps.matmul (F := Ideal) dot_S4096x32_S32x32_S4096x32_1_0_0_1_n_n none (truncf .bf16 x0 bitsLt_bf16_f32) (truncf .bf16 x2 bitsLt_bf16_f32) (constant (F := Ideal) S4096x32 .f32 0x00000000#32) (ix2 p q)
      + FloatOps.matmul (F := Ideal) dot_S4096x32_S32x32_S4096x32_1_0_0_1_n_n none (truncf .bf16 x1 bitsLt_bf16_f32) (truncf .bf16 x3 bitsLt_bf16_f32) (constant (F := Ideal) S4096x32 .f32 0x00000000#32) (ix2 p q))
      + broadcastTo S4096x32 x4 broadcasts_S1x32_S4096x32 (ix2 p q)) (Ideal.ofBits .f32 0x00000000#32) = _
  rw [mm_apply, mm_apply]
  rw [show broadcastTo S4096x32 x4 broadcasts_S1x32_S4096x32 (ix2 p q) = x4 (ix2 (0 : Fin 1) q) from
    broadcastTo_1b_ab_apply (a := 4096) (b := 32) x4 _ p q]
  rfl

end Cert.KernelIdeal.Layer1

end
-- ==== Proof.Layer1Array.lean ====
/-
  Region 1 of the kernel program: from the blocks the 25 grid points write to the whole result array.
  Point `t`'s block of a row operand is rows `4096·t … 4096·t + 4095` of its array, the weight and bias blocks are
  the whole arrays, and the block written back is rows `4096·t …` of the result; since a layer's row `n` reads row
  `n` of its row operands only, that block is the block of `GraphNet.layer` of the whole arrays. Every row `n` lies in
  the block of point `n / 4096`, so the result array ends as `GraphNet.layer` of the arrays the region was entered with.
-/
import proofs.«104714_j6545530159286_1_alg».proof.Proof.Layer1Body

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the others stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 25 := by
  have h := t.isLt
  have hN : cfg1.N = 25 := N_1
  omega

/-- Rows of the node features in point `t`'s block. -/
theorem read_0 (c : Dev nD) (t : Fin cfg1.N) (p : Fin 4096) (k : Fin 32) (n : Fin 102400) (hn : n.val = t.val * 4096 + p.val) :
    (iblk1 V c 0 t : Vec Ideal S4096x32 .f32) (ix2 p k) = (V c (Pipeline.arrRef spec1 0) : Vec Ideal S102400x32 .f32) (ix2 n k) := by
  obtain ⟨e0, e1, -⟩ := idx_facts t
  unfold iblk1
  rw [View.read_apply]
  refine congrArg (V c (Pipeline.arrRef spec1 0) : Vec Ideal S102400x32 .f32) (funext fun a => Fin.ext ?_)
  match a with
  | ⟨0, _⟩ => show win1_0.index t 0 * 4096 + 1 * p.val = n.val; rw [e0, hn]; omega
  | ⟨1, _⟩ => show win1_0.index t 1 * 32 + 1 * k.val = k.val; rw [e1]; omega

/-- Rows of the aggregate in point `t`'s block. -/
theorem read_1 (c : Dev nD) (t : Fin cfg1.N) (p : Fin 4096) (k : Fin 32) (n : Fin 102400) (hn : n.val = t.val * 4096 + p.val) :
    (iblk1 V c 1 t : Vec Ideal S4096x32 .f32) (ix2 p k) = (V c (Pipeline.arrRef spec1 1) : Vec Ideal S102400x32 .f32) (ix2 n k) := by
  obtain ⟨-, -, e0, e1, -⟩ := idx_facts t
  unfold iblk1
  rw [View.read_apply]
  refine congrArg (V c (Pipeline.arrRef spec1 1) : Vec Ideal S102400x32 .f32) (funext fun a => Fin.ext ?_)
  match a with
  | ⟨0, _⟩ => show win1_1.index t 0 * 4096 + 1 * p.val = n.val; rw [e0, hn]; omega
  | ⟨1, _⟩ => show win1_1.index t 1 * 32 + 1 * k.val = k.val; rw [e1]; omega

/-- The first weight matrix is its own block at every point. -/
theorem read_2 (c : Dev nD) (t : Fin cfg1.N) (k : Fin 32) (q : Fin 32) :
    (iblk1 V c 2 t : Vec Ideal S32x32 .f32) (ix2 k q) = (V c (Pipeline.arrRef spec1 2) : Vec Ideal S32x32 .f32) (ix2 k q) := by
  obtain ⟨-, -, -, -, e0, e1, -⟩ := idx_facts t
  unfold iblk1
  rw [View.read_apply]
  refine congrArg (V c (Pipeline.arrRef spec1 2) : Vec Ideal S32x32 .f32) (funext fun a => Fin.ext ?_)
  match a with
  | ⟨0, _⟩ => show win1_2.index t 0 * 32 + 1 * k.val = k.val; rw [e0]; omega
  | ⟨1, _⟩ => show win1_2.index t 1 * 32 + 1 * q.val = q.val; rw [e1]; omega

/-- The second weight matrix is its own block at every point. -/
theorem read_3 (c : Dev nD) (t : Fin cfg1.N) (k : Fin 32) (q : Fin 32) :
    (iblk1 V c 3 t : Vec Ideal S32x32 .f32) (ix2 k q) = (V c (Pipeline.arrRef spec1 3) : Vec Ideal S32x32 .f32) (ix2 k q) := by
  obtain ⟨-, -, -, -, -, -, e0, e1, -⟩ := idx_facts t
  unfold iblk1
  rw [View.read_apply]
  refine congrArg (V c (Pipeline.arrRef spec1 3) : Vec Ideal S32x32 .f32) (funext fun a => Fin.ext ?_)
  match a with
  | ⟨0, _⟩ => show win1_3.index t 0 * 32 + 1 * k.val = k.val; rw [e0]; omega
  | ⟨1, _⟩ => show win1_3.index t 1 * 32 + 1 * q.val = q.val; rw [e1]; omega

/-- The bias row is its own block at every point. -/
theorem read_4 (c : Dev nD) (t : Fin cfg1.N) (z : Fin 1) (q : Fin 32) :
    (iblk1 V c 4 t : Vec Ideal S1x32 .f32) (ix2 z q) = (V c (Pipeline.arrRef spec1 4) : Vec Ideal S1x32 .f32) (ix2 z q) := by
  obtain ⟨-, -, -, -, -, -, -, -, e0, e1, -⟩ := idx_facts t
  unfold iblk1
  rw [View.read_apply]
  refine congrArg (V c (Pipeline.arrRef spec1 4) : Vec Ideal S1x32 .f32) (funext fun a => Fin.ext ?_)
  match a with
  | ⟨0, _⟩ => show win1_4.index t 0 * 1 + 1 * z.val = z.val; rw [e0]; omega
  | ⟨1, _⟩ => show win1_4.index t 1 * 32 + 1 * q.val = q.val; rw [e1]; omega

/-- The layer of the arrays the region is entered with. -/
abbrev result (c : Dev nD) : Vec Ideal S102400x32 .f32 :=
  GraphNet.layer 102400 32 32 (V c (Pipeline.arrRef spec1 0)) (V c (Pipeline.arrRef spec1 1)) (V c (Pipeline.arrRef spec1 2))
    (V c (Pipeline.arrRef spec1 3)) (V c (Pipeline.arrRef spec1 4))

/-- Entry (p, q) of what point `t` stores is entry (4096·t + p, q) of the layer of the whole arrays. -/
theorem point_apply (c : Dev nD) (t : Fin cfg1.N) (p : Fin 4096) (q : Fin 32) (n : Fin 102400) (hn : n.val = t.val * 4096 + p.val) :
    k1_pay1 (F := Ideal) (iblk1 V c 0 t) (iblk1 V c 1 t) (iblk1 V c 2 t) (iblk1 V c 3 t) (iblk1 V c 4 t) (ix2 p q)
      = result V c (ix2 n q) := by
  refine (pay_apply (iblk1 V c 0 t) (iblk1 V c 1 t) (iblk1 V c 2 t) (iblk1 V c 3 t) (iblk1 V c 4 t) p q).trans ?_
  refine Eq.trans ?_ (GraphNet.layer_apply 102400 32 32 _ _ _ _ _ n q).symm
  rw [read_4 V c t 0 q]
  refine congrArg (fun s => max (s + _) _) ?_
  refine congrArg₂ (· + ·) (Finset.sum_congr rfl fun k _ => ?_) (Finset.sum_congr rfl fun k _ => ?_)
  · rw [read_0 V c t p k n hn, read_2 V c t k q]
  · rw [read_1 V c t p k n hn, read_3 V c t k q]

/-- WHAT POINT `t` WRITES BACK is block `t` of the layer of the arrays the region is entered with. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S4096x32) hz, View.ld_unit_zero (S := S32x32) hz, View.ld_unit_zero (S := S1x32) hz]
  funext j
  have ht := point_lt t
  obtain ⟨-, -, -, -, -, -, -, -, -, -, e0, e1⟩ := idx_facts t
  have hj0 : (j 0).val < 4096 := (j 0).isLt
  have hj1 : (j 1).val < 32 := (j 1).isLt
  show k1_pay1 (F := Ideal) (iblk1 V c 0 t) (iblk1 V c 1 t) (iblk1 V c 2 t) (iblk1 V c 3 t) (iblk1 V c 4 t) j
    = result V c (((cfg1.win 5).blk t).view.emb j)
  have hemb : ((cfg1.win 5).blk t).view.emb j = ix2 (⟨t.val * 4096 + (j 0).val, by omega⟩ : Fin 102400) (⟨(j 1).val, hj1⟩ : Fin 32) := by
    funext a; apply Fin.ext
    match a with
    | ⟨0, _⟩ => show win1_5.index t (0 : Fin 2) * 4096 + 1 * (j 0).val = t.val * 4096 + (j 0).val; rw [e0]; omega
    | ⟨1, _⟩ => show win1_5.index t (1 : Fin 2) * 32 + 1 * (j 1).val = (j 1).val; rw [e1]; omega
  rw [hemb]
  have hjj : j = ix2 (⟨(j 0).val, hj0⟩ : Fin 4096) (⟨(j 1).val, hj1⟩ : Fin 32) := by
    funext a; apply Fin.ext
    match a with
    | ⟨0, _⟩ => rfl
    | ⟨1, _⟩ => rfl
  exact (congrArg (k1_pay1 (F := Ideal) (iblk1 V c 0 t) (iblk1 V c 1 t) (iblk1 V c 2 t) (iblk1 V c 3 t) (iblk1 V c 4 t)) hjj).trans
    (point_apply V c t ⟨(j 0).val, hj0⟩ ⟨(j 1).val, hj1⟩ ⟨t.val * 4096 + (j 0).val, by omega⟩ rfl)

/-- An index of the result array is in point `t`'s block iff each coordinate is in the block's range on its axis. -/
theorem mem_blk (t : Fin cfg1.N) (i : S102400x32.Idx) :
    i ∈ ((cfg1.win 5).blk t).view.set ↔ ∀ a : Fin 2, win1_5.index t a * S4096x32.size a ≤ (i a).val ∧ (i a).val < win1_5.index t a * S4096x32.size a + S4096x32.size a := by
  show i ∈ ((View.whole (Pipeline.arrRef spec1 5)).slice (win1_5.rect t)).set ↔ _
  rw [View.set_slice_whole, Rect.mem_set_unit]
  exact Iff.rfl

/-- Every row is in the block of the point numbered by its quotient by 4096. -/
theorem cover (i : S102400x32.Idx) : ∃ t : Fin cfg1.N, (cfg1.win 5).flush t = true ∧ i ∈ ((cfg1.win 5).blk t).view.set := by
  have hi0 : (i 0).val < 102400 := (i 0).isLt
  have hi1 : (i 1).val < 32 := (i 1).isLt
  have hN : cfg1.N = 25 := N_1
  refine ⟨⟨(i 0).val / 4096, by rw [hN]; omega⟩, flush1_5 _, ?_⟩
  rw [mem_blk]
  obtain ⟨-, -, -, -, -, -, -, -, -, -, e0, e1⟩ := idx_facts ⟨(i 0).val / 4096, by rw [hN]; omega⟩
  intro a
  match a with
  | ⟨0, _⟩ =>
    show win1_5.index _ (0 : Fin 2) * 4096 ≤ (i 0).val ∧ (i 0).val < win1_5.index _ (0 : Fin 2) * 4096 + 4096
    rw [e0]; show (i 0).val / 4096 * 4096 ≤ (i 0).val ∧ (i 0).val < (i 0).val / 4096 * 4096 + 4096; omega
  | ⟨1, _⟩ =>
    show win1_5.index _ (1 : Fin 2) * 32 ≤ (i 1).val ∧ (i 1).val < win1_5.index _ (1 : Fin 2) * 32 + 32
    rw [e1]; omega

/-- THE RESULT ARRAY after the region: the layer of the arrays the region is entered with. -/
theorem final (c : Dev nD) : (dat1 V c).arrAt 5 cfg1.N = result V c :=
  (dat1 V c).arrAt_eq_of_cover 5 (result V c) (fun t _ => flushed_eq V c t) cover

end Cert.KernelIdeal.Layer1

end
-- ==== Proof.Layer2Body.lean ====
/-
  Region 2 of the kernel program (graph-convolution layer 3, 32 → 16 channels) as ONE function of whole arrays.
  The grid has 25 points; point `t` holds rows `4096·t … 4096·t + 4095` of the node features and of their aggregate,
  both weight matrices and the bias row whole, and writes rows `4096·t …` of the result. Row `n` of a layer's result
  depends on row `n` of its two row operands only, so the block point `t` writes is the block of
  `GraphNet.layer` of the WHOLE operand arrays, and the 25 blocks tile the result.
  The body's two matrix products accumulate into zero, so each entry is the plain sum over the 32 contracted
  positions; the narrowing of the operands to bf16 before each product is the identity on extended reals.
-/
import proofs.«104714_j6545530159286_1_alg».proof.Proof.Gen.KernelIdeal.Frame
import proofs.«104714_j6545530159286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

/-! ## A matrix product into a zero accumulator, entry by entry -/

theorem lhs_0 (i : S4096x16.Idx) (q : dot_S4096x32_S32x16_S4096x16_1_0_0_1_n_n.contr.Idx) : (dot_S4096x32_S32x16_S4096x16_1_0_0_1_n_n.lhsIdx i q 0).val = (i 0).val := by
  unfold DotDims.lhsIdx
  rw [dif_neg (show ¬(0 : Fin S4096x32.rank) ∈ dot_S4096x32_S32x16_S4096x16_1_0_0_1_n_n.lhsBatch by decide), dif_pos (show (0 : Fin S4096x32.rank) ∈ dot_S4096x32_S32x16_S4096x16_1_0_0_1_n_n.lhsNonContracting by decide)]
  rfl
theorem lhs_1 (i : S4096x16.Idx) (q : dot_S4096x32_S32x16_S4096x16_1_0_0_1_n_n.contr.Idx) : (dot_S4096x32_S32x16_S4096x16_1_0_0_1_n_n.lhsIdx i q 1).val = (q ⟨0, by decide⟩).val :=
  dot_S4096x32_S32x16_S4096x16_1_0_0_1_n_n.lhsIdx_val_of_single rfl i q
theorem rhs_0 (i : S4096x16.Idx) (q : dot_S4096x32_S32x16_S4096x16_1_0_0_1_n_n.contr.Idx) : (dot_S4096x32_S32x16_S4096x16_1_0_0_1_n_n.rhsIdx i q 0).val = (q ⟨0, by decide⟩).val :=
  dot_S4096x32_S32x16_S4096x16_1_0_0_1_n_n.rhsIdx_val_of_single rfl i q
theorem rhs_1 (i : S4096x16.Idx) (q : dot_S4096x32_S32x16_S4096x16_1_0_0_1_n_n.contr.Idx) : (dot_S4096x32_S32x16_S4096x16_1_0_0_1_n_n.rhsIdx i q 1).val = (i 1).val := by
  unfold DotDims.rhsIdx
  rw [dif_neg (show ¬(1 : Fin S32x16.rank) ∈ dot_S4096x32_S32x16_S4096x16_1_0_0_1_n_n.rhsBatch by decide), dif_pos (show (1 : Fin S32x16.rank) ∈ dot_S4096x32_S32x16_S4096x16_1_0_0_1_n_n.rhsNonContracting by decide)]
  rfl

/-- Entry (p, q) of a [4096, 32] × [32, 16] product accumulated into zero is the sum over the 32 contracted positions. -/
theorem mm_apply {φ₁ φ₂ : FTy} (l : FVec Ideal S4096x32 φ₁) (r : FVec Ideal S32x16 φ₂) (p : Fin 4096) (q : Fin 16) :
    FloatOps.matmul dot_S4096x32_S32x16_S4096x16_1_0_0_1_n_n none l r (constant (F := Ideal) S4096x16 .f32 0x00000000#32) (ix2 p q) = ∑ k : Fin 32, l (ix2 p k) * r (ix2 k q) := by
  refine (Ideal.matmul_constant_zero_apply dot_S4096x32_S32x16_S4096x16_1_0_0_1_n_n none l r (ix2 p q)).trans ?_
  rw [← Equiv.sum_comp (ValueIdx.contrEquiv1 dot_S4096x32_S32x16_S4096x16_1_0_0_1_n_n 32 rfl rfl).symm]
  refine Finset.sum_congr rfl fun k _ => ?_
  have hk := ValueIdx.contrEquiv1_symm_val dot_S4096x32_S32x16_S4096x16_1_0_0_1_n_n 32 rfl rfl k
  have el : dot_S4096x32_S32x16_S4096x16_1_0_0_1_n_n.lhsIdx (ix2 p q) ((ValueIdx.contrEquiv1 dot_S4096x32_S32x16_S4096x16_1_0_0_1_n_n 32 rfl rfl).symm k) = ix2 p k := funext fun a => Fin.ext (by
    match a with
    | ⟨0, _⟩ => exact lhs_0 _ _
    | ⟨1, _⟩ => exact (lhs_1 _ _).trans hk)
  have er : dot_S4096x32_S32x16_S4096x16_1_0_0_1_n_n.rhsIdx (ix2 p q) ((ValueIdx.contrEquiv1 dot_S4096x32_S32x16_S4096x16_1_0_0_1_n_n 32 rfl rfl).symm k) = ix2 k q := funext fun a => Fin.ext (by
    match a with
    | ⟨0, _⟩ => exact (rhs_0 _ _).trans hk
    | ⟨1, _⟩ => exact rhs_1 _ _)
  rw [el, er]

/-! ## The body's stored value, entry by entry -/

/-- Entry (p, q) of what the body stores, from the blocks it loaded. -/
theorem pay_apply (x0 x1 : Vec Ideal S4096x32 .f32) (x2 x3 : Vec Ideal S32x16 .f32) (x4 : Vec Ideal S1x16 .f32) (p : Fin 4096) (q : Fin 16) :
    k2_pay1 (F := Ideal) x0 x1 x2 x3 x4 (ix2 p q)
      = max (((∑ k : Fin 32, x0 (ix2 p k) * x2 (ix2 k q)) + ∑ k : Fin 32, x1 (ix2 p k) * x3 (ix2 k q)) + x4 (ix2 0 q))
          (Ideal.ofBits .f32 0x00000000#32) := by
  unfold k2_pay1
  simp only [shapeCast_self]
  show max ((FloatOps.matmul (F := Ideal) dot_S4096x32_S32x16_S4096x16_1_0_0_1_n_n none (truncf .bf16 x0 bitsLt_bf16_f32) (truncf .bf16 x2 bitsLt_bf16_f32) (constant (F := Ideal) S4096x16 .f32 0x00000000#32) (ix2 p q)
      + FloatOps.matmul (F := Ideal) dot_S4096x32_S32x16_S4096x16_1_0_0_1_n_n none (truncf .bf16 x1 bitsLt_bf16_f32) (truncf .bf16 x3 bitsLt_bf16_f32) (constant (F := Ideal) S4096x16 .f32 0x00000000#32) (ix2 p q))
      + broadcastTo S4096x16 x4 broadcasts_S1x16_S4096x16 (ix2 p q)) (Ideal.ofBits .f32 0x00000000#32) = _
  rw [mm_apply, mm_apply]
  rw [show broadcastTo S4096x16 x4 broadcasts_S1x16_S4096x16 (ix2 p q) = x4 (ix2 (0 : Fin 1) q) from
    broadcastTo_1b_ab_apply (a := 4096) (b := 16) x4 _ p q]
  rfl

end Cert.KernelIdeal.Layer2

end
-- ==== Proof.Layer2Array.lean ====
/-
  Region 2 of the kernel program: from the blocks the 25 grid points write to the whole result array.
  Point `t`'s block of a row operand is rows `4096·t … 4096·t + 4095` of its array, the weight and bias blocks are
  the whole arrays, and the block written back is rows `4096·t …` of the result; since a layer's row `n` reads row
  `n` of its row operands only, that block is the block of `GraphNet.layer` of the whole arrays. Every row `n` lies in
  the block of point `n / 4096`, so the result array ends as `GraphNet.layer` of the arrays the region was entered with.
-/
import proofs.«104714_j6545530159286_1_alg».proof.Proof.Layer2Body

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the others stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 25 := by
  have h := t.isLt
  have hN : cfg2.N = 25 := N_2
  omega

/-- Rows of the node features in point `t`'s block. -/
theorem read_0 (c : Dev nD) (t : Fin cfg2.N) (p : Fin 4096) (k : Fin 32) (n : Fin 102400) (hn : n.val = t.val * 4096 + p.val) :
    (iblk2 V c 0 t : Vec Ideal S4096x32 .f32) (ix2 p k) = (V c (Pipeline.arrRef spec2 0) : Vec Ideal S102400x32 .f32) (ix2 n k) := by
  obtain ⟨e0, e1, -⟩ := idx_facts t
  unfold iblk2
  rw [View.read_apply]
  refine congrArg (V c (Pipeline.arrRef spec2 0) : Vec Ideal S102400x32 .f32) (funext fun a => Fin.ext ?_)
  match a with
  | ⟨0, _⟩ => show win2_0.index t 0 * 4096 + 1 * p.val = n.val; rw [e0, hn]; omega
  | ⟨1, _⟩ => show win2_0.index t 1 * 32 + 1 * k.val = k.val; rw [e1]; omega

/-- Rows of the aggregate in point `t`'s block. -/
theorem read_1 (c : Dev nD) (t : Fin cfg2.N) (p : Fin 4096) (k : Fin 32) (n : Fin 102400) (hn : n.val = t.val * 4096 + p.val) :
    (iblk2 V c 1 t : Vec Ideal S4096x32 .f32) (ix2 p k) = (V c (Pipeline.arrRef spec2 1) : Vec Ideal S102400x32 .f32) (ix2 n k) := by
  obtain ⟨-, -, e0, e1, -⟩ := idx_facts t
  unfold iblk2
  rw [View.read_apply]
  refine congrArg (V c (Pipeline.arrRef spec2 1) : Vec Ideal S102400x32 .f32) (funext fun a => Fin.ext ?_)
  match a with
  | ⟨0, _⟩ => show win2_1.index t 0 * 4096 + 1 * p.val = n.val; rw [e0, hn]; omega
  | ⟨1, _⟩ => show win2_1.index t 1 * 32 + 1 * k.val = k.val; rw [e1]; omega

/-- The first weight matrix is its own block at every point. -/
theorem read_2 (c : Dev nD) (t : Fin cfg2.N) (k : Fin 32) (q : Fin 16) :
    (iblk2 V c 2 t : Vec Ideal S32x16 .f32) (ix2 k q) = (V c (Pipeline.arrRef spec2 2) : Vec Ideal S32x16 .f32) (ix2 k q) := by
  obtain ⟨-, -, -, -, e0, e1, -⟩ := idx_facts t
  unfold iblk2
  rw [View.read_apply]
  refine congrArg (V c (Pipeline.arrRef spec2 2) : Vec Ideal S32x16 .f32) (funext fun a => Fin.ext ?_)
  match a with
  | ⟨0, _⟩ => show win2_2.index t 0 * 32 + 1 * k.val = k.val; rw [e0]; omega
  | ⟨1, _⟩ => show win2_2.index t 1 * 16 + 1 * q.val = q.val; rw [e1]; omega

/-- The second weight matrix is its own block at every point. -/
theorem read_3 (c : Dev nD) (t : Fin cfg2.N) (k : Fin 32) (q : Fin 16) :
    (iblk2 V c 3 t : Vec Ideal S32x16 .f32) (ix2 k q) = (V c (Pipeline.arrRef spec2 3) : Vec Ideal S32x16 .f32) (ix2 k q) := by
  obtain ⟨-, -, -, -, -, -, e0, e1, -⟩ := idx_facts t
  unfold iblk2
  rw [View.read_apply]
  refine congrArg (V c (Pipeline.arrRef spec2 3) : Vec Ideal S32x16 .f32) (funext fun a => Fin.ext ?_)
  match a with
  | ⟨0, _⟩ => show win2_3.index t 0 * 32 + 1 * k.val = k.val; rw [e0]; omega
  | ⟨1, _⟩ => show win2_3.index t 1 * 16 + 1 * q.val = q.val; rw [e1]; omega

/-- The bias row is its own block at every point. -/
theorem read_4 (c : Dev nD) (t : Fin cfg2.N) (z : Fin 1) (q : Fin 16) :
    (iblk2 V c 4 t : Vec Ideal S1x16 .f32) (ix2 z q) = (V c (Pipeline.arrRef spec2 4) : Vec Ideal S1x16 .f32) (ix2 z q) := by
  obtain ⟨-, -, -, -, -, -, -, -, e0, e1, -⟩ := idx_facts t
  unfold iblk2
  rw [View.read_apply]
  refine congrArg (V c (Pipeline.arrRef spec2 4) : Vec Ideal S1x16 .f32) (funext fun a => Fin.ext ?_)
  match a with
  | ⟨0, _⟩ => show win2_4.index t 0 * 1 + 1 * z.val = z.val; rw [e0]; omega
  | ⟨1, _⟩ => show win2_4.index t 1 * 16 + 1 * q.val = q.val; rw [e1]; omega

/-- The layer of the arrays the region is entered with. -/
abbrev result (c : Dev nD) : Vec Ideal S102400x16 .f32 :=
  GraphNet.layer 102400 32 16 (V c (Pipeline.arrRef spec2 0)) (V c (Pipeline.arrRef spec2 1)) (V c (Pipeline.arrRef spec2 2))
    (V c (Pipeline.arrRef spec2 3)) (V c (Pipeline.arrRef spec2 4))

/-- Entry (p, q) of what point `t` stores is entry (4096·t + p, q) of the layer of the whole arrays. -/
theorem point_apply (c : Dev nD) (t : Fin cfg2.N) (p : Fin 4096) (q : Fin 16) (n : Fin 102400) (hn : n.val = t.val * 4096 + p.val) :
    k2_pay1 (F := Ideal) (iblk2 V c 0 t) (iblk2 V c 1 t) (iblk2 V c 2 t) (iblk2 V c 3 t) (iblk2 V c 4 t) (ix2 p q)
      = result V c (ix2 n q) := by
  refine (pay_apply (iblk2 V c 0 t) (iblk2 V c 1 t) (iblk2 V c 2 t) (iblk2 V c 3 t) (iblk2 V c 4 t) p q).trans ?_
  refine Eq.trans ?_ (GraphNet.layer_apply 102400 32 16 _ _ _ _ _ n q).symm
  rw [read_4 V c t 0 q]
  refine congrArg (fun s => max (s + _) _) ?_
  refine congrArg₂ (· + ·) (Finset.sum_congr rfl fun k _ => ?_) (Finset.sum_congr rfl fun k _ => ?_)
  · rw [read_0 V c t p k n hn, read_2 V c t k q]
  · rw [read_1 V c t p k n hn, read_3 V c t k q]

/-- WHAT POINT `t` WRITES BACK is block `t` of the layer of the arrays the region is entered with. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S4096x32) hz, View.ld_unit_zero (S := S32x16) hz, View.ld_unit_zero (S := S1x16) hz]
  funext j
  have ht := point_lt t
  obtain ⟨-, -, -, -, -, -, -, -, -, -, e0, e1⟩ := idx_facts t
  have hj0 : (j 0).val < 4096 := (j 0).isLt
  have hj1 : (j 1).val < 16 := (j 1).isLt
  show k2_pay1 (F := Ideal) (iblk2 V c 0 t) (iblk2 V c 1 t) (iblk2 V c 2 t) (iblk2 V c 3 t) (iblk2 V c 4 t) j
    = result V c (((cfg2.win 5).blk t).view.emb j)
  have hemb : ((cfg2.win 5).blk t).view.emb j = ix2 (⟨t.val * 4096 + (j 0).val, by omega⟩ : Fin 102400) (⟨(j 1).val, hj1⟩ : Fin 16) := by
    funext a; apply Fin.ext
    match a with
    | ⟨0, _⟩ => show win2_5.index t (0 : Fin 2) * 4096 + 1 * (j 0).val = t.val * 4096 + (j 0).val; rw [e0]; omega
    | ⟨1, _⟩ => show win2_5.index t (1 : Fin 2) * 16 + 1 * (j 1).val = (j 1).val; rw [e1]; omega
  rw [hemb]
  have hjj : j = ix2 (⟨(j 0).val, hj0⟩ : Fin 4096) (⟨(j 1).val, hj1⟩ : Fin 16) := by
    funext a; apply Fin.ext
    match a with
    | ⟨0, _⟩ => rfl
    | ⟨1, _⟩ => rfl
  exact (congrArg (k2_pay1 (F := Ideal) (iblk2 V c 0 t) (iblk2 V c 1 t) (iblk2 V c 2 t) (iblk2 V c 3 t) (iblk2 V c 4 t)) hjj).trans
    (point_apply V c t ⟨(j 0).val, hj0⟩ ⟨(j 1).val, hj1⟩ ⟨t.val * 4096 + (j 0).val, by omega⟩ rfl)

/-- An index of the result array is in point `t`'s block iff each coordinate is in the block's range on its axis. -/
theorem mem_blk (t : Fin cfg2.N) (i : S102400x16.Idx) :
    i ∈ ((cfg2.win 5).blk t).view.set ↔ ∀ a : Fin 2, win2_5.index t a * S4096x16.size a ≤ (i a).val ∧ (i a).val < win2_5.index t a * S4096x16.size a + S4096x16.size a := by
  show i ∈ ((View.whole (Pipeline.arrRef spec2 5)).slice (win2_5.rect t)).set ↔ _
  rw [View.set_slice_whole, Rect.mem_set_unit]
  exact Iff.rfl

/-- Every row is in the block of the point numbered by its quotient by 4096. -/
theorem cover (i : S102400x16.Idx) : ∃ t : Fin cfg2.N, (cfg2.win 5).flush t = true ∧ i ∈ ((cfg2.win 5).blk t).view.set := by
  have hi0 : (i 0).val < 102400 := (i 0).isLt
  have hi1 : (i 1).val < 16 := (i 1).isLt
  have hN : cfg2.N = 25 := N_2
  refine ⟨⟨(i 0).val / 4096, by rw [hN]; omega⟩, flush2_5 _, ?_⟩
  rw [mem_blk]
  obtain ⟨-, -, -, -, -, -, -, -, -, -, e0, e1⟩ := idx_facts ⟨(i 0).val / 4096, by rw [hN]; omega⟩
  intro a
  match a with
  | ⟨0, _⟩ =>
    show win2_5.index _ (0 : Fin 2) * 4096 ≤ (i 0).val ∧ (i 0).val < win2_5.index _ (0 : Fin 2) * 4096 + 4096
    rw [e0]; show (i 0).val / 4096 * 4096 ≤ (i 0).val ∧ (i 0).val < (i 0).val / 4096 * 4096 + 4096; omega
  | ⟨1, _⟩ =>
    show win2_5.index _ (1 : Fin 2) * 16 ≤ (i 1).val ∧ (i 1).val < win2_5.index _ (1 : Fin 2) * 16 + 16
    rw [e1]; omega

/-- THE RESULT ARRAY after the region: the layer of the arrays the region is entered with. -/
theorem final (c : Dev nD) : (dat2 V c).arrAt 5 cfg2.N = result V c :=
  (dat2 V c).arrAt_eq_of_cover 5 (result V c) (fun t _ => flushed_eq V c t) cover

end Cert.KernelIdeal.Layer2

end
-- ==== Proof.Head.lean ====
/-
  Region 3 of the kernel program (the read-out head) as ONE function of whole arrays. Its grid has one point, every
  window's one block is its whole array, and the body stores, in one piece, three affine maps one after the other:
  `((x·W₁ + b₁)·W₂ + b₂)·W₃ + b₃`, each product accumulated into zero, each operand narrowed to bf16 first (the identity
  on extended reals), each bias row broadcast over the 256 rows. So the result array ends as
  `GraphNet.affine` thrice of the arrays the region is entered with.
-/
import proofs.«104714_j6545530159286_1_alg».proof.Proof.Gen.KernelIdeal.Frame
import proofs.«104714_j6545530159286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Head

open Cert.KernelIdeal Cert.KernelIdeal.Gen

/-! ## The three matrix products, entry by entry, and the three affine maps -/

theorem lhsA_0 (i : S256x256.Idx) (q : dot_S256x6400_S6400x256_S256x256_1_0_0_1_n_n.contr.Idx) : (dot_S256x6400_S6400x256_S256x256_1_0_0_1_n_n.lhsIdx i q 0).val = (i 0).val := by
  unfold DotDims.lhsIdx
  rw [dif_neg (show ¬(0 : Fin S256x6400.rank) ∈ dot_S256x6400_S6400x256_S256x256_1_0_0_1_n_n.lhsBatch by decide), dif_pos (show (0 : Fin S256x6400.rank) ∈ dot_S256x6400_S6400x256_S256x256_1_0_0_1_n_n.lhsNonContracting by decide)]
  rfl
theorem lhsA_1 (i : S256x256.Idx) (q : dot_S256x6400_S6400x256_S256x256_1_0_0_1_n_n.contr.Idx) : (dot_S256x6400_S6400x256_S256x256_1_0_0_1_n_n.lhsIdx i q 1).val = (q ⟨0, by decide⟩).val :=
  dot_S256x6400_S6400x256_S256x256_1_0_0_1_n_n.lhsIdx_val_of_single rfl i q
theorem rhsA_0 (i : S256x256.Idx) (q : dot_S256x6400_S6400x256_S256x256_1_0_0_1_n_n.contr.Idx) : (dot_S256x6400_S6400x256_S256x256_1_0_0_1_n_n.rhsIdx i q 0).val = (q ⟨0, by decide⟩).val :=
  dot_S256x6400_S6400x256_S256x256_1_0_0_1_n_n.rhsIdx_val_of_single rfl i q
theorem rhsA_1 (i : S256x256.Idx) (q : dot_S256x6400_S6400x256_S256x256_1_0_0_1_n_n.contr.Idx) : (dot_S256x6400_S6400x256_S256x256_1_0_0_1_n_n.rhsIdx i q 1).val = (i 1).val := by
  unfold DotDims.rhsIdx
  rw [dif_neg (show ¬(1 : Fin S6400x256.rank) ∈ dot_S256x6400_S6400x256_S256x256_1_0_0_1_n_n.rhsBatch by decide), dif_pos (show (1 : Fin S6400x256.rank) ∈ dot_S256x6400_S6400x256_S256x256_1_0_0_1_n_n.rhsNonContracting by decide)]
  rfl

/-- Entry (p, q) of a [256, 6400] × [6400, 256] product accumulated into zero is the sum over the 6400 contracted positions. -/
theorem mmA_apply {φ₁ φ₂ : FTy} (l : FVec Ideal S256x6400 φ₁) (r : FVec Ideal S6400x256 φ₂) (p : Fin 256) (q : Fin 256) :
    FloatOps.matmul dot_S256x6400_S6400x256_S256x256_1_0_0_1_n_n none l r (constant S256x256 .f32 0x00000000#32) (ix2 p q) = ∑ k : Fin 6400, l (ix2 p k) * r (ix2 k q) := by
  refine (Ideal.matmul_constant_zero_apply dot_S256x6400_S6400x256_S256x256_1_0_0_1_n_n none l r (ix2 p q)).trans ?_
  rw [← Equiv.sum_comp (ValueIdx.contrEquiv1 dot_S256x6400_S6400x256_S256x256_1_0_0_1_n_n 6400 rfl rfl).symm]
  refine Finset.sum_congr rfl fun k _ => ?_
  have hk := ValueIdx.contrEquiv1_symm_val dot_S256x6400_S6400x256_S256x256_1_0_0_1_n_n 6400 rfl rfl k
  have el : dot_S256x6400_S6400x256_S256x256_1_0_0_1_n_n.lhsIdx (ix2 p q) ((ValueIdx.contrEquiv1 dot_S256x6400_S6400x256_S256x256_1_0_0_1_n_n 6400 rfl rfl).symm k) = ix2 p k := funext fun a => Fin.ext (by
    match a with
    | ⟨0, _⟩ => exact lhsA_0 _ _
    | ⟨1, _⟩ => exact (lhsA_1 _ _).trans hk)
  have er : dot_S256x6400_S6400x256_S256x256_1_0_0_1_n_n.rhsIdx (ix2 p q) ((ValueIdx.contrEquiv1 dot_S256x6400_S6400x256_S256x256_1_0_0_1_n_n 6400 rfl rfl).symm k) = ix2 k q := funext fun a => Fin.ext (by
    match a with
    | ⟨0, _⟩ => exact (rhsA_0 _ _).trans hk
    | ⟨1, _⟩ => exact rhsA_1 _ _)
  rw [el, er]

/-- One affine map of the head as the body computes it — the operands narrowed to bf16 (the identity on extended
    reals), the product accumulated into zero, the bias row broadcast over the 256 rows — is `GraphNet.affine`. -/
theorem affA (x : Vec Ideal S256x6400 .f32) (w : Vec Ideal S6400x256 .f32) (b : Vec Ideal S1x256 .f32) :
    addf (F := Ideal) (FloatOps.matmul (F := Ideal) dot_S256x6400_S6400x256_S256x256_1_0_0_1_n_n none (truncf .bf16 x bitsLt_bf16_f32) (truncf .bf16 w bitsLt_bf16_f32) (constant (F := Ideal) S256x256 .f32 0x00000000#32))
        (broadcastTo S256x256 b broadcasts_S1x256_S256x256)
      = GraphNet.affine 256 6400 256 x w b := by
  funext i
  obtain ⟨r, j, rfl⟩ : ∃ (r : Fin 256) (j : Fin 256), i = ix2 r j := ⟨i 0, i 1, eq_ix2 i⟩
  refine Eq.trans ?_ (GraphNet.affine_apply 256 6400 256 x w b r j).symm
  show FloatOps.matmul (F := Ideal) dot_S256x6400_S6400x256_S256x256_1_0_0_1_n_n none (truncf .bf16 x bitsLt_bf16_f32) (truncf .bf16 w bitsLt_bf16_f32) (constant (F := Ideal) S256x256 .f32 0x00000000#32) (ix2 r j)
      + broadcastTo S256x256 b broadcasts_S1x256_S256x256 (ix2 r j) = _
  rw [mmA_apply]
  rw [show broadcastTo S256x256 b broadcasts_S1x256_S256x256 (ix2 r j) = b (ix2 (0 : Fin 1) j) from
    broadcastTo_1b_ab_apply (a := 256) (b := 256) b _ r j]
  rfl

theorem lhsB_0 (i : S256x128.Idx) (q : dot_S256x256_S256x128_S256x128_1_0_0_1_n_n.contr.Idx) : (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem lhsB_1 (i : S256x128.Idx) (q : dot_S256x256_S256x128_S256x128_1_0_0_1_n_n.contr.Idx) : (dot_S256x256_S256x128_S256x128_1_0_0_1_n_n.lhsIdx i q 1).val = (q ⟨0, by decide⟩).val :=
  dot_S256x256_S256x128_S256x128_1_0_0_1_n_n.lhsIdx_val_of_single rfl i q
theorem rhsB_0 (i : S256x128.Idx) (q : dot_S256x256_S256x128_S256x128_1_0_0_1_n_n.contr.Idx) : (dot_S256x256_S256x128_S256x128_1_0_0_1_n_n.rhsIdx i q 0).val = (q ⟨0, by decide⟩).val :=
  dot_S256x256_S256x128_S256x128_1_0_0_1_n_n.rhsIdx_val_of_single rfl i q
theorem rhsB_1 (i : S256x128.Idx) (q : dot_S256x256_S256x128_S256x128_1_0_0_1_n_n.contr.Idx) : (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- Entry (p, q) of a [256, 256] × [256, 128] product accumulated into zero is the sum over the 256 contracted positions. -/
theorem mmB_apply {φ₁ φ₂ : FTy} (l : FVec Ideal S256x256 φ₁) (r : FVec Ideal S256x128 φ₂) (p : Fin 256) (q : Fin 128) :
    FloatOps.matmul dot_S256x256_S256x128_S256x128_1_0_0_1_n_n none l r (constant S256x128 .f32 0x00000000#32) (ix2 p q) = ∑ k : Fin 256, l (ix2 p k) * r (ix2 k q) := by
  refine (Ideal.matmul_constant_zero_apply dot_S256x256_S256x128_S256x128_1_0_0_1_n_n none l r (ix2 p q)).trans ?_
  rw [← Equiv.sum_comp (ValueIdx.contrEquiv1 dot_S256x256_S256x128_S256x128_1_0_0_1_n_n 256 rfl rfl).symm]
  refine Finset.sum_congr rfl fun k _ => ?_
  have hk := ValueIdx.contrEquiv1_symm_val dot_S256x256_S256x128_S256x128_1_0_0_1_n_n 256 rfl rfl k
  have el : dot_S256x256_S256x128_S256x128_1_0_0_1_n_n.lhsIdx (ix2 p q) ((ValueIdx.contrEquiv1 dot_S256x256_S256x128_S256x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S256x256_S256x128_S256x128_1_0_0_1_n_n.rhsIdx (ix2 p q) ((ValueIdx.contrEquiv1 dot_S256x256_S256x128_S256x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-- One affine map of the head as the body computes it — the operands narrowed to bf16 (the identity on extended
    reals), the product accumulated into zero, the bias row broadcast over the 256 rows — is `GraphNet.affine`. -/
theorem affB (x : Vec Ideal S256x256 .f32) (w : Vec Ideal S256x128 .f32) (b : Vec Ideal S1x128 .f32) :
    addf (F := Ideal) (FloatOps.matmul (F := Ideal) dot_S256x256_S256x128_S256x128_1_0_0_1_n_n none (truncf .bf16 x bitsLt_bf16_f32) (truncf .bf16 w bitsLt_bf16_f32) (constant (F := Ideal) S256x128 .f32 0x00000000#32))
        (broadcastTo S256x128 b broadcasts_S1x128_S256x128)
      = GraphNet.affine 256 256 128 x w b := by
  funext i
  obtain ⟨r, j, rfl⟩ : ∃ (r : Fin 256) (j : Fin 128), i = ix2 r j := ⟨i 0, i 1, eq_ix2 i⟩
  refine Eq.trans ?_ (GraphNet.affine_apply 256 256 128 x w b r j).symm
  show FloatOps.matmul (F := Ideal) dot_S256x256_S256x128_S256x128_1_0_0_1_n_n none (truncf .bf16 x bitsLt_bf16_f32) (truncf .bf16 w bitsLt_bf16_f32) (constant (F := Ideal) S256x128 .f32 0x00000000#32) (ix2 r j)
      + broadcastTo S256x128 b broadcasts_S1x128_S256x128 (ix2 r j) = _
  rw [mmB_apply]
  rw [show broadcastTo S256x128 b broadcasts_S1x128_S256x128 (ix2 r j) = b (ix2 (0 : Fin 1) j) from
    broadcastTo_1b_ab_apply (a := 256) (b := 128) b _ r j]
  rfl

theorem lhsC_0 (i : S256x9.Idx) (q : dot_S256x128_S128x9_S256x9_1_0_0_1_n_n.contr.Idx) : (dot_S256x128_S128x9_S256x9_1_0_0_1_n_n.lhsIdx i q 0).val = (i 0).val := by
  unfold DotDims.lhsIdx
  rw [dif_neg (show ¬(0 : Fin S256x128.rank) ∈ dot_S256x128_S128x9_S256x9_1_0_0_1_n_n.lhsBatch by decide), dif_pos (show (0 : Fin S256x128.rank) ∈ dot_S256x128_S128x9_S256x9_1_0_0_1_n_n.lhsNonContracting by decide)]
  rfl
theorem lhsC_1 (i : S256x9.Idx) (q : dot_S256x128_S128x9_S256x9_1_0_0_1_n_n.contr.Idx) : (dot_S256x128_S128x9_S256x9_1_0_0_1_n_n.lhsIdx i q 1).val = (q ⟨0, by decide⟩).val :=
  dot_S256x128_S128x9_S256x9_1_0_0_1_n_n.lhsIdx_val_of_single rfl i q
theorem rhsC_0 (i : S256x9.Idx) (q : dot_S256x128_S128x9_S256x9_1_0_0_1_n_n.contr.Idx) : (dot_S256x128_S128x9_S256x9_1_0_0_1_n_n.rhsIdx i q 0).val = (q ⟨0, by decide⟩).val :=
  dot_S256x128_S128x9_S256x9_1_0_0_1_n_n.rhsIdx_val_of_single rfl i q
theorem rhsC_1 (i : S256x9.Idx) (q : dot_S256x128_S128x9_S256x9_1_0_0_1_n_n.contr.Idx) : (dot_S256x128_S128x9_S256x9_1_0_0_1_n_n.rhsIdx i q 1).val = (i 1).val := by
  unfold DotDims.rhsIdx
  rw [dif_neg (show ¬(1 : Fin S128x9.rank) ∈ dot_S256x128_S128x9_S256x9_1_0_0_1_n_n.rhsBatch by decide), dif_pos (show (1 : Fin S128x9.rank) ∈ dot_S256x128_S128x9_S256x9_1_0_0_1_n_n.rhsNonContracting by decide)]
  rfl

/-- Entry (p, q) of a [256, 128] × [128, 9] product accumulated into zero is the sum over the 128 contracted positions. -/
theorem mmC_apply {φ₁ φ₂ : FTy} (l : FVec Ideal S256x128 φ₁) (r : FVec Ideal S128x9 φ₂) (p : Fin 256) (q : Fin 9) :
    FloatOps.matmul dot_S256x128_S128x9_S256x9_1_0_0_1_n_n none l r (constant S256x9 .f32 0x00000000#32) (ix2 p q) = ∑ k : Fin 128, l (ix2 p k) * r (ix2 k q) := by
  refine (Ideal.matmul_constant_zero_apply dot_S256x128_S128x9_S256x9_1_0_0_1_n_n none l r (ix2 p q)).trans ?_
  rw [← Equiv.sum_comp (ValueIdx.contrEquiv1 dot_S256x128_S128x9_S256x9_1_0_0_1_n_n 128 rfl rfl).symm]
  refine Finset.sum_congr rfl fun k _ => ?_
  have hk := ValueIdx.contrEquiv1_symm_val dot_S256x128_S128x9_S256x9_1_0_0_1_n_n 128 rfl rfl k
  have el : dot_S256x128_S128x9_S256x9_1_0_0_1_n_n.lhsIdx (ix2 p q) ((ValueIdx.contrEquiv1 dot_S256x128_S128x9_S256x9_1_0_0_1_n_n 128 rfl rfl).symm k) = ix2 p k := funext fun a => Fin.ext (by
    match a with
    | ⟨0, _⟩ => exact lhsC_0 _ _
    | ⟨1, _⟩ => exact (lhsC_1 _ _).trans hk)
  have er : dot_S256x128_S128x9_S256x9_1_0_0_1_n_n.rhsIdx (ix2 p q) ((ValueIdx.contrEquiv1 dot_S256x128_S128x9_S256x9_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-- One affine map of the head as the body computes it — the operands narrowed to bf16 (the identity on extended
    reals), the product accumulated into zero, the bias row broadcast over the 256 rows — is `GraphNet.affine`. -/
theorem affC (x : Vec Ideal S256x128 .f32) (w : Vec Ideal S128x9 .f32) (b : Vec Ideal S1x9 .f32) :
    addf (F := Ideal) (FloatOps.matmul (F := Ideal) dot_S256x128_S128x9_S256x9_1_0_0_1_n_n none (truncf .bf16 x bitsLt_bf16_f32) (truncf .bf16 w bitsLt_bf16_f32) (constant (F := Ideal) S256x9 .f32 0x00000000#32))
        (broadcastTo S256x9 b broadcasts_S1x9_S256x9)
      = GraphNet.affine 256 128 9 x w b := by
  funext i
  obtain ⟨r, j, rfl⟩ : ∃ (r : Fin 256) (j : Fin 9), i = ix2 r j := ⟨i 0, i 1, eq_ix2 i⟩
  refine Eq.trans ?_ (GraphNet.affine_apply 256 128 9 x w b r j).symm
  show FloatOps.matmul (F := Ideal) dot_S256x128_S128x9_S256x9_1_0_0_1_n_n none (truncf .bf16 x bitsLt_bf16_f32) (truncf .bf16 w bitsLt_bf16_f32) (constant (F := Ideal) S256x9 .f32 0x00000000#32) (ix2 r j)
      + broadcastTo S256x9 b broadcasts_S1x9_S256x9 (ix2 r j) = _
  rw [mmC_apply]
  rw [show broadcastTo S256x9 b broadcasts_S1x9_S256x9 (ix2 r j) = b (ix2 (0 : Fin 1) j) from
    broadcastTo_1b_ab_apply (a := 256) (b := 9) b _ r j]
  rfl

/-- What the body stores: the three affine maps composed. -/
theorem pay_eq (x0 : Vec Ideal S256x6400 .f32) (x1 : Vec Ideal S6400x256 .f32) (x2 : Vec Ideal S1x256 .f32) (x3 : Vec Ideal S256x128 .f32)
    (x4 : Vec Ideal S1x128 .f32) (x5 : Vec Ideal S128x9 .f32) (x6 : Vec Ideal S1x9 .f32) :
    k3_pay1 (F := Ideal) x0 x1 x2 x3 x4 x5 x6
      = GraphNet.affine 256 128 9 (GraphNet.affine 256 256 128 (GraphNet.affine 256 6400 256 x0 x1 x2) x3 x4) x5 x6 := by
  unfold k3_pay1
  simp only [shapeCast_self]
  rw [← affA x0 x1 x2, ← affB _ x3 x4, ← affC _ x5 x6]

/-! ## From the one block to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the one-point grid: every window at block (0, 0). -/
theorem idx_facts : ∀ t : Fin cfg3.N,
    (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0) :=
  (by decide +kernel : ∀ t : Fin grid3.N, _)

/-- Window 0's one block is its whole array. -/
theorem read_0 (c : Dev nD) (t : Fin cfg3.N) :
    (iblk3 V c 0 t : Vec Ideal S256x6400 .f32) = (V c (Pipeline.arrRef spec3 0) : Vec Ideal S256x6400 .f32) := by
  have e := (idx_facts t).1
  funext y
  unfold iblk3
  rw [View.read_apply]
  refine congrArg (V c (Pipeline.arrRef spec3 0) : Vec Ideal S256x6400 .f32) (funext fun a => Fin.ext ?_)
  match a with
  | ⟨0, _⟩ => show win3_0.index t 0 * 256 + 1 * (y 0).val = (y 0).val; rw [e.1]; omega
  | ⟨1, _⟩ => show win3_0.index t 1 * 6400 + 1 * (y 1).val = (y 1).val; rw [e.2]; omega

/-- Window 1's one block is its whole array. -/
theorem read_1 (c : Dev nD) (t : Fin cfg3.N) :
    (iblk3 V c 1 t : Vec Ideal S6400x256 .f32) = (V c (Pipeline.arrRef spec3 1) : Vec Ideal S6400x256 .f32) := by
  have e := (idx_facts t).2.1
  funext y
  unfold iblk3
  rw [View.read_apply]
  refine congrArg (V c (Pipeline.arrRef spec3 1) : Vec Ideal S6400x256 .f32) (funext fun a => Fin.ext ?_)
  match a with
  | ⟨0, _⟩ => show win3_1.index t 0 * 6400 + 1 * (y 0).val = (y 0).val; rw [e.1]; omega
  | ⟨1, _⟩ => show win3_1.index t 1 * 256 + 1 * (y 1).val = (y 1).val; rw [e.2]; omega

/-- Window 2's one block is its whole array. -/
theorem read_2 (c : Dev nD) (t : Fin cfg3.N) :
    (iblk3 V c 2 t : Vec Ideal S1x256 .f32) = (V c (Pipeline.arrRef spec3 2) : Vec Ideal S1x256 .f32) := by
  have e := (idx_facts t).2.2.1
  funext y
  unfold iblk3
  rw [View.read_apply]
  refine congrArg (V c (Pipeline.arrRef spec3 2) : Vec Ideal S1x256 .f32) (funext fun a => Fin.ext ?_)
  match a with
  | ⟨0, _⟩ => show win3_2.index t 0 * 1 + 1 * (y 0).val = (y 0).val; rw [e.1]; omega
  | ⟨1, _⟩ => show win3_2.index t 1 * 256 + 1 * (y 1).val = (y 1).val; rw [e.2]; omega

/-- Window 3's one block is its whole array. -/
theorem read_3 (c : Dev nD) (t : Fin cfg3.N) :
    (iblk3 V c 3 t : Vec Ideal S256x128 .f32) = (V c (Pipeline.arrRef spec3 3) : Vec Ideal S256x128 .f32) := by
  have e := (idx_facts t).2.2.2.1
  funext y
  unfold iblk3
  rw [View.read_apply]
  refine congrArg (V c (Pipeline.arrRef spec3 3) : Vec Ideal S256x128 .f32) (funext fun a => Fin.ext ?_)
  match a with
  | ⟨0, _⟩ => show win3_3.index t 0 * 256 + 1 * (y 0).val = (y 0).val; rw [e.1]; omega
  | ⟨1, _⟩ => show win3_3.index t 1 * 128 + 1 * (y 1).val = (y 1).val; rw [e.2]; omega

/-- Window 4's one block is its whole array. -/
theorem read_4 (c : Dev nD) (t : Fin cfg3.N) :
    (iblk3 V c 4 t : Vec Ideal S1x128 .f32) = (V c (Pipeline.arrRef spec3 4) : Vec Ideal S1x128 .f32) := by
  have e := (idx_facts t).2.2.2.2.1
  funext y
  unfold iblk3
  rw [View.read_apply]
  refine congrArg (V c (Pipeline.arrRef spec3 4) : Vec Ideal S1x128 .f32) (funext fun a => Fin.ext ?_)
  match a with
  | ⟨0, _⟩ => show win3_4.index t 0 * 1 + 1 * (y 0).val = (y 0).val; rw [e.1]; omega
  | ⟨1, _⟩ => show win3_4.index t 1 * 128 + 1 * (y 1).val = (y 1).val; rw [e.2]; omega

/-- Window 5's one block is its whole array. -/
theorem read_5 (c : Dev nD) (t : Fin cfg3.N) :
    (iblk3 V c 5 t : Vec Ideal S128x9 .f32) = (V c (Pipeline.arrRef spec3 5) : Vec Ideal S128x9 .f32) := by
  have e := (idx_facts t).2.2.2.2.2.1
  funext y
  unfold iblk3
  rw [View.read_apply]
  refine congrArg (V c (Pipeline.arrRef spec3 5) : Vec Ideal S128x9 .f32) (funext fun a => Fin.ext ?_)
  match a with
  | ⟨0, _⟩ => show win3_5.index t 0 * 128 + 1 * (y 0).val = (y 0).val; rw [e.1]; omega
  | ⟨1, _⟩ => show win3_5.index t 1 * 9 + 1 * (y 1).val = (y 1).val; rw [e.2]; omega

/-- Window 6's one block is its whole array. -/
theorem read_6 (c : Dev nD) (t : Fin cfg3.N) :
    (iblk3 V c 6 t : Vec Ideal S1x9 .f32) = (V c (Pipeline.arrRef spec3 6) : Vec Ideal S1x9 .f32) := by
  have e := (idx_facts t).2.2.2.2.2.2.1
  funext y
  unfold iblk3
  rw [View.read_apply]
  refine congrArg (V c (Pipeline.arrRef spec3 6) : Vec Ideal S1x9 .f32) (funext fun a => Fin.ext ?_)
  match a with
  | ⟨0, _⟩ => show win3_6.index t 0 * 1 + 1 * (y 0).val = (y 0).val; rw [e.1]; omega
  | ⟨1, _⟩ => show win3_6.index t 1 * 9 + 1 * (y 1).val = (y 1).val; rw [e.2]; omega

/-- The head of the arrays the region is entered with. -/
abbrev result (c : Dev nD) : Vec Ideal S256x9 .f32 :=
  GraphNet.affine 256 128 9 (GraphNet.affine 256 256 128 (GraphNet.affine 256 6400 256 (V c (Pipeline.arrRef spec3 0)) (V c (Pipeline.arrRef spec3 1))
    (V c (Pipeline.arrRef spec3 2))) (V c (Pipeline.arrRef spec3 3)) (V c (Pipeline.arrRef spec3 4))) (V c (Pipeline.arrRef spec3 5)) (V c (Pipeline.arrRef spec3 6))

/-- What the one point stores is the head of the arrays the region is entered with. -/
theorem point_eq (c : Dev nD) (t : Fin cfg3.N) :
    k3_pay1 (F := Ideal) (iblk3 V c 0 t) (iblk3 V c 1 t) (iblk3 V c 2 t) (iblk3 V c 3 t) (iblk3 V c 4 t) (iblk3 V c 5 t) (iblk3 V c 6 t)
      = result V c := by
  refine (pay_eq (iblk3 V c 0 t) (iblk3 V c 1 t) (iblk3 V c 2 t) (iblk3 V c 3 t) (iblk3 V c 4 t) (iblk3 V c 5 t) (iblk3 V c 6 t)).trans ?_
  rw [read_0 V c t, read_1 V c t, read_2 V c t, read_3 V c t, read_4 V c t, read_5 V c t, read_6 V c t]

/-- WHAT THE ONE POINT WRITES BACK is the (whole-array) block of the head of the arrays the region is entered with. -/
theorem flushed_eq (c : Dev nD) (t : Fin cfg3.N) :
    (dat3 V c).flushed 7 t = ((cfg3.win 7).blk t).view.read (Elt Ideal) (result V c) := by
  show (cfg3.win 7).cut (grid3.coords t) ((dat3 V c).after 7 t) = _
  rw [after3_7]
  unfold out3_7
  rw [View.canon_unit_zero hz]
  simp only [View.ld_unit_zero (S := S256x6400) hz, View.ld_unit_zero (S := S6400x256) hz, View.ld_unit_zero (S := S1x256) hz,
    View.ld_unit_zero (S := S256x128) hz, View.ld_unit_zero (S := S1x128) hz, View.ld_unit_zero (S := S128x9) hz, View.ld_unit_zero (S := S1x9) hz]
  have e := (idx_facts t).2.2.2.2.2.2.2
  funext j
  show k3_pay1 (F := Ideal) (iblk3 V c 0 t) (iblk3 V c 1 t) (iblk3 V c 2 t) (iblk3 V c 3 t) (iblk3 V c 4 t) (iblk3 V c 5 t) (iblk3 V c 6 t) j
    = result V c (((cfg3.win 7).blk t).view.emb j)
  have hemb : ((cfg3.win 7).blk t).view.emb j = j := by
    funext a; apply Fin.ext
    match a with
    | ⟨0, _⟩ => show win3_7.index t (0 : Fin 2) * 256 + 1 * (j 0).val = (j 0).val; rw [e.1]; omega
    | ⟨1, _⟩ => show win3_7.index t (1 : Fin 2) * 9 + 1 * (j 1).val = (j 1).val; rw [e.2]; omega
  rw [hemb]
  exact congrFun (point_eq V c t) j

/-- An index of the result array is in the point's block iff each coordinate is in the block's range on its axis. -/
theorem mem_blk (t : Fin cfg3.N) (i : S256x9.Idx) :
    i ∈ ((cfg3.win 7).blk t).view.set ↔ ∀ a : Fin 2, win3_7.index t a * S256x9.size a ≤ (i a).val ∧ (i a).val < win3_7.index t a * S256x9.size a + S256x9.size a := by
  show i ∈ ((View.whole (Pipeline.arrRef spec3 7)).slice (win3_7.rect t)).set ↔ _
  rw [View.set_slice_whole, Rect.mem_set_unit]
  exact Iff.rfl

/-- The one block covers the result array. -/
theorem cover (i : S256x9.Idx) : ∃ t : Fin cfg3.N, (cfg3.win 7).flush t = true ∧ i ∈ ((cfg3.win 7).blk t).view.set := by
  have hi0 : (i 0).val < 256 := (i 0).isLt
  have hi1 : (i 1).val < 9 := (i 1).isLt
  have hN : cfg3.N = 1 := N_3
  refine ⟨⟨0, by rw [hN]; omega⟩, flush3_7 _, ?_⟩
  rw [mem_blk]
  have e := (idx_facts ⟨0, by rw [hN]; omega⟩).2.2.2.2.2.2.2
  intro a
  match a with
  | ⟨0, _⟩ =>
    show win3_7.index _ (0 : Fin 2) * 256 ≤ (i 0).val ∧ (i 0).val < win3_7.index _ (0 : Fin 2) * 256 + 256
    rw [e.1]; omega
  | ⟨1, _⟩ =>
    show win3_7.index _ (1 : Fin 2) * 9 ≤ (i 1).val ∧ (i 1).val < win3_7.index _ (1 : Fin 2) * 9 + 9
    rw [e.2]; omega

/-- THE RESULT ARRAY after the region: the head of the arrays the region is entered with. -/
theorem final (c : Dev nD) : (dat3 V c).arrAt 7 cfg3.N = result V c :=
  (dat3 V c).arrAt_eq_of_cover 7 (result V c) (fun t _ => flushed_eq V c t) cover

end Cert.KernelIdeal.Head

end
-- ==== Proof.RefStages.lean ====
/-
  The reference program stage by stage against the same mathematics: each `relu (h·W₀ + tx·W₁ + b)` of the reference
  — two `dot_general`s, two additions, the bias row broadcast over the nodes, the maximum with zero — is
  `GraphNet.layer` of its operands, and each `h·W + b` of the read-out head is `GraphNet.affine`; entry by entry both
  are the same sums, in the same order.
-/
import proofs.«104714_j6545530159286_1_alg».proof.Proof.Gen.ReferenceIdeal.Read
import proofs.«104714_j6545530159286_1_alg».proof.Proof.Spec

set_option maxRecDepth 16384

noncomputable section

open Idealize.ShloMosaic Idealize.ShloMosaic.TcCoe Idealize.SL.Sem Idealize.ShloMosaic.ValueIdx

namespace Cert.ReferenceIdeal.Stages

open Cert.ReferenceIdeal Cert.ReferenceIdeal.Read

variable (x0 : (⟨S102400x64, .f32⟩ : BufTy).Contents (Elt Ideal)) (x1 : (⟨S2x3276800, .i32⟩ : BufTy).Contents (Elt Ideal)) (x2 : (⟨S3276800, .f32⟩ : BufTy).Contents (Elt Ideal))
  (x3 x4 : (⟨S64x32, .f32⟩ : BufTy).Contents (Elt Ideal)) (x5 : (⟨S32, .f32⟩ : BufTy).Contents (Elt Ideal)) (x6 x7 : (⟨S32x32, .f32⟩ : BufTy).Contents (Elt Ideal)) (x8 : (⟨S32, .f32⟩ : BufTy).Contents (Elt Ideal))
  (x9 x10 : (⟨S32x16, .f32⟩ : BufTy).Contents (Elt Ideal)) (x11 : (⟨S16, .f32⟩ : BufTy).Contents (Elt Ideal)) (x12 : (⟨S6400x256, .f32⟩ : BufTy).Contents (Elt Ideal)) (x13 : (⟨S256, .f32⟩ : BufTy).Contents (Elt Ideal))
  (x14 : (⟨S256x128, .f32⟩ : BufTy).Contents (Elt Ideal)) (x15 : (⟨S128, .f32⟩ : BufTy).Contents (Elt Ideal)) (x16 : (⟨S128x9, .f32⟩ : BufTy).Contents (Elt Ideal)) (x17 : (⟨S9, .f32⟩ : BufTy).Contents (Elt Ideal))

/-- The first layer: node features `x`, their aggregate, the first pair of weight matrices and bias. -/
theorem layer1 :
    val_main_v50 (F := Ideal) x0 x1 x2 x3 x4 x5
      = GraphNet.layer 102400 64 32 x0 (val_main_v43 (F := Ideal) x0 x1 x2) x3 x4 (val_main_v47 (F := Ideal) x5) := by
  funext i
  obtain ⟨n, j, rfl⟩ : ∃ (n : Fin 102400) (j : Fin 32), i = ix2 n j := ⟨i 0, i 1, eq_ix2 i⟩
  refine Eq.trans ?_ (GraphNet.layer_apply 102400 64 32 _ _ _ _ _ n j).symm
  rw [val_main_v50_apply, val_main_v49_apply, val_main_v46_apply, val_main_v44_apply, val_main_v45_apply, val_main_v48_apply,
    val_main_call2_v0_apply, val_main_call2_cst_apply]
  have e1 : ∀ k : Fin 64, lidx_main_v44 (ix2 n j) k = ix2 n k := fun k => funext fun a => Fin.ext (by
    match a with | ⟨0, _⟩ => rfl | ⟨1, _⟩ => rfl)
  have e2 : ∀ k : Fin 64, ridx_main_v44 (ix2 n j) k = ix2 k j := fun k => funext fun a => Fin.ext (by
    match a with | ⟨0, _⟩ => rfl | ⟨1, _⟩ => rfl)
  have e3 : ∀ k : Fin 64, lidx_main_v45 (ix2 n j) k = ix2 n k := fun k => funext fun a => Fin.ext (by
    match a with | ⟨0, _⟩ => rfl | ⟨1, _⟩ => rfl)
  have e4 : ∀ k : Fin 64, ridx_main_v45 (ix2 n j) k = ix2 k j := fun k => funext fun a => Fin.ext (by
    match a with | ⟨0, _⟩ => rfl | ⟨1, _⟩ => rfl)
  have e5 : idx_main_v48 (ix2 n j) = ix2 (0 : Fin 1) j := funext fun a => Fin.ext (by
    match a with | ⟨0, _⟩ => rfl | ⟨1, _⟩ => rfl)
  simp only [e1, e2, e3, e4, e5]
  rfl

/-- The second layer, on the first layer's result and its aggregate. -/
theorem layer2 :
    val_main_v70 (F := Ideal) x0 x1 x2 x3 x4 x5 x6 x7 x8
      = GraphNet.layer 102400 32 32 (val_main_v50 (F := Ideal) x0 x1 x2 x3 x4 x5) (val_main_v63 (F := Ideal) x0 x1 x2 x3 x4 x5) x6 x7
          (val_main_v67 (F := Ideal) x8) := by
  funext i
  obtain ⟨n, j, rfl⟩ : ∃ (n : Fin 102400) (j : Fin 32), i = ix2 n j := ⟨i 0, i 1, eq_ix2 i⟩
  refine Eq.trans ?_ (GraphNet.layer_apply 102400 32 32 _ _ _ _ _ n j).symm
  rw [val_main_v70_apply, val_main_v69_apply, val_main_v66_apply, val_main_v64_apply, val_main_v65_apply, val_main_v68_apply,
    val_main_call3_v0_apply, val_main_call3_cst_apply]
  have e1 : ∀ k : Fin 32, lidx_main_v64 (ix2 n j) k = ix2 n k := fun k => funext fun a => Fin.ext (by
    match a with | ⟨0, _⟩ => rfl | ⟨1, _⟩ => rfl)
  have e2 : ∀ k : Fin 32, ridx_main_v64 (ix2 n j) k = ix2 k j := fun k => funext fun a => Fin.ext (by
    match a with | ⟨0, _⟩ => rfl | ⟨1, _⟩ => rfl)
  have e3 : ∀ k : Fin 32, lidx_main_v65 (ix2 n j) k = ix2 n k := fun k => funext fun a => Fin.ext (by
    match a with | ⟨0, _⟩ => rfl | ⟨1, _⟩ => rfl)
  have e4 : ∀ k : Fin 32, ridx_main_v65 (ix2 n j) k = ix2 k j := fun k => funext fun a => Fin.ext (by
    match a with | ⟨0, _⟩ => rfl | ⟨1, _⟩ => rfl)
  have e5 : idx_main_v68 (ix2 n j) = ix2 (0 : Fin 1) j := funext fun a => Fin.ext (by
    match a with | ⟨0, _⟩ => rfl | ⟨1, _⟩ => rfl)
  simp only [e1, e2, e3, e4, e5]
  rfl

/-- The third layer, on the second layer's result and its aggregate. -/
theorem layer3 :
    val_main_v90 (F := Ideal) x0 x1 x2 x3 x4 x5 x6 x7 x8 x9 x10 x11
      = GraphNet.layer 102400 32 16 (val_main_v70 (F := Ideal) x0 x1 x2 x3 x4 x5 x6 x7 x8) (val_main_v83 (F := Ideal) x0 x1 x2 x3 x4 x5 x6 x7 x8) x9 x10
          (val_main_v87 (F := Ideal) x11) := by
  funext i
  obtain ⟨n, j, rfl⟩ : ∃ (n : Fin 102400) (j : Fin 16), i = ix2 n j := ⟨i 0, i 1, eq_ix2 i⟩
  refine Eq.trans ?_ (GraphNet.layer_apply 102400 32 16 _ _ _ _ _ n j).symm
  rw [val_main_v90_apply, val_main_v89_apply, val_main_v86_apply, val_main_v84_apply, val_main_v85_apply, val_main_v88_apply,
    val_main_call4_v0_apply, val_main_call4_cst_apply]
  have e1 : ∀ k : Fin 32, lidx_main_v84 (ix2 n j) k = ix2 n k := fun k => funext fun a => Fin.ext (by
    match a with | ⟨0, _⟩ => rfl | ⟨1, _⟩ => rfl)
  have e2 : ∀ k : Fin 32, ridx_main_v84 (ix2 n j) k = ix2 k j := fun k => funext fun a => Fin.ext (by
    match a with | ⟨0, _⟩ => rfl | ⟨1, _⟩ => rfl)
  have e3 : ∀ k : Fin 32, lidx_main_v85 (ix2 n j) k = ix2 n k := fun k => funext fun a => Fin.ext (by
    match a with | ⟨0, _⟩ => rfl | ⟨1, _⟩ => rfl)
  have e4 : ∀ k : Fin 32, ridx_main_v85 (ix2 n j) k = ix2 k j := fun k => funext fun a => Fin.ext (by
    match a with | ⟨0, _⟩ => rfl | ⟨1, _⟩ => rfl)
  have e5 : idx_main_v88 (ix2 n j) = ix2 (0 : Fin 1) j := funext fun a => Fin.ext (by
    match a with | ⟨0, _⟩ => rfl | ⟨1, _⟩ => rfl)
  simp only [e1, e2, e3, e4, e5]
  rfl

/-- The head's first affine map, on the third layer's result re-laid as 256 graphs of 6400 features. -/
theorem head1 :
    val_main_v95 (F := Ideal) x0 x1 x2 x3 x4 x5 x6 x7 x8 x9 x10 x11 x12 x13
      = GraphNet.affine 256 6400 256 (val_main_v91 (F := Ideal) x0 x1 x2 x3 x4 x5 x6 x7 x8 x9 x10 x11) x12 (val_main_v93 (F := Ideal) x13) := by
  funext i
  obtain ⟨r, j, rfl⟩ : ∃ (r : Fin 256) (j : Fin 256), i = ix2 r j := ⟨i 0, i 1, eq_ix2 i⟩
  refine Eq.trans ?_ (GraphNet.affine_apply 256 6400 256 _ _ _ r j).symm
  rw [val_main_v95_apply, val_main_v92_apply, val_main_v94_apply]
  have e1 : ∀ k : Fin 6400, lidx_main_v92 (ix2 r j) k = ix2 r k := fun k => funext fun a => Fin.ext (by
    match a with | ⟨0, _⟩ => rfl | ⟨1, _⟩ => rfl)
  have e2 : ∀ k : Fin 6400, ridx_main_v92 (ix2 r j) k = ix2 k j := fun k => funext fun a => Fin.ext (by
    match a with | ⟨0, _⟩ => rfl | ⟨1, _⟩ => rfl)
  have e5 : idx_main_v94 (ix2 r j) = ix2 (0 : Fin 1) j := funext fun a => Fin.ext (by
    match a with | ⟨0, _⟩ => rfl | ⟨1, _⟩ => rfl)
  simp only [e1, e2, e5]
  rfl

/-- The head's second affine map. -/
theorem head2 :
    val_main_v99 (F := Ideal) x0 x1 x2 x3 x4 x5 x6 x7 x8 x9 x10 x11 x12 x13 x14 x15
      = GraphNet.affine 256 256 128 (val_main_v95 (F := Ideal) x0 x1 x2 x3 x4 x5 x6 x7 x8 x9 x10 x11 x12 x13) x14 (val_main_v97 (F := Ideal) x15) := by
  funext i
  obtain ⟨r, j, rfl⟩ : ∃ (r : Fin 256) (j : Fin 128), i = ix2 r j := ⟨i 0, i 1, eq_ix2 i⟩
  refine Eq.trans ?_ (GraphNet.affine_apply 256 256 128 _ _ _ r j).symm
  rw [val_main_v99_apply, val_main_v96_apply, val_main_v98_apply]
  have e1 : ∀ k : Fin 256, lidx_main_v96 (ix2 r j) k = ix2 r k := fun k => funext fun a => Fin.ext (by
    match a with | ⟨0, _⟩ => rfl | ⟨1, _⟩ => rfl)
  have e2 : ∀ k : Fin 256, ridx_main_v96 (ix2 r j) k = ix2 k j := fun k => funext fun a => Fin.ext (by
    match a with | ⟨0, _⟩ => rfl | ⟨1, _⟩ => rfl)
  have e5 : idx_main_v98 (ix2 r j) = ix2 (0 : Fin 1) j := funext fun a => Fin.ext (by
    match a with | ⟨0, _⟩ => rfl | ⟨1, _⟩ => rfl)
  simp only [e1, e2, e5]
  rfl

/-- The head's third affine map: the program's result. -/
theorem head3 :
    val_main_v103 (F := Ideal) x0 x1 x2 x3 x4 x5 x6 x7 x8 x9 x10 x11 x12 x13 x14 x15 x16 x17
      = GraphNet.affine 256 128 9 (val_main_v99 (F := Ideal) x0 x1 x2 x3 x4 x5 x6 x7 x8 x9 x10 x11 x12 x13 x14 x15) x16 (val_main_v101 (F := Ideal) x17) := by
  funext i
  obtain ⟨r, j, rfl⟩ : ∃ (r : Fin 256) (j : Fin 9), i = ix2 r j := ⟨i 0, i 1, eq_ix2 i⟩
  refine Eq.trans ?_ (GraphNet.affine_apply 256 128 9 _ _ _ r j).symm
  rw [val_main_v103_apply, val_main_v100_apply, val_main_v102_apply]
  have e1 : ∀ k : Fin 128, lidx_main_v100 (ix2 r j) k = ix2 r k := fun k => funext fun a => Fin.ext (by
    match a with | ⟨0, _⟩ => rfl | ⟨1, _⟩ => rfl)
  have e2 : ∀ k : Fin 128, ridx_main_v100 (ix2 r j) k = ix2 k j := fun k => funext fun a => Fin.ext (by
    match a with | ⟨0, _⟩ => rfl | ⟨1, _⟩ => rfl)
  have e5 : idx_main_v102 (ix2 r j) = ix2 (0 : Fin 1) j := funext fun a => Fin.ext (by
    match a with | ⟨0, _⟩ => rfl | ⟨1, _⟩ => rfl)
  simp only [e1, e2, e5]
  rfl

end Cert.ReferenceIdeal.Stages

end
-- ==== Proof.Walk.lean ====
/-
  The kernel program's buffers, boundary by boundary, against the reference's stages. The two programs apply the
  SAME host operations to build the graph Laplacian's edge weights and, per layer, the neighbourhood aggregate
  (gather the source rows, scale by the edge weight, scatter-add into the destination rows); they differ only in
  how each layer's dense part and the head are computed, and those are `GraphNet.layer` and `GraphNet.affine` on both
  sides. So walking the kernel program's boundaries in order, every buffer a later step reads holds the reference's
  stage of the same name-free meaning: the shared host operations are carried along unopened, one stretch at a time,
  each compared with the reference's stage only after its operands have been rewritten to the reference's stages.
-/
import proofs.«104714_j6545530159286_1_alg».proof.Proof.Gen.KernelIdeal.Frame
import proofs.«104714_j6545530159286_1_alg».proof.Proof.Gen.ReferenceIdeal.Read
import proofs.«104714_j6545530159286_1_alg».proof.Proof.Layer0Array
import proofs.«104714_j6545530159286_1_alg».proof.Proof.Layer1Array
import proofs.«104714_j6545530159286_1_alg».proof.Proof.Layer2Array
import proofs.«104714_j6545530159286_1_alg».proof.Proof.Head
import proofs.«104714_j6545530159286_1_alg».proof.Proof.RefStages
import Idealize.ShloMosaic.Lib.Pipeline.Regions
import Idealize.ShloMosaic.Lib.ValueLayout

set_option maxRecDepth 16384

noncomputable section

namespace Cert.KernelIdeal.Walk

open Cert.KernelIdeal Cert.KernelIdeal.Gen
open Idealize.ShloMosaic Idealize.ShloMosaic.Pipeline Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg)

/-- An argument array as launched. -/
abbrev arg (c : Dev nD) (r : Ref sig .tc) : Buf (Elt Ideal) ((c : Thread nD τ).loc r) := m ((c : Thread nD τ).loc r)

/-! ## What each stretch of host operations writes, and what it therefore keeps -/

abbrev hostOps0_W : List (Ref sig .tc) := [main_v0, main_v1, main_v2, main_v3, main_cst, main_v4, main_v5, main_v6, main_cst_0, main_v7, main_v8, main_cst_1]
theorem hostOps0_writes : (hostOps0 : List (HloOp τ sig (Elt Ideal))).Forall fun op => op.writes ⊆ (hostOps0_W.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer the stretch does not write is as before it. -/
theorem up1 (c : Dev nD) (r : Ref sig .tc) (h : r ∉ hostOps0_W) : W1 m ρ c (Proc.devRef .tc r) = W0 m ρ c (Proc.devRef .tc r) :=
  StableHlo.after_of_writes_sub hostOps0 _ hostOps0_writes h

abbrev hostOps0_1_W : List (Ref sig .tc) := [main_call0_v0, main_call0_v1, main_v9]
theorem hostOps0_1_writes : (hostOps0_1 : List (HloOp τ sig (Elt Ideal))).Forall fun op => op.writes ⊆ (hostOps0_1_W.map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer the stretch does not write is as before it. -/
theorem up2 (c : Dev nD) (r : Ref sig .tc) (h : r ∉ hostOps0_1_W) : W2 m ρ c (Proc.devRef .tc r) = W1 m ρ c (Proc.devRef .tc r) :=
  StableHlo.after_of_writes_sub hostOps0_1 _ hostOps0_1_writes h

abbrev hostOps0_2_W : List (Ref sig .tc) := [main_cst_2, main_v10, main_v11, main_v12, main_cst_3]
theorem hostOps0_2_writes : (hostOps0_2 : List (HloOp τ sig (Elt Ideal))).Forall fun op => op.writes ⊆ (hostOps0_2_W.map (Proc.devRef (τ := τ) .tc)).toFinset := by
  simp only [hostOps0_2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer the stretch does not write is as before it. -/
theorem up3 (c : Dev nD) (r : Ref sig .tc) (h : r ∉ hostOps0_2_W) : W3 m ρ c (Proc.devRef .tc r) = W2 m ρ c (Proc.devRef .tc r) :=
  StableHlo.after_of_writes_sub hostOps0_2 _ hostOps0_2_writes h

abbrev hostOps0_3_W : List (Ref sig .tc) := [main_call1_v0, main_call1_v1, main_v13]
theorem hostOps0_3_writes : (hostOps0_3 : List (HloOp τ sig (Elt Ideal))).Forall fun op => op.writes ⊆ (hostOps0_3_W.map (Proc.devRef (τ := τ) .tc)).toFinset := by
  simp only [hostOps0_3, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer the stretch does not write is as before it. -/
theorem up4 (c : Dev nD) (r : Ref sig .tc) (h : r ∉ hostOps0_3_W) : W4 m ρ c (Proc.devRef .tc r) = W3 m ρ c (Proc.devRef .tc r) :=
  StableHlo.after_of_writes_sub hostOps0_3 _ hostOps0_3_writes h

abbrev hostOps0_4_W : List (Ref sig .tc) := [main_c, main_v14, main_v15, main_c_4, main_v16, main_v17, main_v18, main_v19, main_v20, main_v21, main_c_5, main_v22, main_v23, main_c_6, main_v24, main_v25, main_v26, main_v27, main_v28, main_v29, main_v30, main_v31, main_c_7, main_v32, main_v33, main_c_8, main_v34, main_v35, main_v36, main_v37, main_v38, main_v39, main_v40, main_cst_9, main_v41, main_v42, main_v43, main_v44]
theorem hostOps0_4_writes : (hostOps0_4 : List (HloOp τ sig (Elt Ideal))).Forall fun op => op.writes ⊆ (hostOps0_4_W.map (Proc.devRef (τ := τ) .tc)).toFinset := by
  simp only [hostOps0_4, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer the stretch does not write is as before it. -/
theorem up5 (c : Dev nD) (r : Ref sig .tc) (h : r ∉ hostOps0_4_W) : W5 m ρ c (Proc.devRef .tc r) = W4 m ρ c (Proc.devRef .tc r) :=
  StableHlo.after_of_writes_sub hostOps0_4 _ hostOps0_4_writes h

abbrev hostOps1_W : List (Ref sig .tc) := [main_v46, main_c_10, main_v47, main_v48, main_c_11, main_v49, main_v50, main_v51, main_v52, main_v53, main_v54, main_v55, main_cst_12, main_v56, main_v57, main_v58, main_v59]
theorem hostOps1_writes : (hostOps1 : List (HloOp τ sig (Elt Ideal))).Forall fun op => op.writes ⊆ (hostOps1_W.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer the stretch does not write is as before it. -/
theorem up7 (c : Dev nD) (r : Ref sig .tc) (h : r ∉ hostOps1_W) : W7 m ρ c (Proc.devRef .tc r) = W6 m ρ c (Proc.devRef .tc r) :=
  StableHlo.after_of_writes_sub hostOps1 _ hostOps1_writes h

abbrev hostOps2_W : List (Ref sig .tc) := [main_v61, main_c_13, main_v62, main_v63, main_c_14, main_v64, main_v65, main_v66, main_v67, main_v68, main_v69, main_v70, main_cst_15, main_v71, main_v72, main_v73, main_v74]
theorem hostOps2_writes : (hostOps2 : List (HloOp τ sig (Elt Ideal))).Forall fun op => op.writes ⊆ (hostOps2_W.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer the stretch does not write is as before it. -/
theorem up9 (c : Dev nD) (r : Ref sig .tc) (h : r ∉ hostOps2_W) : W9 m ρ c (Proc.devRef .tc r) = W8 m ρ c (Proc.devRef .tc r) :=
  StableHlo.after_of_writes_sub hostOps2 _ hostOps2_writes h

abbrev hostOps3_W : List (Ref sig .tc) := [main_v76, main_v77, main_v78, main_v79]
theorem hostOps3_writes : (hostOps3 : List (HloOp τ sig (Elt Ideal))).Forall fun op => op.writes ⊆ (hostOps3_W.map (Proc.devRef (τ := τ) .tc)).toFinset := by
  simp only [hostOps3, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer the stretch does not write is as before it. -/
theorem up11 (c : Dev nD) (r : Ref sig .tc) (h : r ∉ hostOps3_W) : W11 m ρ c (Proc.devRef .tc r) = W10 m ρ c (Proc.devRef .tc r) :=
  StableHlo.after_of_writes_sub hostOps3 _ hostOps3_writes h

/-- A buffer that is none of region 0's arrays is as before it. -/
theorem up6 (c : Dev nD) (r : Ref sig .tc) (h : ∀ w, Pipeline.arrRef spec0 w ≠ r) : W6 m ρ c (Proc.devRef .tc r) = W5 m ρ c (Proc.devRef .tc r) :=
  W6_of_ne m ρ c r h

/-- A buffer that is none of region 1's arrays is as before it. -/
theorem up8 (c : Dev nD) (r : Ref sig .tc) (h : ∀ w, Pipeline.arrRef spec1 w ≠ r) : W8 m ρ c (Proc.devRef .tc r) = W7 m ρ c (Proc.devRef .tc r) :=
  W8_of_ne m ρ c r h

/-- A buffer that is none of region 2's arrays is as before it. -/
theorem up10 (c : Dev nD) (r : Ref sig .tc) (h : ∀ w, Pipeline.arrRef spec2 w ≠ r) : W10 m ρ c (Proc.devRef .tc r) = W9 m ρ c (Proc.devRef .tc r) :=
  W10_of_ne m ρ c r h

/-- A buffer that is none of region 3's arrays is as before it. -/
theorem up12 (c : Dev nD) (r : Ref sig .tc) (h : ∀ w, Pipeline.arrRef spec3 w ≠ r) : W12 m ρ c (Proc.devRef .tc r) = W11 m ρ c (Proc.devRef .tc r) :=
  W12_of_ne m ρ c r h

/-! ## A called function's operations are stated at typed references: the transport along a reference's type is the identity -/

/-- Contents carried to a typed reference's buffer type and back are themselves. -/
theorem ofBuf_toBuf {T : BufTy} (x : TRef sig T) (v : T.Contents (Elt Ideal)) : x.ofBuf (x.toBuf v) = v := by
  obtain ⟨r, h, h2, h3⟩ := x
  subst h
  rfl
theorem ofBuf_cst_1 (v : main_cst_1.ty.Contents (Elt Ideal)) : (TRef.of (T := ⟨S_, .f32⟩) main_cst_1).ofBuf (Val := Elt Ideal) v = v := rfl
theorem toBuf_cst_1 (v : (⟨S_, .f32⟩ : BufTy).Contents (Elt Ideal)) : (TRef.of (T := ⟨S_, .f32⟩) main_cst_1).toBuf (Val := Elt Ideal) v = v := rfl
theorem ofBuf_v8 (v : main_v8.ty.Contents (Elt Ideal)) : (TRef.of (T := ⟨S102400, .i1⟩) main_v8).ofBuf (Val := Elt Ideal) v = v := rfl
theorem toBuf_v8 (v : (⟨S102400, .i1⟩ : BufTy).Contents (Elt Ideal)) : (TRef.of (T := ⟨S102400, .i1⟩) main_v8).toBuf (Val := Elt Ideal) v = v := rfl
theorem ofBuf_v6 (v : main_v6.ty.Contents (Elt Ideal)) : (TRef.of (T := ⟨S102400, .f32⟩) main_v6).ofBuf (Val := Elt Ideal) v = v := rfl
theorem toBuf_v6 (v : (⟨S102400, .f32⟩ : BufTy).Contents (Elt Ideal)) : (TRef.of (T := ⟨S102400, .f32⟩) main_v6).toBuf (Val := Elt Ideal) v = v := rfl
theorem ofBuf_v9 (v : main_v9.ty.Contents (Elt Ideal)) : (TRef.of (T := ⟨S102400, .f32⟩) main_v9).ofBuf (Val := Elt Ideal) v = v := rfl
theorem toBuf_v9 (v : (⟨S102400, .f32⟩ : BufTy).Contents (Elt Ideal)) : (TRef.of (T := ⟨S102400, .f32⟩) main_v9).toBuf (Val := Elt Ideal) v = v := rfl
theorem ofBuf_cst_3 (v : main_cst_3.ty.Contents (Elt Ideal)) : (TRef.of (T := ⟨S_, .f32⟩) main_cst_3).ofBuf (Val := Elt Ideal) v = v := rfl
theorem toBuf_cst_3 (v : (⟨S_, .f32⟩ : BufTy).Contents (Elt Ideal)) : (TRef.of (T := ⟨S_, .f32⟩) main_cst_3).toBuf (Val := Elt Ideal) v = v := rfl
theorem ofBuf_v11 (v : main_v11.ty.Contents (Elt Ideal)) : (TRef.of (T := ⟨S102400, .i1⟩) main_v11).ofBuf (Val := Elt Ideal) v = v := rfl
theorem toBuf_v11 (v : (⟨S102400, .i1⟩ : BufTy).Contents (Elt Ideal)) : (TRef.of (T := ⟨S102400, .i1⟩) main_v11).toBuf (Val := Elt Ideal) v = v := rfl
theorem ofBuf_v12 (v : main_v12.ty.Contents (Elt Ideal)) : (TRef.of (T := ⟨S102400, .f32⟩) main_v12).ofBuf (Val := Elt Ideal) v = v := rfl
theorem toBuf_v12 (v : (⟨S102400, .f32⟩ : BufTy).Contents (Elt Ideal)) : (TRef.of (T := ⟨S102400, .f32⟩) main_v12).toBuf (Val := Elt Ideal) v = v := rfl
theorem ofBuf_v13 (v : main_v13.ty.Contents (Elt Ideal)) : (TRef.of (T := ⟨S102400, .f32⟩) main_v13).ofBuf (Val := Elt Ideal) v = v := rfl
theorem toBuf_v13 (v : (⟨S102400, .f32⟩ : BufTy).Contents (Elt Ideal)) : (TRef.of (T := ⟨S102400, .f32⟩) main_v13).toBuf (Val := Elt Ideal) v = v := rfl

/-! ## A bias vector as one row -/

/-- A bias vector re-laid as one row is the bias vector broadcast to one row: both read the vector at the column. -/
theorem bias_v47 (x : (⟨S32, .f32⟩ : BufTy).Contents (Elt Ideal)) :
    (shapeCast S1x32 x shapeCasts_S32_S1x32 : (⟨S1x32, .f32⟩ : BufTy).Contents (Elt Ideal)) = val_main_v47 (F := Ideal) x := by
  funext i
  obtain ⟨u, j, rfl⟩ : ∃ (u : Fin 1) (j : Fin 32), i = ix2 u j := ⟨i 0, i 1, eq_ix2 i⟩
  rw [val_main_v47_apply]
  refine (shapeCast_a_1a_apply (a := 32) x _ u j).trans (congrArg x (funext fun a => ?_))
  match a with
  | ⟨0, _⟩ => rfl

/-- A bias vector re-laid as one row is the bias vector broadcast to one row: both read the vector at the column. -/
theorem bias_v67 (x : (⟨S32, .f32⟩ : BufTy).Contents (Elt Ideal)) :
    (shapeCast S1x32 x shapeCasts_S32_S1x32 : (⟨S1x32, .f32⟩ : BufTy).Contents (Elt Ideal)) = val_main_v67 (F := Ideal) x := by
  funext i
  obtain ⟨u, j, rfl⟩ : ∃ (u : Fin 1) (j : Fin 32), i = ix2 u j := ⟨i 0, i 1, eq_ix2 i⟩
  rw [val_main_v67_apply]
  refine (shapeCast_a_1a_apply (a := 32) x _ u j).trans (congrArg x (funext fun a => ?_))
  match a with
  | ⟨0, _⟩ => rfl

/-- A bias vector re-laid as one row is the bias vector broadcast to one row: both read the vector at the column. -/
theorem bias_v87 (x : (⟨S16, .f32⟩ : BufTy).Contents (Elt Ideal)) :
    (shapeCast S1x16 x shapeCasts_S16_S1x16 : (⟨S1x16, .f32⟩ : BufTy).Contents (Elt Ideal)) = val_main_v87 (F := Ideal) x := by
  funext i
  obtain ⟨u, j, rfl⟩ : ∃ (u : Fin 1) (j : Fin 16), i = ix2 u j := ⟨i 0, i 1, eq_ix2 i⟩
  rw [val_main_v87_apply]
  refine (shapeCast_a_1a_apply (a := 16) x _ u j).trans (congrArg x (funext fun a => ?_))
  match a with
  | ⟨0, _⟩ => rfl

/-- A bias vector re-laid as one row is the bias vector broadcast to one row: both read the vector at the column. -/
theorem bias_v93 (x : (⟨S256, .f32⟩ : BufTy).Contents (Elt Ideal)) :
    (shapeCast S1x256 x shapeCasts_S256_S1x256 : (⟨S1x256, .f32⟩ : BufTy).Contents (Elt Ideal)) = val_main_v93 (F := Ideal) x := by
  funext i
  obtain ⟨u, j, rfl⟩ : ∃ (u : Fin 1) (j : Fin 256), i = ix2 u j := ⟨i 0, i 1, eq_ix2 i⟩
  rw [val_main_v93_apply]
  refine (shapeCast_a_1a_apply (a := 256) x _ u j).trans (congrArg x (funext fun a => ?_))
  match a with
  | ⟨0, _⟩ => rfl

/-- A bias vector re-laid as one row is the bias vector broadcast to one row: both read the vector at the column. -/
theorem bias_v97 (x : (⟨S128, .f32⟩ : BufTy).Contents (Elt Ideal)) :
    (shapeCast S1x128 x shapeCasts_S128_S1x128 : (⟨S1x128, .f32⟩ : BufTy).Contents (Elt Ideal)) = val_main_v97 (F := Ideal) x := by
  funext i
  obtain ⟨u, j, rfl⟩ : ∃ (u : Fin 1) (j : Fin 128), i = ix2 u j := ⟨i 0, i 1, eq_ix2 i⟩
  rw [val_main_v97_apply]
  refine (shapeCast_a_1a_apply (a := 128) x _ u j).trans (congrArg x (funext fun a => ?_))
  match a with
  | ⟨0, _⟩ => rfl

/-- A bias vector re-laid as one row is the bias vector broadcast to one row: both read the vector at the column. -/
theorem bias_v101 (x : (⟨S9, .f32⟩ : BufTy).Contents (Elt Ideal)) :
    (shapeCast S1x9 x shapeCasts_S9_S1x9 : (⟨S1x9, .f32⟩ : BufTy).Contents (Elt Ideal)) = val_main_v101 (F := Ideal) x := by
  funext i
  obtain ⟨u, j, rfl⟩ : ∃ (u : Fin 1) (j : Fin 9), i = ix2 u j := ⟨i 0, i 1, eq_ix2 i⟩
  rw [val_main_v101_apply]
  refine (shapeCast_a_1a_apply (a := 9) x _ u j).trans (congrArg x (funext fun a => ?_))
  match a with
  | ⟨0, _⟩ => rfl

/-! ## The buffers, boundary by boundary -/

/-- The edge sources: row 0 of the edge index. -/
theorem f_v1_1 (c : Dev nD) : W1 m ρ c (Proc.devRef .tc main_v1) = val_main_v1 (F := Ideal) (arg m c main_arg1) := by
  show StableHlo.after hostOps0 (W0 m ρ c) _ = _
  after_results_simp
  rfl

/-- The edge destinations: row 1 of the edge index. -/
theorem f_v3_1 (c : Dev nD) : W1 m ρ c (Proc.devRef .tc main_v3) = val_main_v3 (F := Ideal) (arg m c main_arg1) := by
  show StableHlo.after hostOps0 (W0 m ρ c) _ = _
  after_results_simp
  rfl

/-- The weighted degree: the edge weights scatter-added at the sources. -/
theorem f_v6_1 (c : Dev nD) : W1 m ρ c (Proc.devRef .tc main_v6) = val_main_v6 (F := Ideal) (arg m c main_arg1) (arg m c main_arg2) := by
  show StableHlo.after hostOps0 (W0 m ρ c) _ = _
  after_results_simp
  rfl

/-- Where the degree is positive. -/
theorem f_v8_1 (c : Dev nD) : W1 m ρ c (Proc.devRef .tc main_v8) = val_main_v8 (F := Ideal) (arg m c main_arg1) (arg m c main_arg2) := by
  show StableHlo.after hostOps0 (W0 m ρ c) _ = _
  after_results_simp
  rfl

/-- The constant one. -/
theorem f_cst_1_1 (c : Dev nD) : W1 m ρ c (Proc.devRef .tc main_cst_1) = val_main_cst_1 (F := Ideal) := by
  show StableHlo.after hostOps0 (W0 m ρ c) _ = _
  after_results_simp
  rfl

/-- The degree where positive, one elsewhere. -/
theorem f_v9_2 (c : Dev nD) : W2 m ρ c (Proc.devRef .tc main_v9) = val_main_v9 (F := Ideal) (arg m c main_arg1) (arg m c main_arg2) := by
  have h0 := f_v8_1 m ρ c
  have h1 := f_v6_1 m ρ c
  have h2 := f_cst_1_1 m ρ c
  show StableHlo.after hostOps0_1 (W1 m ρ c) _ = _
  generalize W1 m ρ c = V at h0 h1 h2 ⊢
  after_results_simp
  simp only [h0, h1, h2]
  simp only [ofBuf_toBuf, ofBuf_cst_1, toBuf_cst_1, ofBuf_v8, toBuf_v8, ofBuf_v6, toBuf_v6, ofBuf_v9, toBuf_v9, ofBuf_cst_3, toBuf_cst_3, ofBuf_v11, toBuf_v11, ofBuf_v12, toBuf_v12, ofBuf_v13, toBuf_v13]
  rfl

theorem f_v6_2 (c : Dev nD) : W2 m ρ c (Proc.devRef .tc main_v6) = val_main_v6 (F := Ideal) (arg m c main_arg1) (arg m c main_arg2) :=
  (up2 m ρ c main_v6 (by decide)).trans (f_v6_1 m ρ c)

/-- Where the degree is positive, once more. -/
theorem f_v11_3 (c : Dev nD) : W3 m ρ c (Proc.devRef .tc main_v11) = val_main_v11 (F := Ideal) (arg m c main_arg1) (arg m c main_arg2) := by
  have h0 := f_v6_2 m ρ c
  show StableHlo.after hostOps0_2 (W2 m ρ c) _ = _
  generalize W2 m ρ c = V at h0 ⊢
  after_results_simp
  simp only [h0]
  rfl

/-- The inverse square root of the safe degree. -/
theorem f_v12_3 (c : Dev nD) : W3 m ρ c (Proc.devRef .tc main_v12) = val_main_v12 (F := Ideal) (arg m c main_arg1) (arg m c main_arg2) := by
  have h0 := f_v9_2 m ρ c
  show StableHlo.after hostOps0_2 (W2 m ρ c) _ = _
  generalize W2 m ρ c = V at h0 ⊢
  after_results_simp
  simp only [h0]
  rfl

/-- The constant zero. -/
theorem f_cst_3_3 (c : Dev nD) : W3 m ρ c (Proc.devRef .tc main_cst_3) = val_main_cst_3 (F := Ideal) := by
  show StableHlo.after hostOps0_2 (W2 m ρ c) _ = _
  generalize W2 m ρ c = V
  after_results_simp
  rfl

/-- The inverse square root of the degree where positive, zero elsewhere. -/
theorem f_v13_4 (c : Dev nD) : W4 m ρ c (Proc.devRef .tc main_v13) = val_main_v13 (F := Ideal) (arg m c main_arg1) (arg m c main_arg2) := by
  have h0 := f_v11_3 m ρ c
  have h1 := f_v12_3 m ρ c
  have h2 := f_cst_3_3 m ρ c
  show StableHlo.after hostOps0_3 (W3 m ρ c) _ = _
  generalize W3 m ρ c = V at h0 h1 h2 ⊢
  after_results_simp
  simp only [h0, h1, h2]
  simp only [ofBuf_toBuf, ofBuf_cst_1, toBuf_cst_1, ofBuf_v8, toBuf_v8, ofBuf_v6, toBuf_v6, ofBuf_v9, toBuf_v9, ofBuf_cst_3, toBuf_cst_3, ofBuf_v11, toBuf_v11, ofBuf_v12, toBuf_v12, ofBuf_v13, toBuf_v13]
  rfl

theorem f_v1_2 (c : Dev nD) : W2 m ρ c (Proc.devRef .tc main_v1) = val_main_v1 (F := Ideal) (arg m c main_arg1) :=
  (up2 m ρ c main_v1 (by decide)).trans (f_v1_1 m ρ c)

theorem f_v1_3 (c : Dev nD) : W3 m ρ c (Proc.devRef .tc main_v1) = val_main_v1 (F := Ideal) (arg m c main_arg1) :=
  (up3 m ρ c main_v1 (by decide)).trans (f_v1_2 m ρ c)

theorem f_v1_4 (c : Dev nD) : W4 m ρ c (Proc.devRef .tc main_v1) = val_main_v1 (F := Ideal) (arg m c main_arg1) :=
  (up4 m ρ c main_v1 (by decide)).trans (f_v1_3 m ρ c)

theorem f_v3_2 (c : Dev nD) : W2 m ρ c (Proc.devRef .tc main_v3) = val_main_v3 (F := Ideal) (arg m c main_arg1) :=
  (up2 m ρ c main_v3 (by decide)).trans (f_v3_1 m ρ c)

theorem f_v3_3 (c : Dev nD) : W3 m ρ c (Proc.devRef .tc main_v3) = val_main_v3 (F := Ideal) (arg m c main_arg1) :=
  (up3 m ρ c main_v3 (by decide)).trans (f_v3_2 m ρ c)

theorem f_v3_4 (c : Dev nD) : W4 m ρ c (Proc.devRef .tc main_v3) = val_main_v3 (F := Ideal) (arg m c main_arg1) :=
  (up4 m ρ c main_v3 (by decide)).trans (f_v3_3 m ρ c)

theorem f_arg2_0 (c : Dev nD) : W0 m ρ c (Proc.devRef .tc main_arg2) = (arg m c main_arg2) := rfl

theorem f_arg2_1 (c : Dev nD) : W1 m ρ c (Proc.devRef .tc main_arg2) = (arg m c main_arg2) :=
  (up1 m ρ c main_arg2 (by decide)).trans (f_arg2_0 m ρ c)

theorem f_arg2_2 (c : Dev nD) : W2 m ρ c (Proc.devRef .tc main_arg2) = (arg m c main_arg2) :=
  (up2 m ρ c main_arg2 (by decide)).trans (f_arg2_1 m ρ c)

theorem f_arg2_3 (c : Dev nD) : W3 m ρ c (Proc.devRef .tc main_arg2) = (arg m c main_arg2) :=
  (up3 m ρ c main_arg2 (by decide)).trans (f_arg2_2 m ρ c)

theorem f_arg2_4 (c : Dev nD) : W4 m ρ c (Proc.devRef .tc main_arg2) = (arg m c main_arg2) :=
  (up4 m ρ c main_arg2 (by decide)).trans (f_arg2_3 m ρ c)

/-- The Laplacian's edge weights: minus the product of the two end points' inverse square root degrees and the edge weight. -/
theorem f_v30_5 (c : Dev nD) : W5 m ρ c (Proc.devRef .tc main_v30) = val_main_v30 (F := Ideal) (arg m c main_arg1) (arg m c main_arg2) := by
  have h0 := f_v1_4 m ρ c
  have h1 := f_v3_4 m ρ c
  have h2 := f_v13_4 m ρ c
  have h3 := f_arg2_4 m ρ c
  show StableHlo.after hostOps0_4 (W4 m ρ c) _ = _
  generalize W4 m ρ c = V at h0 h1 h2 h3 ⊢
  after_results_simp
  simp only [h0, h1, h2, h3]
  rfl

theorem f_arg0_0 (c : Dev nD) : W0 m ρ c (Proc.devRef .tc main_arg0) = (arg m c main_arg0) := rfl

theorem f_arg0_1 (c : Dev nD) : W1 m ρ c (Proc.devRef .tc main_arg0) = (arg m c main_arg0) :=
  (up1 m ρ c main_arg0 (by decide)).trans (f_arg0_0 m ρ c)

theorem f_arg0_2 (c : Dev nD) : W2 m ρ c (Proc.devRef .tc main_arg0) = (arg m c main_arg0) :=
  (up2 m ρ c main_arg0 (by decide)).trans (f_arg0_1 m ρ c)

theorem f_arg0_3 (c : Dev nD) : W3 m ρ c (Proc.devRef .tc main_arg0) = (arg m c main_arg0) :=
  (up3 m ρ c main_arg0 (by decide)).trans (f_arg0_2 m ρ c)

theorem f_arg0_4 (c : Dev nD) : W4 m ρ c (Proc.devRef .tc main_arg0) = (arg m c main_arg0) :=
  (up4 m ρ c main_arg0 (by decide)).trans (f_arg0_3 m ρ c)

/-- The first layer's aggregate: source rows of the node features, scaled by the edge weights, scatter-added at the destinations. -/
theorem f_v43_5 (c : Dev nD) : W5 m ρ c (Proc.devRef .tc main_v43) = val_main_v43 (F := Ideal) (arg m c main_arg0) (arg m c main_arg1) (arg m c main_arg2) := by
  have h0 := f_v1_4 m ρ c
  have h1 := f_v3_4 m ρ c
  have h2 := f_v13_4 m ρ c
  have h3 := f_arg0_4 m ρ c
  have h4 := f_arg2_4 m ρ c
  show StableHlo.after hostOps0_4 (W4 m ρ c) _ = _
  generalize W4 m ρ c = V at h0 h1 h2 h3 h4 ⊢
  after_results_simp
  simp only [h0, h1, h2, h3, h4]
  rfl

theorem f_arg5_0 (c : Dev nD) : W0 m ρ c (Proc.devRef .tc main_arg5) = (arg m c main_arg5) := rfl

theorem f_arg5_1 (c : Dev nD) : W1 m ρ c (Proc.devRef .tc main_arg5) = (arg m c main_arg5) :=
  (up1 m ρ c main_arg5 (by decide)).trans (f_arg5_0 m ρ c)

theorem f_arg5_2 (c : Dev nD) : W2 m ρ c (Proc.devRef .tc main_arg5) = (arg m c main_arg5) :=
  (up2 m ρ c main_arg5 (by decide)).trans (f_arg5_1 m ρ c)

theorem f_arg5_3 (c : Dev nD) : W3 m ρ c (Proc.devRef .tc main_arg5) = (arg m c main_arg5) :=
  (up3 m ρ c main_arg5 (by decide)).trans (f_arg5_2 m ρ c)

theorem f_arg5_4 (c : Dev nD) : W4 m ρ c (Proc.devRef .tc main_arg5) = (arg m c main_arg5) :=
  (up4 m ρ c main_arg5 (by decide)).trans (f_arg5_3 m ρ c)

/-- The first bias vector as one row. -/
theorem f_v44_5 (c : Dev nD) : W5 m ρ c (Proc.devRef .tc main_v44) = val_main_v47 (F := Ideal) (arg m c main_arg5) := by
  have h0 := f_arg5_4 m ρ c
  show StableHlo.after hostOps0_4 (W4 m ρ c) _ = _
  generalize W4 m ρ c = V at h0 ⊢
  after_results_simp
  simp only [h0]
  exact bias_v47 _

theorem f_arg0_5 (c : Dev nD) : W5 m ρ c (Proc.devRef .tc main_arg0) = (arg m c main_arg0) :=
  (up5 m ρ c main_arg0 (by decide)).trans (f_arg0_4 m ρ c)

theorem f_arg3_0 (c : Dev nD) : W0 m ρ c (Proc.devRef .tc main_arg3) = (arg m c main_arg3) := rfl

theorem f_arg3_1 (c : Dev nD) : W1 m ρ c (Proc.devRef .tc main_arg3) = (arg m c main_arg3) :=
  (up1 m ρ c main_arg3 (by decide)).trans (f_arg3_0 m ρ c)

theorem f_arg3_2 (c : Dev nD) : W2 m ρ c (Proc.devRef .tc main_arg3) = (arg m c main_arg3) :=
  (up2 m ρ c main_arg3 (by decide)).trans (f_arg3_1 m ρ c)

theorem f_arg3_3 (c : Dev nD) : W3 m ρ c (Proc.devRef .tc main_arg3) = (arg m c main_arg3) :=
  (up3 m ρ c main_arg3 (by decide)).trans (f_arg3_2 m ρ c)

theorem f_arg3_4 (c : Dev nD) : W4 m ρ c (Proc.devRef .tc main_arg3) = (arg m c main_arg3) :=
  (up4 m ρ c main_arg3 (by decide)).trans (f_arg3_3 m ρ c)

theorem f_arg3_5 (c : Dev nD) : W5 m ρ c (Proc.devRef .tc main_arg3) = (arg m c main_arg3) :=
  (up5 m ρ c main_arg3 (by decide)).trans (f_arg3_4 m ρ c)

theorem f_arg4_0 (c : Dev nD) : W0 m ρ c (Proc.devRef .tc main_arg4) = (arg m c main_arg4) := rfl

theorem f_arg4_1 (c : Dev nD) : W1 m ρ c (Proc.devRef .tc main_arg4) = (arg m c main_arg4) :=
  (up1 m ρ c main_arg4 (by decide)).trans (f_arg4_0 m ρ c)

theorem f_arg4_2 (c : Dev nD) : W2 m ρ c (Proc.devRef .tc main_arg4) = (arg m c main_arg4) :=
  (up2 m ρ c main_arg4 (by decide)).trans (f_arg4_1 m ρ c)

theorem f_arg4_3 (c : Dev nD) : W3 m ρ c (Proc.devRef .tc main_arg4) = (arg m c main_arg4) :=
  (up3 m ρ c main_arg4 (by decide)).trans (f_arg4_2 m ρ c)

theorem f_arg4_4 (c : Dev nD) : W4 m ρ c (Proc.devRef .tc main_arg4) = (arg m c main_arg4) :=
  (up4 m ρ c main_arg4 (by decide)).trans (f_arg4_3 m ρ c)

theorem f_arg4_5 (c : Dev nD) : W5 m ρ c (Proc.devRef .tc main_arg4) = (arg m c main_arg4) :=
  (up5 m ρ c main_arg4 (by decide)).trans (f_arg4_4 m ρ c)

/-- The first layer's result. -/
theorem f_v45_6 (c : Dev nD) : W6 m ρ c (Proc.devRef .tc main_v45) = val_main_v50 (F := Ideal) (arg m c main_arg0) (arg m c main_arg1) (arg m c main_arg2) (arg m c main_arg3) (arg m c main_arg4) (arg m c main_arg5) := by
  refine (W6_arr m ρ c 5).trans ?_
  refine (Layer0.final (V5 m ρ) c).trans ?_
  show GraphNet.layer 102400 64 32 (W5 m ρ c (Proc.devRef .tc main_arg0)) (W5 m ρ c (Proc.devRef .tc main_v43)) (W5 m ρ c (Proc.devRef .tc main_arg3)) (W5 m ρ c (Proc.devRef .tc main_arg4)) (W5 m ρ c (Proc.devRef .tc main_v44)) = _
  rw [f_arg0_5 m ρ c, f_v43_5 m ρ c, f_arg3_5 m ρ c, f_arg4_5 m ρ c, f_v44_5 m ρ c]
  exact (Cert.ReferenceIdeal.Stages.layer1 ..).symm

theorem f_v1_5 (c : Dev nD) : W5 m ρ c (Proc.devRef .tc main_v1) = val_main_v1 (F := Ideal) (arg m c main_arg1) :=
  (up5 m ρ c main_v1 (by decide)).trans (f_v1_4 m ρ c)

theorem f_v1_6 (c : Dev nD) : W6 m ρ c (Proc.devRef .tc main_v1) = val_main_v1 (F := Ideal) (arg m c main_arg1) :=
  (up6 m ρ c main_v1 (by decide)).trans (f_v1_5 m ρ c)

theorem f_v3_5 (c : Dev nD) : W5 m ρ c (Proc.devRef .tc main_v3) = val_main_v3 (F := Ideal) (arg m c main_arg1) :=
  (up5 m ρ c main_v3 (by decide)).trans (f_v3_4 m ρ c)

theorem f_v3_6 (c : Dev nD) : W6 m ρ c (Proc.devRef .tc main_v3) = val_main_v3 (F := Ideal) (arg m c main_arg1) :=
  (up6 m ρ c main_v3 (by decide)).trans (f_v3_5 m ρ c)

theorem f_v30_6 (c : Dev nD) : W6 m ρ c (Proc.devRef .tc main_v30) = val_main_v30 (F := Ideal) (arg m c main_arg1) (arg m c main_arg2) :=
  (up6 m ρ c main_v30 (by decide)).trans (f_v30_5 m ρ c)

/-- The second layer's aggregate, of the first layer's result. -/
theorem f_v58_7 (c : Dev nD) : W7 m ρ c (Proc.devRef .tc main_v58) = val_main_v63 (F := Ideal) (arg m c main_arg0) (arg m c main_arg1) (arg m c main_arg2) (arg m c main_arg3) (arg m c main_arg4) (arg m c main_arg5) := by
  have h0 := f_v45_6 m ρ c
  have h1 := f_v1_6 m ρ c
  have h2 := f_v3_6 m ρ c
  have h3 := f_v30_6 m ρ c
  show StableHlo.after hostOps1 (W6 m ρ c) _ = _
  generalize W6 m ρ c = V at h0 h1 h2 h3 ⊢
  after_results_simp
  simp only [h0, h1, h2, h3]
  rfl

theorem f_arg8_0 (c : Dev nD) : W0 m ρ c (Proc.devRef .tc main_arg8) = (arg m c main_arg8) := rfl

theorem f_arg8_1 (c : Dev nD) : W1 m ρ c (Proc.devRef .tc main_arg8) = (arg m c main_arg8) :=
  (up1 m ρ c main_arg8 (by decide)).trans (f_arg8_0 m ρ c)

theorem f_arg8_2 (c : Dev nD) : W2 m ρ c (Proc.devRef .tc main_arg8) = (arg m c main_arg8) :=
  (up2 m ρ c main_arg8 (by decide)).trans (f_arg8_1 m ρ c)

theorem f_arg8_3 (c : Dev nD) : W3 m ρ c (Proc.devRef .tc main_arg8) = (arg m c main_arg8) :=
  (up3 m ρ c main_arg8 (by decide)).trans (f_arg8_2 m ρ c)

theorem f_arg8_4 (c : Dev nD) : W4 m ρ c (Proc.devRef .tc main_arg8) = (arg m c main_arg8) :=
  (up4 m ρ c main_arg8 (by decide)).trans (f_arg8_3 m ρ c)

theorem f_arg8_5 (c : Dev nD) : W5 m ρ c (Proc.devRef .tc main_arg8) = (arg m c main_arg8) :=
  (up5 m ρ c main_arg8 (by decide)).trans (f_arg8_4 m ρ c)

theorem f_arg8_6 (c : Dev nD) : W6 m ρ c (Proc.devRef .tc main_arg8) = (arg m c main_arg8) :=
  (up6 m ρ c main_arg8 (by decide)).trans (f_arg8_5 m ρ c)

/-- The second bias vector as one row. -/
theorem f_v59_7 (c : Dev nD) : W7 m ρ c (Proc.devRef .tc main_v59) = val_main_v67 (F := Ideal) (arg m c main_arg8) := by
  have h0 := f_arg8_6 m ρ c
  show StableHlo.after hostOps1 (W6 m ρ c) _ = _
  generalize W6 m ρ c = V at h0 ⊢
  after_results_simp
  simp only [h0]
  exact bias_v67 _

theorem f_v45_7 (c : Dev nD) : W7 m ρ c (Proc.devRef .tc main_v45) = val_main_v50 (F := Ideal) (arg m c main_arg0) (arg m c main_arg1) (arg m c main_arg2) (arg m c main_arg3) (arg m c main_arg4) (arg m c main_arg5) :=
  (up7 m ρ c main_v45 (by decide)).trans (f_v45_6 m ρ c)

theorem f_arg6_0 (c : Dev nD) : W0 m ρ c (Proc.devRef .tc main_arg6) = (arg m c main_arg6) := rfl

theorem f_arg6_1 (c : Dev nD) : W1 m ρ c (Proc.devRef .tc main_arg6) = (arg m c main_arg6) :=
  (up1 m ρ c main_arg6 (by decide)).trans (f_arg6_0 m ρ c)

theorem f_arg6_2 (c : Dev nD) : W2 m ρ c (Proc.devRef .tc main_arg6) = (arg m c main_arg6) :=
  (up2 m ρ c main_arg6 (by decide)).trans (f_arg6_1 m ρ c)

theorem f_arg6_3 (c : Dev nD) : W3 m ρ c (Proc.devRef .tc main_arg6) = (arg m c main_arg6) :=
  (up3 m ρ c main_arg6 (by decide)).trans (f_arg6_2 m ρ c)

theorem f_arg6_4 (c : Dev nD) : W4 m ρ c (Proc.devRef .tc main_arg6) = (arg m c main_arg6) :=
  (up4 m ρ c main_arg6 (by decide)).trans (f_arg6_3 m ρ c)

theorem f_arg6_5 (c : Dev nD) : W5 m ρ c (Proc.devRef .tc main_arg6) = (arg m c main_arg6) :=
  (up5 m ρ c main_arg6 (by decide)).trans (f_arg6_4 m ρ c)

theorem f_arg6_6 (c : Dev nD) : W6 m ρ c (Proc.devRef .tc main_arg6) = (arg m c main_arg6) :=
  (up6 m ρ c main_arg6 (by decide)).trans (f_arg6_5 m ρ c)

theorem f_arg6_7 (c : Dev nD) : W7 m ρ c (Proc.devRef .tc main_arg6) = (arg m c main_arg6) :=
  (up7 m ρ c main_arg6 (by decide)).trans (f_arg6_6 m ρ c)

theorem f_arg7_0 (c : Dev nD) : W0 m ρ c (Proc.devRef .tc main_arg7) = (arg m c main_arg7) := rfl

theorem f_arg7_1 (c : Dev nD) : W1 m ρ c (Proc.devRef .tc main_arg7) = (arg m c main_arg7) :=
  (up1 m ρ c main_arg7 (by decide)).trans (f_arg7_0 m ρ c)

theorem f_arg7_2 (c : Dev nD) : W2 m ρ c (Proc.devRef .tc main_arg7) = (arg m c main_arg7) :=
  (up2 m ρ c main_arg7 (by decide)).trans (f_arg7_1 m ρ c)

theorem f_arg7_3 (c : Dev nD) : W3 m ρ c (Proc.devRef .tc main_arg7) = (arg m c main_arg7) :=
  (up3 m ρ c main_arg7 (by decide)).trans (f_arg7_2 m ρ c)

theorem f_arg7_4 (c : Dev nD) : W4 m ρ c (Proc.devRef .tc main_arg7) = (arg m c main_arg7) :=
  (up4 m ρ c main_arg7 (by decide)).trans (f_arg7_3 m ρ c)

theorem f_arg7_5 (c : Dev nD) : W5 m ρ c (Proc.devRef .tc main_arg7) = (arg m c main_arg7) :=
  (up5 m ρ c main_arg7 (by decide)).trans (f_arg7_4 m ρ c)

theorem f_arg7_6 (c : Dev nD) : W6 m ρ c (Proc.devRef .tc main_arg7) = (arg m c main_arg7) :=
  (up6 m ρ c main_arg7 (by decide)).trans (f_arg7_5 m ρ c)

theorem f_arg7_7 (c : Dev nD) : W7 m ρ c (Proc.devRef .tc main_arg7) = (arg m c main_arg7) :=
  (up7 m ρ c main_arg7 (by decide)).trans (f_arg7_6 m ρ c)

/-- The second layer's result. -/
theorem f_v60_8 (c : Dev nD) : W8 m ρ c (Proc.devRef .tc main_v60) = val_main_v70 (F := Ideal) (arg m c main_arg0) (arg m c main_arg1) (arg m c main_arg2) (arg m c main_arg3) (arg m c main_arg4) (arg m c main_arg5) (arg m c main_arg6) (arg m c main_arg7) (arg m c main_arg8) := by
  refine (W8_arr m ρ c 5).trans ?_
  refine (Layer1.final (V7 m ρ) c).trans ?_
  show GraphNet.layer 102400 32 32 (W7 m ρ c (Proc.devRef .tc main_v45)) (W7 m ρ c (Proc.devRef .tc main_v58)) (W7 m ρ c (Proc.devRef .tc main_arg6)) (W7 m ρ c (Proc.devRef .tc main_arg7)) (W7 m ρ c (Proc.devRef .tc main_v59)) = _
  rw [f_v45_7 m ρ c, f_v58_7 m ρ c, f_arg6_7 m ρ c, f_arg7_7 m ρ c, f_v59_7 m ρ c]
  exact (Cert.ReferenceIdeal.Stages.layer2 ..).symm

theorem f_v1_7 (c : Dev nD) : W7 m ρ c (Proc.devRef .tc main_v1) = val_main_v1 (F := Ideal) (arg m c main_arg1) :=
  (up7 m ρ c main_v1 (by decide)).trans (f_v1_6 m ρ c)

theorem f_v1_8 (c : Dev nD) : W8 m ρ c (Proc.devRef .tc main_v1) = val_main_v1 (F := Ideal) (arg m c main_arg1) :=
  (up8 m ρ c main_v1 (by decide)).trans (f_v1_7 m ρ c)

theorem f_v3_7 (c : Dev nD) : W7 m ρ c (Proc.devRef .tc main_v3) = val_main_v3 (F := Ideal) (arg m c main_arg1) :=
  (up7 m ρ c main_v3 (by decide)).trans (f_v3_6 m ρ c)

theorem f_v3_8 (c : Dev nD) : W8 m ρ c (Proc.devRef .tc main_v3) = val_main_v3 (F := Ideal) (arg m c main_arg1) :=
  (up8 m ρ c main_v3 (by decide)).trans (f_v3_7 m ρ c)

theorem f_v30_7 (c : Dev nD) : W7 m ρ c (Proc.devRef .tc main_v30) = val_main_v30 (F := Ideal) (arg m c main_arg1) (arg m c main_arg2) :=
  (up7 m ρ c main_v30 (by decide)).trans (f_v30_6 m ρ c)

theorem f_v30_8 (c : Dev nD) : W8 m ρ c (Proc.devRef .tc main_v30) = val_main_v30 (F := Ideal) (arg m c main_arg1) (arg m c main_arg2) :=
  (up8 m ρ c main_v30 (by decide)).trans (f_v30_7 m ρ c)

/-- The third layer's aggregate, of the second layer's result. -/
theorem f_v73_9 (c : Dev nD) : W9 m ρ c (Proc.devRef .tc main_v73) = val_main_v83 (F := Ideal) (arg m c main_arg0) (arg m c main_arg1) (arg m c main_arg2) (arg m c main_arg3) (arg m c main_arg4) (arg m c main_arg5) (arg m c main_arg6) (arg m c main_arg7) (arg m c main_arg8) := by
  have h0 := f_v60_8 m ρ c
  have h1 := f_v1_8 m ρ c
  have h2 := f_v3_8 m ρ c
  have h3 := f_v30_8 m ρ c
  show StableHlo.after hostOps2 (W8 m ρ c) _ = _
  generalize W8 m ρ c = V at h0 h1 h2 h3 ⊢
  after_results_simp
  simp only [h0, h1, h2, h3]
  rfl

theorem f_arg11_0 (c : Dev nD) : W0 m ρ c (Proc.devRef .tc main_arg11) = (arg m c main_arg11) := rfl

theorem f_arg11_1 (c : Dev nD) : W1 m ρ c (Proc.devRef .tc main_arg11) = (arg m c main_arg11) :=
  (up1 m ρ c main_arg11 (by decide)).trans (f_arg11_0 m ρ c)

theorem f_arg11_2 (c : Dev nD) : W2 m ρ c (Proc.devRef .tc main_arg11) = (arg m c main_arg11) :=
  (up2 m ρ c main_arg11 (by decide)).trans (f_arg11_1 m ρ c)

theorem f_arg11_3 (c : Dev nD) : W3 m ρ c (Proc.devRef .tc main_arg11) = (arg m c main_arg11) :=
  (up3 m ρ c main_arg11 (by decide)).trans (f_arg11_2 m ρ c)

theorem f_arg11_4 (c : Dev nD) : W4 m ρ c (Proc.devRef .tc main_arg11) = (arg m c main_arg11) :=
  (up4 m ρ c main_arg11 (by decide)).trans (f_arg11_3 m ρ c)

theorem f_arg11_5 (c : Dev nD) : W5 m ρ c (Proc.devRef .tc main_arg11) = (arg m c main_arg11) :=
  (up5 m ρ c main_arg11 (by decide)).trans (f_arg11_4 m ρ c)

theorem f_arg11_6 (c : Dev nD) : W6 m ρ c (Proc.devRef .tc main_arg11) = (arg m c main_arg11) :=
  (up6 m ρ c main_arg11 (by decide)).trans (f_arg11_5 m ρ c)

theorem f_arg11_7 (c : Dev nD) : W7 m ρ c (Proc.devRef .tc main_arg11) = (arg m c main_arg11) :=
  (up7 m ρ c main_arg11 (by decide)).trans (f_arg11_6 m ρ c)

theorem f_arg11_8 (c : Dev nD) : W8 m ρ c (Proc.devRef .tc main_arg11) = (arg m c main_arg11) :=
  (up8 m ρ c main_arg11 (by decide)).trans (f_arg11_7 m ρ c)

/-- The third bias vector as one row. -/
theorem f_v74_9 (c : Dev nD) : W9 m ρ c (Proc.devRef .tc main_v74) = val_main_v87 (F := Ideal) (arg m c main_arg11) := by
  have h0 := f_arg11_8 m ρ c
  show StableHlo.after hostOps2 (W8 m ρ c) _ = _
  generalize W8 m ρ c = V at h0 ⊢
  after_results_simp
  simp only [h0]
  exact bias_v87 _

theorem f_v60_9 (c : Dev nD) : W9 m ρ c (Proc.devRef .tc main_v60) = val_main_v70 (F := Ideal) (arg m c main_arg0) (arg m c main_arg1) (arg m c main_arg2) (arg m c main_arg3) (arg m c main_arg4) (arg m c main_arg5) (arg m c main_arg6) (arg m c main_arg7) (arg m c main_arg8) :=
  (up9 m ρ c main_v60 (by decide)).trans (f_v60_8 m ρ c)

theorem f_arg9_0 (c : Dev nD) : W0 m ρ c (Proc.devRef .tc main_arg9) = (arg m c main_arg9) := rfl

theorem f_arg9_1 (c : Dev nD) : W1 m ρ c (Proc.devRef .tc main_arg9) = (arg m c main_arg9) :=
  (up1 m ρ c main_arg9 (by decide)).trans (f_arg9_0 m ρ c)

theorem f_arg9_2 (c : Dev nD) : W2 m ρ c (Proc.devRef .tc main_arg9) = (arg m c main_arg9) :=
  (up2 m ρ c main_arg9 (by decide)).trans (f_arg9_1 m ρ c)

theorem f_arg9_3 (c : Dev nD) : W3 m ρ c (Proc.devRef .tc main_arg9) = (arg m c main_arg9) :=
  (up3 m ρ c main_arg9 (by decide)).trans (f_arg9_2 m ρ c)

theorem f_arg9_4 (c : Dev nD) : W4 m ρ c (Proc.devRef .tc main_arg9) = (arg m c main_arg9) :=
  (up4 m ρ c main_arg9 (by decide)).trans (f_arg9_3 m ρ c)

theorem f_arg9_5 (c : Dev nD) : W5 m ρ c (Proc.devRef .tc main_arg9) = (arg m c main_arg9) :=
  (up5 m ρ c main_arg9 (by decide)).trans (f_arg9_4 m ρ c)

theorem f_arg9_6 (c : Dev nD) : W6 m ρ c (Proc.devRef .tc main_arg9) = (arg m c main_arg9) :=
  (up6 m ρ c main_arg9 (by decide)).trans (f_arg9_5 m ρ c)

theorem f_arg9_7 (c : Dev nD) : W7 m ρ c (Proc.devRef .tc main_arg9) = (arg m c main_arg9) :=
  (up7 m ρ c main_arg9 (by decide)).trans (f_arg9_6 m ρ c)

theorem f_arg9_8 (c : Dev nD) : W8 m ρ c (Proc.devRef .tc main_arg9) = (arg m c main_arg9) :=
  (up8 m ρ c main_arg9 (by decide)).trans (f_arg9_7 m ρ c)

theorem f_arg9_9 (c : Dev nD) : W9 m ρ c (Proc.devRef .tc main_arg9) = (arg m c main_arg9) :=
  (up9 m ρ c main_arg9 (by decide)).trans (f_arg9_8 m ρ c)

theorem f_arg10_0 (c : Dev nD) : W0 m ρ c (Proc.devRef .tc main_arg10) = (arg m c main_arg10) := rfl

theorem f_arg10_1 (c : Dev nD) : W1 m ρ c (Proc.devRef .tc main_arg10) = (arg m c main_arg10) :=
  (up1 m ρ c main_arg10 (by decide)).trans (f_arg10_0 m ρ c)

theorem f_arg10_2 (c : Dev nD) : W2 m ρ c (Proc.devRef .tc main_arg10) = (arg m c main_arg10) :=
  (up2 m ρ c main_arg10 (by decide)).trans (f_arg10_1 m ρ c)

theorem f_arg10_3 (c : Dev nD) : W3 m ρ c (Proc.devRef .tc main_arg10) = (arg m c main_arg10) :=
  (up3 m ρ c main_arg10 (by decide)).trans (f_arg10_2 m ρ c)

theorem f_arg10_4 (c : Dev nD) : W4 m ρ c (Proc.devRef .tc main_arg10) = (arg m c main_arg10) :=
  (up4 m ρ c main_arg10 (by decide)).trans (f_arg10_3 m ρ c)

theorem f_arg10_5 (c : Dev nD) : W5 m ρ c (Proc.devRef .tc main_arg10) = (arg m c main_arg10) :=
  (up5 m ρ c main_arg10 (by decide)).trans (f_arg10_4 m ρ c)

theorem f_arg10_6 (c : Dev nD) : W6 m ρ c (Proc.devRef .tc main_arg10) = (arg m c main_arg10) :=
  (up6 m ρ c main_arg10 (by decide)).trans (f_arg10_5 m ρ c)

theorem f_arg10_7 (c : Dev nD) : W7 m ρ c (Proc.devRef .tc main_arg10) = (arg m c main_arg10) :=
  (up7 m ρ c main_arg10 (by decide)).trans (f_arg10_6 m ρ c)

theorem f_arg10_8 (c : Dev nD) : W8 m ρ c (Proc.devRef .tc main_arg10) = (arg m c main_arg10) :=
  (up8 m ρ c main_arg10 (by decide)).trans (f_arg10_7 m ρ c)

theorem f_arg10_9 (c : Dev nD) : W9 m ρ c (Proc.devRef .tc main_arg10) = (arg m c main_arg10) :=
  (up9 m ρ c main_arg10 (by decide)).trans (f_arg10_8 m ρ c)

/-- The third layer's result. -/
theorem f_v75_10 (c : Dev nD) : W10 m ρ c (Proc.devRef .tc main_v75) = val_main_v90 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  refine (W10_arr m ρ c 5).trans ?_
  refine (Layer2.final (V9 m ρ) c).trans ?_
  show GraphNet.layer 102400 32 16 (W9 m ρ c (Proc.devRef .tc main_v60)) (W9 m ρ c (Proc.devRef .tc main_v73)) (W9 m ρ c (Proc.devRef .tc main_arg9)) (W9 m ρ c (Proc.devRef .tc main_arg10)) (W9 m ρ c (Proc.devRef .tc main_v74)) = _
  rw [f_v60_9 m ρ c, f_v73_9 m ρ c, f_arg9_9 m ρ c, f_arg10_9 m ρ c, f_v74_9 m ρ c]
  exact (Cert.ReferenceIdeal.Stages.layer3 ..).symm

/-- The third layer's result re-laid as 256 graphs of 6400 features. -/
theorem f_v76_11 (c : Dev nD) : W11 m ρ c (Proc.devRef .tc main_v76) = val_main_v91 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  have h0 := f_v75_10 m ρ c
  show StableHlo.after hostOps3 (W10 m ρ c) _ = _
  generalize W10 m ρ c = V at h0 ⊢
  after_results_simp
  simp only [h0]
  rfl

theorem f_arg13_0 (c : Dev nD) : W0 m ρ c (Proc.devRef .tc main_arg13) = (arg m c main_arg13) := rfl

theorem f_arg13_1 (c : Dev nD) : W1 m ρ c (Proc.devRef .tc main_arg13) = (arg m c main_arg13) :=
  (up1 m ρ c main_arg13 (by decide)).trans (f_arg13_0 m ρ c)

theorem f_arg13_2 (c : Dev nD) : W2 m ρ c (Proc.devRef .tc main_arg13) = (arg m c main_arg13) :=
  (up2 m ρ c main_arg13 (by decide)).trans (f_arg13_1 m ρ c)

theorem f_arg13_3 (c : Dev nD) : W3 m ρ c (Proc.devRef .tc main_arg13) = (arg m c main_arg13) :=
  (up3 m ρ c main_arg13 (by decide)).trans (f_arg13_2 m ρ c)

theorem f_arg13_4 (c : Dev nD) : W4 m ρ c (Proc.devRef .tc main_arg13) = (arg m c main_arg13) :=
  (up4 m ρ c main_arg13 (by decide)).trans (f_arg13_3 m ρ c)

theorem f_arg13_5 (c : Dev nD) : W5 m ρ c (Proc.devRef .tc main_arg13) = (arg m c main_arg13) :=
  (up5 m ρ c main_arg13 (by decide)).trans (f_arg13_4 m ρ c)

theorem f_arg13_6 (c : Dev nD) : W6 m ρ c (Proc.devRef .tc main_arg13) = (arg m c main_arg13) :=
  (up6 m ρ c main_arg13 (by decide)).trans (f_arg13_5 m ρ c)

theorem f_arg13_7 (c : Dev nD) : W7 m ρ c (Proc.devRef .tc main_arg13) = (arg m c main_arg13) :=
  (up7 m ρ c main_arg13 (by decide)).trans (f_arg13_6 m ρ c)

theorem f_arg13_8 (c : Dev nD) : W8 m ρ c (Proc.devRef .tc main_arg13) = (arg m c main_arg13) :=
  (up8 m ρ c main_arg13 (by decide)).trans (f_arg13_7 m ρ c)

theorem f_arg13_9 (c : Dev nD) : W9 m ρ c (Proc.devRef .tc main_arg13) = (arg m c main_arg13) :=
  (up9 m ρ c main_arg13 (by decide)).trans (f_arg13_8 m ρ c)

theorem f_arg13_10 (c : Dev nD) : W10 m ρ c (Proc.devRef .tc main_arg13) = (arg m c main_arg13) :=
  (up10 m ρ c main_arg13 (by decide)).trans (f_arg13_9 m ρ c)

/-- The head's first bias vector as one row. -/
theorem f_v77_11 (c : Dev nD) : W11 m ρ c (Proc.devRef .tc main_v77) = val_main_v93 (F := Ideal) (arg m c main_arg13) := by
  have h0 := f_arg13_10 m ρ c
  show StableHlo.after hostOps3 (W10 m ρ c) _ = _
  generalize W10 m ρ c = V at h0 ⊢
  after_results_simp
  simp only [h0]
  exact bias_v93 _

theorem f_arg15_0 (c : Dev nD) : W0 m ρ c (Proc.devRef .tc main_arg15) = (arg m c main_arg15) := rfl

theorem f_arg15_1 (c : Dev nD) : W1 m ρ c (Proc.devRef .tc main_arg15) = (arg m c main_arg15) :=
  (up1 m ρ c main_arg15 (by decide)).trans (f_arg15_0 m ρ c)

theorem f_arg15_2 (c : Dev nD) : W2 m ρ c (Proc.devRef .tc main_arg15) = (arg m c main_arg15) :=
  (up2 m ρ c main_arg15 (by decide)).trans (f_arg15_1 m ρ c)

theorem f_arg15_3 (c : Dev nD) : W3 m ρ c (Proc.devRef .tc main_arg15) = (arg m c main_arg15) :=
  (up3 m ρ c main_arg15 (by decide)).trans (f_arg15_2 m ρ c)

theorem f_arg15_4 (c : Dev nD) : W4 m ρ c (Proc.devRef .tc main_arg15) = (arg m c main_arg15) :=
  (up4 m ρ c main_arg15 (by decide)).trans (f_arg15_3 m ρ c)

theorem f_arg15_5 (c : Dev nD) : W5 m ρ c (Proc.devRef .tc main_arg15) = (arg m c main_arg15) :=
  (up5 m ρ c main_arg15 (by decide)).trans (f_arg15_4 m ρ c)

theorem f_arg15_6 (c : Dev nD) : W6 m ρ c (Proc.devRef .tc main_arg15) = (arg m c main_arg15) :=
  (up6 m ρ c main_arg15 (by decide)).trans (f_arg15_5 m ρ c)

theorem f_arg15_7 (c : Dev nD) : W7 m ρ c (Proc.devRef .tc main_arg15) = (arg m c main_arg15) :=
  (up7 m ρ c main_arg15 (by decide)).trans (f_arg15_6 m ρ c)

theorem f_arg15_8 (c : Dev nD) : W8 m ρ c (Proc.devRef .tc main_arg15) = (arg m c main_arg15) :=
  (up8 m ρ c main_arg15 (by decide)).trans (f_arg15_7 m ρ c)

theorem f_arg15_9 (c : Dev nD) : W9 m ρ c (Proc.devRef .tc main_arg15) = (arg m c main_arg15) :=
  (up9 m ρ c main_arg15 (by decide)).trans (f_arg15_8 m ρ c)

theorem f_arg15_10 (c : Dev nD) : W10 m ρ c (Proc.devRef .tc main_arg15) = (arg m c main_arg15) :=
  (up10 m ρ c main_arg15 (by decide)).trans (f_arg15_9 m ρ c)

/-- The head's second bias vector as one row. -/
theorem f_v78_11 (c : Dev nD) : W11 m ρ c (Proc.devRef .tc main_v78) = val_main_v97 (F := Ideal) (arg m c main_arg15) := by
  have h0 := f_arg15_10 m ρ c
  show StableHlo.after hostOps3 (W10 m ρ c) _ = _
  generalize W10 m ρ c = V at h0 ⊢
  after_results_simp
  simp only [h0]
  exact bias_v97 _

theorem f_arg17_0 (c : Dev nD) : W0 m ρ c (Proc.devRef .tc main_arg17) = (arg m c main_arg17) := rfl

theorem f_arg17_1 (c : Dev nD) : W1 m ρ c (Proc.devRef .tc main_arg17) = (arg m c main_arg17) :=
  (up1 m ρ c main_arg17 (by decide)).trans (f_arg17_0 m ρ c)

theorem f_arg17_2 (c : Dev nD) : W2 m ρ c (Proc.devRef .tc main_arg17) = (arg m c main_arg17) :=
  (up2 m ρ c main_arg17 (by decide)).trans (f_arg17_1 m ρ c)

theorem f_arg17_3 (c : Dev nD) : W3 m ρ c (Proc.devRef .tc main_arg17) = (arg m c main_arg17) :=
  (up3 m ρ c main_arg17 (by decide)).trans (f_arg17_2 m ρ c)

theorem f_arg17_4 (c : Dev nD) : W4 m ρ c (Proc.devRef .tc main_arg17) = (arg m c main_arg17) :=
  (up4 m ρ c main_arg17 (by decide)).trans (f_arg17_3 m ρ c)

theorem f_arg17_5 (c : Dev nD) : W5 m ρ c (Proc.devRef .tc main_arg17) = (arg m c main_arg17) :=
  (up5 m ρ c main_arg17 (by decide)).trans (f_arg17_4 m ρ c)

theorem f_arg17_6 (c : Dev nD) : W6 m ρ c (Proc.devRef .tc main_arg17) = (arg m c main_arg17) :=
  (up6 m ρ c main_arg17 (by decide)).trans (f_arg17_5 m ρ c)

theorem f_arg17_7 (c : Dev nD) : W7 m ρ c (Proc.devRef .tc main_arg17) = (arg m c main_arg17) :=
  (up7 m ρ c main_arg17 (by decide)).trans (f_arg17_6 m ρ c)

theorem f_arg17_8 (c : Dev nD) : W8 m ρ c (Proc.devRef .tc main_arg17) = (arg m c main_arg17) :=
  (up8 m ρ c main_arg17 (by decide)).trans (f_arg17_7 m ρ c)

theorem f_arg17_9 (c : Dev nD) : W9 m ρ c (Proc.devRef .tc main_arg17) = (arg m c main_arg17) :=
  (up9 m ρ c main_arg17 (by decide)).trans (f_arg17_8 m ρ c)

theorem f_arg17_10 (c : Dev nD) : W10 m ρ c (Proc.devRef .tc main_arg17) = (arg m c main_arg17) :=
  (up10 m ρ c main_arg17 (by decide)).trans (f_arg17_9 m ρ c)

/-- The head's third bias vector as one row. -/
theorem f_v79_11 (c : Dev nD) : W11 m ρ c (Proc.devRef .tc main_v79) = val_main_v101 (F := Ideal) (arg m c main_arg17) := by
  have h0 := f_arg17_10 m ρ c
  show StableHlo.after hostOps3 (W10 m ρ c) _ = _
  generalize W10 m ρ c = V at h0 ⊢
  after_results_simp
  simp only [h0]
  exact bias_v101 _

theorem f_arg12_0 (c : Dev nD) : W0 m ρ c (Proc.devRef .tc main_arg12) = (arg m c main_arg12) := rfl

theorem f_arg12_1 (c : Dev nD) : W1 m ρ c (Proc.devRef .tc main_arg12) = (arg m c main_arg12) :=
  (up1 m ρ c main_arg12 (by decide)).trans (f_arg12_0 m ρ c)

theorem f_arg12_2 (c : Dev nD) : W2 m ρ c (Proc.devRef .tc main_arg12) = (arg m c main_arg12) :=
  (up2 m ρ c main_arg12 (by decide)).trans (f_arg12_1 m ρ c)

theorem f_arg12_3 (c : Dev nD) : W3 m ρ c (Proc.devRef .tc main_arg12) = (arg m c main_arg12) :=
  (up3 m ρ c main_arg12 (by decide)).trans (f_arg12_2 m ρ c)

theorem f_arg12_4 (c : Dev nD) : W4 m ρ c (Proc.devRef .tc main_arg12) = (arg m c main_arg12) :=
  (up4 m ρ c main_arg12 (by decide)).trans (f_arg12_3 m ρ c)

theorem f_arg12_5 (c : Dev nD) : W5 m ρ c (Proc.devRef .tc main_arg12) = (arg m c main_arg12) :=
  (up5 m ρ c main_arg12 (by decide)).trans (f_arg12_4 m ρ c)

theorem f_arg12_6 (c : Dev nD) : W6 m ρ c (Proc.devRef .tc main_arg12) = (arg m c main_arg12) :=
  (up6 m ρ c main_arg12 (by decide)).trans (f_arg12_5 m ρ c)

theorem f_arg12_7 (c : Dev nD) : W7 m ρ c (Proc.devRef .tc main_arg12) = (arg m c main_arg12) :=
  (up7 m ρ c main_arg12 (by decide)).trans (f_arg12_6 m ρ c)

theorem f_arg12_8 (c : Dev nD) : W8 m ρ c (Proc.devRef .tc main_arg12) = (arg m c main_arg12) :=
  (up8 m ρ c main_arg12 (by decide)).trans (f_arg12_7 m ρ c)

theorem f_arg12_9 (c : Dev nD) : W9 m ρ c (Proc.devRef .tc main_arg12) = (arg m c main_arg12) :=
  (up9 m ρ c main_arg12 (by decide)).trans (f_arg12_8 m ρ c)

theorem f_arg12_10 (c : Dev nD) : W10 m ρ c (Proc.devRef .tc main_arg12) = (arg m c main_arg12) :=
  (up10 m ρ c main_arg12 (by decide)).trans (f_arg12_9 m ρ c)

theorem f_arg12_11 (c : Dev nD) : W11 m ρ c (Proc.devRef .tc main_arg12) = (arg m c main_arg12) :=
  (up11 m ρ c main_arg12 (by decide)).trans (f_arg12_10 m ρ c)

theorem f_arg14_0 (c : Dev nD) : W0 m ρ c (Proc.devRef .tc main_arg14) = (arg m c main_arg14) := rfl

theorem f_arg14_1 (c : Dev nD) : W1 m ρ c (Proc.devRef .tc main_arg14) = (arg m c main_arg14) :=
  (up1 m ρ c main_arg14 (by decide)).trans (f_arg14_0 m ρ c)

theorem f_arg14_2 (c : Dev nD) : W2 m ρ c (Proc.devRef .tc main_arg14) = (arg m c main_arg14) :=
  (up2 m ρ c main_arg14 (by decide)).trans (f_arg14_1 m ρ c)

theorem f_arg14_3 (c : Dev nD) : W3 m ρ c (Proc.devRef .tc main_arg14) = (arg m c main_arg14) :=
  (up3 m ρ c main_arg14 (by decide)).trans (f_arg14_2 m ρ c)

theorem f_arg14_4 (c : Dev nD) : W4 m ρ c (Proc.devRef .tc main_arg14) = (arg m c main_arg14) :=
  (up4 m ρ c main_arg14 (by decide)).trans (f_arg14_3 m ρ c)

theorem f_arg14_5 (c : Dev nD) : W5 m ρ c (Proc.devRef .tc main_arg14) = (arg m c main_arg14) :=
  (up5 m ρ c main_arg14 (by decide)).trans (f_arg14_4 m ρ c)

theorem f_arg14_6 (c : Dev nD) : W6 m ρ c (Proc.devRef .tc main_arg14) = (arg m c main_arg14) :=
  (up6 m ρ c main_arg14 (by decide)).trans (f_arg14_5 m ρ c)

theorem f_arg14_7 (c : Dev nD) : W7 m ρ c (Proc.devRef .tc main_arg14) = (arg m c main_arg14) :=
  (up7 m ρ c main_arg14 (by decide)).trans (f_arg14_6 m ρ c)

theorem f_arg14_8 (c : Dev nD) : W8 m ρ c (Proc.devRef .tc main_arg14) = (arg m c main_arg14) :=
  (up8 m ρ c main_arg14 (by decide)).trans (f_arg14_7 m ρ c)

theorem f_arg14_9 (c : Dev nD) : W9 m ρ c (Proc.devRef .tc main_arg14) = (arg m c main_arg14) :=
  (up9 m ρ c main_arg14 (by decide)).trans (f_arg14_8 m ρ c)

theorem f_arg14_10 (c : Dev nD) : W10 m ρ c (Proc.devRef .tc main_arg14) = (arg m c main_arg14) :=
  (up10 m ρ c main_arg14 (by decide)).trans (f_arg14_9 m ρ c)

theorem f_arg14_11 (c : Dev nD) : W11 m ρ c (Proc.devRef .tc main_arg14) = (arg m c main_arg14) :=
  (up11 m ρ c main_arg14 (by decide)).trans (f_arg14_10 m ρ c)

theorem f_arg16_0 (c : Dev nD) : W0 m ρ c (Proc.devRef .tc main_arg16) = (arg m c main_arg16) := rfl

theorem f_arg16_1 (c : Dev nD) : W1 m ρ c (Proc.devRef .tc main_arg16) = (arg m c main_arg16) :=
  (up1 m ρ c main_arg16 (by decide)).trans (f_arg16_0 m ρ c)

theorem f_arg16_2 (c : Dev nD) : W2 m ρ c (Proc.devRef .tc main_arg16) = (arg m c main_arg16) :=
  (up2 m ρ c main_arg16 (by decide)).trans (f_arg16_1 m ρ c)

theorem f_arg16_3 (c : Dev nD) : W3 m ρ c (Proc.devRef .tc main_arg16) = (arg m c main_arg16) :=
  (up3 m ρ c main_arg16 (by decide)).trans (f_arg16_2 m ρ c)

theorem f_arg16_4 (c : Dev nD) : W4 m ρ c (Proc.devRef .tc main_arg16) = (arg m c main_arg16) :=
  (up4 m ρ c main_arg16 (by decide)).trans (f_arg16_3 m ρ c)

theorem f_arg16_5 (c : Dev nD) : W5 m ρ c (Proc.devRef .tc main_arg16) = (arg m c main_arg16) :=
  (up5 m ρ c main_arg16 (by decide)).trans (f_arg16_4 m ρ c)

theorem f_arg16_6 (c : Dev nD) : W6 m ρ c (Proc.devRef .tc main_arg16) = (arg m c main_arg16) :=
  (up6 m ρ c main_arg16 (by decide)).trans (f_arg16_5 m ρ c)

theorem f_arg16_7 (c : Dev nD) : W7 m ρ c (Proc.devRef .tc main_arg16) = (arg m c main_arg16) :=
  (up7 m ρ c main_arg16 (by decide)).trans (f_arg16_6 m ρ c)

theorem f_arg16_8 (c : Dev nD) : W8 m ρ c (Proc.devRef .tc main_arg16) = (arg m c main_arg16) :=
  (up8 m ρ c main_arg16 (by decide)).trans (f_arg16_7 m ρ c)

theorem f_arg16_9 (c : Dev nD) : W9 m ρ c (Proc.devRef .tc main_arg16) = (arg m c main_arg16) :=
  (up9 m ρ c main_arg16 (by decide)).trans (f_arg16_8 m ρ c)

theorem f_arg16_10 (c : Dev nD) : W10 m ρ c (Proc.devRef .tc main_arg16) = (arg m c main_arg16) :=
  (up10 m ρ c main_arg16 (by decide)).trans (f_arg16_9 m ρ c)

theorem f_arg16_11 (c : Dev nD) : W11 m ρ c (Proc.devRef .tc main_arg16) = (arg m c main_arg16) :=
  (up11 m ρ c main_arg16 (by decide)).trans (f_arg16_10 m ρ c)

/-- The program's result: the head of the third layer's result. -/
theorem f_v80_12 (c : Dev nD) : W12 m ρ c (Proc.devRef .tc main_v80) = val_main_v103 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) := by
  refine (W12_arr m ρ c 7).trans ?_
  refine (Head.final (V11 m ρ) c).trans ?_
  show GraphNet.affine 256 128 9 (GraphNet.affine 256 256 128 (GraphNet.affine 256 6400 256 (W11 m ρ c (Proc.devRef .tc main_v76)) (W11 m ρ c (Proc.devRef .tc main_arg12)) (W11 m ρ c (Proc.devRef .tc main_v77))) (W11 m ρ c (Proc.devRef .tc main_arg14)) (W11 m ρ c (Proc.devRef .tc main_v78))) (W11 m ρ c (Proc.devRef .tc main_arg16)) (W11 m ρ c (Proc.devRef .tc main_v79)) = _
  rw [f_v76_11 m ρ c, f_arg12_11 m ρ c, f_v77_11 m ρ c, f_arg14_11 m ρ c, f_v78_11 m ρ c, f_arg16_11 m ρ c, f_v79_11 m ρ c]
  rw [Cert.ReferenceIdeal.Stages.head3, Cert.ReferenceIdeal.Stages.head2, Cert.ReferenceIdeal.Stages.head1]

end Cert.KernelIdeal.Walk

end
-- ==== Proof.Claims.lean ====
/-
  The claims. At the ideal instance the kernel program's result buffer ends at the last boundary's contents, which
  the walk through the boundaries identifies with the reference's last stage of the launch arrays; the reference's run
  ends at the same stage of ITS launch arrays, and the two launches agree on every argument. The three frames are the
  generated ones (the reference's is its generated run with the result dropped), and the idealization rewrote
  nothing, so there is nothing to preserve.
-/
import proofs.«104714_j6545530159286_1_alg».proof.Defs
import proofs.«104714_j6545530159286_1_alg».proof.Proof.Gen.Kernel.Frame
import proofs.«104714_j6545530159286_1_alg».proof.Proof.Gen.KernelIdeal.Frame
import proofs.«104714_j6545530159286_1_alg».proof.Proof.Gen.ReferenceIdeal.Run
import proofs.«104714_j6545530159286_1_alg».proof.Proof.Gen.ReferenceIdeal.Read
import proofs.«104714_j6545530159286_1_alg».proof.Proof.Gen.Pre_finite_inputs
import proofs.«104714_j6545530159286_1_alg».proof.Proof.RunNamed
import proofs.«104714_j6545530159286_1_alg».proof.Proof.Walk

set_option maxRecDepth 16384

noncomputable section

open Idealize.ShloMosaic Idealize.ShloMosaic.TcCoe Idealize.SL.Sem

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference's last stage of the (agreeing) launch arrays. -/
theorem algebraic : Cert.algebraic_KernelIdeal_ReferenceIdeal := by
  intro m ρ m' ρ' _ hagree
  refine ⟨fun c => Cert.KernelIdeal.Gen.W12 m ρ c (Proc.devRef .tc Cert.KernelIdeal.main_v80), Cert.KernelIdeal.Whole.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  show _ = Cert.KernelIdeal.Gen.W12 m ρ c (Proc.devRef .tc Cert.KernelIdeal.main_v80)
  rw [Cert.ReferenceIdeal.Read.val_main_v103_eq, Cert.KernelIdeal.Walk.f_v80_12 m ρ c, h0, h1, h2, h3, h4, h5, h6, h7, h8, h9, h10, h11, h12, h13, h14, h15, h16, h17]

end Cert.Proof.Claims

end
-- ==== Proof.lean ====
/-
  `Cert.Claim`: the three frames, the (empty) idealization ledger, and the equivalence of the idealized kernel program
  with the idealized reference over the extended reals — a three-layer graph convolution network with a three-layer
  read-out head. The kernel program computes each layer's dense part `max (h·W₀ + tx·W₁ + b, 0)` in a gridded kernel
  over blocks of 4096 nodes and the head in one kernel; the reference computes them by whole-array matrix products;
  the Laplacian weights and the neighbourhood aggregates are the same host operations in both. Proof/Spec.lean states
  the mathematics, Proof/Layer*Body.lean and Proof/Layer*Array.lean and Proof/Head.lean read the kernel regions as those
  functions of whole arrays, Proof/RefStages.lean the reference's stages, Proof/RunNamed.lean the kernel program's run
  with its result named, Proof/Walk.lean the boundaries in between, Proof/Claims.lean the claims.
-/
import proofs.«104714_j6545530159286_1_alg».proof.Defs
import proofs.«104714_j6545530159286_1_alg».proof.Proof.Gen.Kernel
import proofs.«104714_j6545530159286_1_alg».proof.Proof.Gen.KernelIdeal
import proofs.«104714_j6545530159286_1_alg».proof.Proof.Gen.ReferenceIdeal
import proofs.«104714_j6545530159286_1_alg».proof.Proof.Gen.Pre_finite_inputs
import proofs.«104714_j6545530159286_1_alg».proof.Proof.Gen.ReferenceIdeal.Run
import proofs.«104714_j6545530159286_1_alg».proof.Proof.Gen.ReferenceIdeal.Read
import proofs.«104714_j6545530159286_1_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
